-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S2x128x128 : Shape := ⟨3, ![2, 128, 128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2x128 .f32) (main_arg7 : FVec F S2x128 .f32) (main_arg8 : FVec F S2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S2x128x128 .f32) (main_arg4 : FVec F S2x128 .f32) (main_arg5 : FVec F S2 .f32) (main_arg6 : FVec F S2x128 .f32) (main_arg7 : FVec F S2x128 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2 .f32 := Host.absf main_arg5
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S2x128x128 : Shape := ⟨3, ![2, 128, 128]⟩
abbrev S2x128 : Shape := ⟨2, ![2, 128]⟩
abbrev S2 : Shape := ⟨1, ![2]⟩
abbrev S1x128x128 : Shape := ⟨3, ![1, 128, 128]⟩
abbrev S128x128 : Shape := ⟨2, ![128, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S1 : Shape := ⟨1, ![1]⟩
abbrev S1x1 : Shape := ⟨2, ![1, 1]⟩

abbrev nBuf : Space → Nat
  | .hbm => 95
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S2x128x128, .f32⟩
  | .hbm, ⟨4, _⟩ => ⟨S2x128, .f32⟩
  | .hbm, ⟨5, _⟩ => ⟨S2, .f32⟩
  | .hbm, ⟨6, _⟩ => ⟨S2x128, .f32⟩
  | .hbm, ⟨7, _⟩ => ⟨S2x128, .f32⟩
  | .hbm, ⟨8, _⟩ => ⟨S2, .f32⟩
  | .hbm, ⟨9, _⟩ => ⟨S1x128x128, .f32⟩
  | .hbm, ⟨10, _⟩ => ⟨S128x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S1, .f32⟩
  | .hbm, ⟨29, _⟩ => ⟨S_, .f32⟩
  | .hbm, ⟨30, _⟩ => ⟨S1x1, .f32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S1, .f32⟩
  | .hbm, ⟨49, _⟩ => ⟨S_, .f32⟩
  | .hbm, ⟨50, _⟩ => ⟨S1x1, .f32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S1, .f32⟩
  | .hbm, ⟨72, _⟩ => ⟨S_, .f32⟩
  | .hbm, ⟨73, _⟩ => ⟨S1x1, .f32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1, .f32⟩
  | .hbm, ⟨92, _⟩ => ⟨S_, .f32⟩
  | .hbm, ⟨93, _⟩ => ⟨S1x1, .f32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x1, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x1, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x1, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_v55_2 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg5_0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem5_0 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  shapeCasts_S128_S1x128 : S128.ShapeCasts S1x128
  slices_S2_S1_0 : S2.Slices ![0] S1
  shapeCasts_S1_S_ : S1.ShapeCasts S_
  shapeCasts_S_S1x1 : S_.ShapeCasts S1x1
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  slices_S2_S1_1 : S2.Slices ![1] S1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v35) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v55_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v55_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S2x128x128 : Shape := ⟨3, ![2, 128, 128]⟩
abbrev S2x128 : Shape := ⟨2, ![2, 128]⟩
abbrev S2 : Shape := ⟨1, ![2]⟩
abbrev S1x128x128 : Shape := ⟨3, ![1, 128, 128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128 : Shape := ⟨1, ![128]⟩
abbrev S1 : Shape := ⟨1, ![1]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S2x128x128, .f32⟩
  | 4 => ⟨S2x128, .f32⟩
  | 5 => ⟨S2, .f32⟩
  | 6 => ⟨S2x128, .f32⟩
  | 7 => ⟨S2x128, .f32⟩
  | 8 => ⟨S2, .f32⟩
  | 9 => ⟨S1x128x128, .f32⟩
  | 10 => ⟨S128x128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S1, .f32⟩
  | 31 => ⟨S_, .f32⟩
  | 32 => ⟨S_, .f32⟩
  | 33 => ⟨S50000x128, .f32⟩
  | 34 => ⟨S50000x128, .i1⟩
  | 35 => ⟨S50000x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1, .f32⟩
  | 87 => ⟨S_, .f32⟩
  | 88 => ⟨S_, .f32⟩
  | 89 => ⟨S50000x128, .f32⟩
  | 90 => ⟨S50000x128, .i1⟩
  | 91 => ⟨S50000x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S1, .f32⟩
  | 116 => ⟨S_, .f32⟩
  | 117 => ⟨S_, .f32⟩
  | 118 => ⟨S50000x128, .f32⟩
  | 119 => ⟨S50000x128, .i1⟩
  | 120 => ⟨S50000x128, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1, .f32⟩
  | 44 => ⟨S_, .f32⟩
  | 45 => ⟨S_, .f32⟩
  | 46 => ⟨S50000x128, .f32⟩
  | 47 => ⟨S50000x128, .i1⟩
  | 48 => ⟨S50000x128, .f32⟩
  | 49 => ⟨S50000x128, .f32⟩
  | 50 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_5 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_6 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_7 : Ref sig .tc := ⟨.hbm, 97, rfl⟩
abbrev main_v58 : Ref sig .tc := ⟨.hbm, 98, rfl⟩
abbrev main_v59 : Ref sig .tc := ⟨.hbm, 99, rfl⟩
abbrev main_c_8 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_10 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_11 : Ref sig .tc := ⟨.hbm, 123, rfl⟩
abbrev main_v80 : Ref sig .tc := ⟨.hbm, 124, rfl⟩
abbrev main_cst_12 : Ref sig .tc := ⟨.hbm, 125, rfl⟩
abbrev main_v81 : Ref sig .tc := ⟨.hbm, 126, rfl⟩
abbrev main_v82 : Ref sig .tc := ⟨.hbm, 127, rfl⟩
abbrev main_c_13 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_cst_1 : Ref sig .tc := ⟨.hbm, 139, rfl⟩
abbrev main_call4_v8 : Ref sig .tc := ⟨.hbm, 140, rfl⟩
abbrev main_call4_cst_2 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_cst_3 : Ref sig .tc := ⟨.hbm, 145, rfl⟩
abbrev main_call4_v12 : Ref sig .tc := ⟨.hbm, 146, rfl⟩
abbrev main_call4_cst_4 : Ref sig .tc := ⟨.hbm, 147, rfl⟩
abbrev main_call4_call0_v0 : Ref sig .tc := ⟨.hbm, 148, rfl⟩
abbrev main_call4_call0_v1 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_14 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_15 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2_S1_0 : S2.Slices ![0] S1
  shapeCasts_S1_S_ : S1.ShapeCasts S_
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  slices_S2_S1_1 : S2.Slices ![1] S1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run with its result named.

  The program is six kernel launches among stretches of host operations.  Every weakly fair execution from a memory
  with zero counters terminates without a fault; in the final state the result buffer holds what the last boundary
  of the run's fold of buffer contents holds for it, and the nine argument arrays are as launched.  The fold is the
  one the frame of this program is proved over: a host stretch applies its operations, a launch leaves in each of
  its arrays what its blocks wrote back.
-/
import proofs.«173872_j25031069401694_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments end unchanged. -/
theorem run : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KRun

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.KMat0.lean ====
/-
  The first kernel launch: the product of the node features with a weight matrix, computed block of rows by block
  of rows.

  The launch has ten grid points.  Point t stages rows 5000 t … 5000 t + 4999 of the features and the whole weight
  matrix, multiplies them on the matrix unit into a zero accumulator, and writes the 5000 × 128 result back as rows
  5000 t … 5000 t + 4999 of the output.  A change of float format moves nothing on the extended reals, and entry
  (r, c) of a product depends on row r of the left operand only, so the output array is the textbook product of the
  whole arrays: entry (r, c) is the sum over k of features (r, k) · weights (k, c).
-/
import proofs.«173872_j25031069401694_1_alg».proof.Proof.Gen.KernelIdeal.Frame
import proofs.«173872_j25031069401694_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.KMat0

open Idealize.ShloMosaic Idealize.ShloMosaic.TcCoe Idealize.SL.Sem Idealize.ShloMosaic.ValueIdx
open Idealize.ShloMosaic.PlainDot
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the textbook product of the staged rows with the staged weights. -/
theorem pay_eq (x0 : FVec Ideal S5000x128 .f32) (x2 : FVec Ideal S128x128 .f32) :
    k0_pay1 (F := Ideal) x0 x2 = mm x0 x2 := by
  unfold k0_pay1
  show FloatOps.matmul dot_S5000x128_S128x128_S5000x128_1_0_0_1_n_n none x0
    (shapeCast S128x128 x2 shapeCasts_S128x128_S128x128) (constant S5000x128 .f32 0x00000000#32) = _
  rw [shapeCast_self]
  exact matmul_zero_eq_mm none x0 x2

/-- The printed index maps over the ten grid points: the feature block and the output block of point t are block t
    of the rows, the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed_eq (c : Dev nD) (t : Fin cfg0.N) :
    (dat0 (F := Ideal) V c).flushed 2 t
      = ((cfg0.win 2).blk t).view.read (Elt Ideal) (mm (V c main_arg0) (V c main_v1)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show mm (iblk0 V c 0 t) (iblk0 V c 1 t) j = mm (V c main_arg0) (V c main_v1) (((cfg0.win 2).blk t).view.emb j)
  unfold mm
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : iblk0 V c 1 t (ix2 k (j 1)) = V c main_v1 (ix2 k ((((cfg0.win 2).blk t).view.emb j) 1)) := by
    show V c main_v1 (((cfg0.win 1).blk t).view.emb (ix2 k (j 1))) = _
    refine congrArg (V c main_v1) ?_
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [h0, h1]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v2).slice (win0_2.rect t)).set ↔ _
  rw [View.set_slice_whole, Rect.mem_set_unit]
  exact Iff.rfl

/-- Row r of the output lies in the block of point r / 5000, and every point writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show (i 0).val / 5000 < 10; omega
  refine ⟨⟨(i 0).val / 5000, ht⟩, flush0_2 _, ?_⟩
  rw [mem_blk]
  obtain ⟨e0, e1, e2, e3, e4, e5⟩ := idx_facts ⟨(i 0).val / 5000, ht⟩
  have e4' : win0_2.index ⟨(i 0).val / 5000, ht⟩ (0 : Fin 2) = (i 0).val / 5000 := e4
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The output array after the launch is the product of the whole feature array with the weights. -/
theorem z_final (c : Dev nD) :
    (dat0 (F := Ideal) V c).arrAt 2 cfg0.N = mm (V c main_arg0) (V c main_v1) :=
  (dat0 (F := Ideal) V c).arrAt_eq_of_cover 2 (mm (V c main_arg0) (V c main_v1)) (fun t _ => flushed_eq V c t) cover

end Cert.KernelIdeal.KMat0

end
-- ==== Proof.KMat3.lean ====
/-
  The fourth kernel launch (the second layer's): the product of the node features with a weight matrix, computed block of rows by block
  of rows.

  The launch has ten grid points.  Point t stages rows 5000 t … 5000 t + 4999 of the features and the whole weight
  matrix, multiplies them on the matrix unit into a zero accumulator, and writes the 5000 × 128 result back as rows
  5000 t … 5000 t + 4999 of the output.  A change of float format moves nothing on the extended reals, and entry
  (r, c) of a product depends on row r of the left operand only, so the output array is the textbook product of the
  whole arrays: entry (r, c) is the sum over k of features (r, k) · weights (k, c).
-/
import proofs.«173872_j25031069401694_1_alg».proof.Proof.Gen.KernelIdeal.Frame
import proofs.«173872_j25031069401694_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.KMat3

open Idealize.ShloMosaic Idealize.ShloMosaic.TcCoe Idealize.SL.Sem Idealize.ShloMosaic.ValueIdx
open Idealize.ShloMosaic.PlainDot
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the textbook product of the staged rows with the staged weights. -/
theorem pay_eq (x0 : FVec Ideal S5000x128 .f32) (x2 : FVec Ideal S128x128 .f32) :
    k3_pay1 (F := Ideal) x0 x2 = mm x0 x2 := by
  unfold k3_pay1
  show FloatOps.matmul dot_S5000x128_S128x128_S5000x128_1_0_0_1_n_n none
    (shapeCast S5000x128 x0 shapeCasts_S5000x128_S5000x128)
    (shapeCast S128x128 x2 shapeCasts_S128x128_S128x128) (constant S5000x128 .f32 0x00000000#32) = _
  rw [shapeCast_self, shapeCast_self]
  exact matmul_zero_eq_mm none x0 x2

/-- The printed index maps over the ten grid points: the feature block and the output block of point t are block t
    of the rows, the weights' block is the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the whole arrays. -/
theorem flushed_eq (c : Dev nD) (t : Fin cfg3.N) :
    (dat3 (F := Ideal) V c).flushed 2 t
      = ((cfg3.win 2).blk t).view.read (Elt Ideal) (mm (V c main_v35) (V c main_v37)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show mm (iblk3 V c 0 t) (iblk3 V c 1 t) j = mm (V c main_v35) (V c main_v37) (((cfg3.win 2).blk t).view.emb j)
  unfold mm
  refine Finset.sum_congr rfl fun k _ => ?_
  have h0 : iblk3 V c 0 t (ix2 (j 0) k) = V c main_v35 (ix2 ((((cfg3.win 2).blk t).view.emb j) 0) k) := by
    show V c main_v35 (((cfg3.win 0).blk t).view.emb (ix2 (j 0) k)) = _
    refine congrArg (V c main_v35) ?_
    funext a; apply Fin.ext
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * k.val = k.val
      omega
  have h1 : iblk3 V c 1 t (ix2 k (j 1)) = V c main_v37 (ix2 k ((((cfg3.win 2).blk t).view.emb j) 1)) := by
    show V c main_v37 (((cfg3.win 1).blk t).view.emb (ix2 k (j 1))) = _
    refine congrArg (V c main_v37) ?_
    funext a; apply Fin.ext
    match a with
    | ⟨0, _⟩ =>
      show win3_1.index t (0 : Fin 2) * 128 + 1 * k.val = k.val
      omega
    | ⟨1, _⟩ =>
      show win3_1.index t (1 : Fin 2) * 128 + 1 * (j 1).val = win3_2.index t (1 : Fin 2) * 128 + 1 * (j 1).val
      omega
  rw [h0, h1]

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v38).slice (win3_2.rect t)).set ↔ _
  rw [View.set_slice_whole, Rect.mem_set_unit]
  exact Iff.rfl

/-- Row r of the output lies in the block of point r / 5000, and every point writes its block back. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have ht : (i 0).val / 5000 < cfg3.N := by show (i 0).val / 5000 < 10; omega
  refine ⟨⟨(i 0).val / 5000, ht⟩, flush3_2 _, ?_⟩
  rw [mem_blk]
  obtain ⟨e0, e1, e2, e3, e4, e5⟩ := idx_facts ⟨(i 0).val / 5000, ht⟩
  have e4' : win3_2.index ⟨(i 0).val / 5000, ht⟩ (0 : Fin 2) = (i 0).val / 5000 := e4
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- The output array after the launch is the product of the whole feature array with the weights. -/
theorem z_final (c : Dev nD) :
    (dat3 (F := Ideal) V c).arrAt 2 cfg3.N = mm (V c main_v35) (V c main_v37) :=
  (dat3 (F := Ideal) V c).arrAt_eq_of_cover 2 (mm (V c main_v35) (V c main_v37)) (fun t _ => flushed_eq V c t) cover

end Cert.KernelIdeal.KMat3

end
-- ==== Proof.Spec.lean ====
/-
  One layer of the network on the extended reals, entry by entry, and the two-layer network.

  A layer takes node features h (50000 nodes, 128 features), multiplies them by a 128 x 128 weight matrix, sums the
  products over the incoming edges of every node (the aggregation, carried here as a function `agg` of the whole
  array, the same on both sides), adds a bias row, applies a parametric rectifier with slope a, normalises every
  feature by its mean and variance over the nodes, scales by a gain row, adds a shift row and applies a second
  parametric rectifier.  The variance is written in two ways: the mean of the squares minus the square of the mean
  (`varK`), and the mean of the squared deviations from the mean (`varR`).  On real numbers the two are equal.
-/
import Idealize.ShloMosaic.PureOps.Ideal
import Idealize.ShloMosaic.PureOps.Ideal.Laws
import Idealize.ShloMosaic.Lib.ValueIdx
import proofs.«173872_j25031069401694_1_alg».proof.Proof.LibPlainDot

noncomputable section

open scoped BigOperators

namespace Cert.Spec

open Idealize.ShloMosaic Idealize.ShloMosaic.ValueIdx Idealize.ShloMosaic.PlainDot

/-- Node features: 50000 nodes by 128 features. -/
abbrev SA : Shape := ⟨2, ![50000, 128]⟩
/-- A weight matrix. -/
abbrev SW : Shape := ⟨2, ![128, 128]⟩
/-- A row of 128 features. -/
abbrev SR : Shape := ⟨2, ![1, 128]⟩

/-- The parametric rectifier: x where x ≥ 0, a · x elsewhere, as a selection on the comparison with the zero word. -/
def act (a x : EReal) : EReal :=
  Scalar.select (Ideal.cmp .oge x (Ideal.ofBits .f32 0x00000000#32)) x (a * x)

/-- The number of nodes, 50000, as its single-precision word. -/
def nodes : EReal := Ideal.ofBits .f32 0x47435000#32

/-- The normalisation's epsilon, 1e-5 rounded to single precision. -/
def eps : EReal := Ideal.ofBits .f32 0x3727C5AC#32

/-- The rectified pre-activation: act a (agg + bias row). -/
def pre (agg : SA.Idx → EReal) (bias : SR.Idx → EReal) (a : EReal) : SA.Idx → EReal :=
  fun j => act a (agg j + bias (ix2 (0 : Fin 1) (j 1)))

/-- The sum of every feature over the nodes. -/
def colsum (z : SA.Idx → EReal) : SR.Idx → EReal :=
  fun j => ∑ r : Fin 50000, z (ix2 r (j 1))

/-- The mean of every feature over the nodes. -/
def mean (z : SA.Idx → EReal) : SR.Idx → EReal :=
  fun j => Ideal.div (colsum z j) nodes

/-- The variance as the mean of the squares minus the square of the mean. -/
def varK (z : SA.Idx → EReal) : SR.Idx → EReal :=
  fun j => Ideal.div (colsum (fun i => z i * z i) j) nodes - mean z j * mean z j

/-- The variance as the mean of the squared deviations from the mean. -/
def varR (z : SA.Idx → EReal) : SR.Idx → EReal :=
  fun j => Ideal.div (colsum (fun i => (z i - mean z (ix2 (0 : Fin 1) (i 1))) * (z i - mean z (ix2 (0 : Fin 1) (i 1)))) j) nodes

/-- Normalise, scale, shift, rectify: act a ((z - mu) · rsqrt (var + eps) · g + bt). -/
def norm (z : SA.Idx → EReal) (mu var g bt : SR.Idx → EReal) (a : EReal) : SA.Idx → EReal :=
  fun j => act a ((z j - mu (ix2 (0 : Fin 1) (j 1))) * Ideal.rsqrt (var (ix2 (0 : Fin 1) (j 1)) + eps)
    * g (ix2 (0 : Fin 1) (j 1)) + bt (ix2 (0 : Fin 1) (j 1)))

/-- A layer with the variance as the mean of the squares minus the square of the mean. -/
def layerK (agg : (SA.Idx → EReal) → SA.Idx → EReal) (h : SA.Idx → EReal) (w : SW.Idx → EReal)
    (bias : SR.Idx → EReal) (a : EReal) (g bt : SR.Idx → EReal) (a2 : EReal) : SA.Idx → EReal :=
  norm (pre (agg (mm h w)) bias a) (mean (pre (agg (mm h w)) bias a)) (varK (pre (agg (mm h w)) bias a)) g bt a2

/-- A layer with the variance as the mean of the squared deviations. -/
def layerR (agg : (SA.Idx → EReal) → SA.Idx → EReal) (h : SA.Idx → EReal) (w : SW.Idx → EReal)
    (bias : SR.Idx → EReal) (a : EReal) (g bt : SR.Idx → EReal) (a2 : EReal) : SA.Idx → EReal :=
  norm (pre (agg (mm h w)) bias a) (mean (pre (agg (mm h w)) bias a)) (varR (pre (agg (mm h w)) bias a)) g bt a2

/-- The edge list as a column of 800000 indices. -/
abbrev SI : Shape := ⟨2, ![800000, 1]⟩
/-- One row of features per edge. -/
abbrev SU : Shape := ⟨2, ![800000, 128]⟩

/-- The aggregation over the edges: the rows of z gathered at the source indices si, then added into the array
    `zero` at the rows the destination indices di name. -/
def aggOf (gd : GatherDims SA SI SU) (sd : ScatterDims SA SI SU) (zero : FVec Ideal SA .f32) (si di : IVec SI 32)
    (z : FVec Ideal SA .f32) : FVec Ideal SA .f32 :=
  Host.scatterAdd sd zero di (Host.gather gd z si)

/-- Layer l's weight matrix out of the stacked weights. -/
def wOf (l : Fin 2) (W : (⟨3, ![2, 128, 128]⟩ : Shape).Idx → EReal) : SW.Idx → EReal :=
  fun j => W (ix3 l (j 0) (j 1))

/-- Layer l's row out of two stacked rows. -/
def rowOf (l : Fin 2) (b : (⟨2, ![2, 128]⟩ : Shape).Idx → EReal) : SR.Idx → EReal :=
  fun j => b (ix2 l (j 1))

/-- Layer l's scalar out of two stacked scalars. -/
def scOf (l : Fin 2) (a : (⟨1, ![2]⟩ : Shape).Idx → EReal) : EReal := a (ix1 l)

/-- The two layers, one after the other, with the first form of the variance. -/
def netK (agg : (SA.Idx → EReal) → SA.Idx → EReal) (heat : SA.Idx → EReal)
    (W : (⟨3, ![2, 128, 128]⟩ : Shape).Idx → EReal) (b : (⟨2, ![2, 128]⟩ : Shape).Idx → EReal)
    (ac : (⟨1, ![2]⟩ : Shape).Idx → EReal) (g bt : (⟨2, ![2, 128]⟩ : Shape).Idx → EReal)
    (ao : (⟨1, ![2]⟩ : Shape).Idx → EReal) : SA.Idx → EReal :=
  layerK agg (layerK agg heat (wOf 0 W) (rowOf 0 b) (scOf 0 ac) (rowOf 0 g) (rowOf 0 bt) (scOf 0 ao))
    (wOf 1 W) (rowOf 1 b) (scOf 1 ac) (rowOf 1 g) (rowOf 1 bt) (scOf 1 ao)

/-- The two layers, one after the other, with the second form of the variance. -/
def netR (agg : (SA.Idx → EReal) → SA.Idx → EReal) (heat : SA.Idx → EReal)
    (W : (⟨3, ![2, 128, 128]⟩ : Shape).Idx → EReal) (b : (⟨2, ![2, 128]⟩ : Shape).Idx → EReal)
    (ac : (⟨1, ![2]⟩ : Shape).Idx → EReal) (g bt : (⟨2, ![2, 128]⟩ : Shape).Idx → EReal)
    (ao : (⟨1, ![2]⟩ : Shape).Idx → EReal) : SA.Idx → EReal :=
  layerR agg (layerR agg heat (wOf 0 W) (rowOf 0 b) (scOf 0 ac) (rowOf 0 g) (rowOf 0 bt) (scOf 0 ao))
    (wOf 1 W) (rowOf 1 b) (scOf 1 ac) (rowOf 1 g) (rowOf 1 bt) (scOf 1 ao)

end Cert.Spec

end
-- ==== Proof.KNorm2.lean ====
/-
  The third kernel launch: normalise, scale, shift and rectify, block of rows by block of rows.

  The launch has ten grid points.  Point t stages rows 5000 t … 5000 t + 4999 of the rectified pre-activation z and
  the whole mean, variance, gain and shift rows and the slope, computes entry by entry
  act a ((z - mean) · rsqrt (variance + eps) · gain + shift), and writes the block back as the same rows of the
  output.  Every operation is entry by entry and a row is broadcast over the rows of the block, so the output array
  is that function of the whole arrays.
-/
import proofs.«173872_j25031069401694_1_alg».proof.Proof.Gen.KernelIdeal.Frame
import proofs.«173872_j25031069401694_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KNorm2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The one entry of a 1 × 1 array. -/
theorem extract_one (v : FVec Ideal S1x1 .f32) :
    extractAt ![0, 0] v inpos_S1x1_p0_0 = v (ix2 (0 : Fin 1) (0 : Fin 1)) := by
  unfold extractAt
  refine congrArg v (funext fun a => ?_)
  match a with
  | ⟨0, _⟩ => rfl
  | ⟨1, _⟩ => rfl

/-- The body's stored value at an entry of the block: the normalised, scaled, shifted and rectified entry. -/
theorem pay_apply (v0 v2 v7 v9 : FVec Ideal S1x128 .f32) (v11 : FVec Ideal S1x1 .f32)
    (v13 : FVec Ideal S5000x128 .f32) (j : S5000x128.Idx) :
    k2_pay1 (F := Ideal) v0 v2 v7 v9 v11 v13 j
      = Cert.Spec.act (v11 (ix2 (0 : Fin 1) (0 : Fin 1)))
          ((v13 j - v0 (ix2 (0 : Fin 1) (j 1))) * Ideal.rsqrt (v2 (ix2 (0 : Fin 1) (j 1)) + Cert.Spec.eps)
            * v7 (ix2 (0 : Fin 1) (j 1)) + v9 (ix2 (0 : Fin 1) (j 1))) := by
  obtain ⟨p, q, rfl⟩ : ∃ (p : Fin 5000) (q : Fin 128), j = ix2 p q := ⟨j 0, j 1, eq_ix2 j⟩
  unfold k2_pay1
  simp only [shapeCast_self, extract_one]
  simp only [select, cmpf, mulf, addf, subf, rsqrt, broadcast]
  simp only [broadcastTo_1b_ab_apply]
  rfl

/-- The printed index maps over the ten grid points: the block of z and the output block of point t are block t of
    the rows; the rows and the slope are staged whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Point t's staged block of z is rows 5000 t … of z. -/
theorem blk0 (c : Dev nD) (t : Fin cfg2.N) (j : ((cfg2.win 6).xblock (grid2.coords t)).Idx) :
    iblk2 V c 0 t j = V c main_v19_0 (((cfg2.win 6).blk t).view.emb j) := by
  obtain ⟨e0, e1, e2, e3, e4, e5, e6, e7, e8, e9, e10, e11, e12, e13⟩ := idx_facts t
  show V c main_v19_0 (((cfg2.win 0).blk t).view.emb j) = _
  refine congrArg (V c main_v19_0) ?_
  funext a; apply Fin.ext
  match a with
  | ⟨0, _⟩ =>
    show win2_0.index t (0 : Fin 2) * 5000 + 1 * (j 0).val = win2_6.index t (0 : Fin 2) * 5000 + 1 * (j 0).val
    omega
  | ⟨1, _⟩ =>
    show win2_0.index t (1 : Fin 2) * 128 + 1 * (j 1).val = win2_6.index t (1 : Fin 2) * 128 + 1 * (j 1).val
    omega

/-- Point t's staged copy of row array 1 is the whole row. -/
theorem blk1 (c : Dev nD) (t : Fin cfg2.N) (j : ((cfg2.win 6).xblock (grid2.coords t)).Idx) :
    iblk2 V c 1 t (ix2 (0 : Fin 1) (j 1)) = V c main_v21 (ix2 (0 : Fin 1) ((((cfg2.win 6).blk t).view.emb j) 1)) := by
  obtain ⟨e0, e1, e2, e3, e4, e5, e6, e7, e8, e9, e10, e11, e12, e13⟩ := idx_facts t
  show V c main_v21 (((cfg2.win 1).blk t).view.emb (ix2 (0 : Fin 1) (j 1))) = _
  refine congrArg (V c main_v21) ?_
  funext a; apply Fin.ext
  match a with
  | ⟨0, _⟩ =>
    show win2_1.index t (0 : Fin 2) * 1 + 1 * 0 = 0
    omega
  | ⟨1, _⟩ =>
    show win2_1.index t (1 : Fin 2) * 128 + 1 * (j 1).val = win2_6.index t (1 : Fin 2) * 128 + 1 * (j 1).val
    omega

/-- Point t's staged copy of row array 2 is the whole row. -/
theorem blk2 (c : Dev nD) (t : Fin cfg2.N) (j : ((cfg2.win 6).xblock (grid2.coords t)).Idx) :
    iblk2 V c 2 t (ix2 (0 : Fin 1) (j 1)) = V c main_v25 (ix2 (0 : Fin 1) ((((cfg2.win 6).blk t).view.emb j) 1)) := by
  obtain ⟨e0, e1, e2, e3, e4, e5, e6, e7, e8, e9, e10, e11, e12, e13⟩ := idx_facts t
  show V c main_v25 (((cfg2.win 2).blk t).view.emb (ix2 (0 : Fin 1) (j 1))) = _
  refine congrArg (V c main_v25) ?_
  funext a; apply Fin.ext
  match a with
  | ⟨0, _⟩ =>
    show win2_2.index t (0 : Fin 2) * 1 + 1 * 0 = 0
    omega
  | ⟨1, _⟩ =>
    show win2_2.index t (1 : Fin 2) * 128 + 1 * (j 1).val = win2_6.index t (1 : Fin 2) * 128 + 1 * (j 1).val
    omega

/-- Point t's staged copy of row array 3 is the whole row. -/
theorem blk3 (c : Dev nD) (t : Fin cfg2.N) (j : ((cfg2.win 6).xblock (grid2.coords t)).Idx) :
    iblk2 V c 3 t (ix2 (0 : Fin 1) (j 1)) = V c main_v28 (ix2 (0 : Fin 1) ((((cfg2.win 6).blk t).view.emb j) 1)) := by
  obtain ⟨e0, e1, e2, e3, e4, e5, e6, e7, e8, e9, e10, e11, e12, e13⟩ := idx_facts t
  show V c main_v28 (((cfg2.win 3).blk t).view.emb (ix2 (0 : Fin 1) (j 1))) = _
  refine congrArg (V c main_v28) ?_
  funext a; apply Fin.ext
  match a with
  | ⟨0, _⟩ =>
    show win2_3.index t (0 : Fin 2) * 1 + 1 * 0 = 0
    omega
  | ⟨1, _⟩ =>
    show win2_3.index t (1 : Fin 2) * 128 + 1 * (j 1).val = win2_6.index t (1 : Fin 2) * 128 + 1 * (j 1).val
    omega

/-- Point t's staged copy of row array 4 is the whole row. -/
theorem blk4 (c : Dev nD) (t : Fin cfg2.N) (j : ((cfg2.win 6).xblock (grid2.coords t)).Idx) :
    iblk2 V c 4 t (ix2 (0 : Fin 1) (j 1)) = V c main_v31 (ix2 (0 : Fin 1) ((((cfg2.win 6).blk t).view.emb j) 1)) := by
  obtain ⟨e0, e1, e2, e3, e4, e5, e6, e7, e8, e9, e10, e11, e12, e13⟩ := idx_facts t
  show V c main_v31 (((cfg2.win 4).blk t).view.emb (ix2 (0 : Fin 1) (j 1))) = _
  refine congrArg (V c main_v31) ?_
  funext a; apply Fin.ext
  match a with
  | ⟨0, _⟩ =>
    show win2_4.index t (0 : Fin 2) * 1 + 1 * 0 = 0
    omega
  | ⟨1, _⟩ =>
    show win2_4.index t (1 : Fin 2) * 128 + 1 * (j 1).val = win2_6.index t (1 : Fin 2) * 128 + 1 * (j 1).val
    omega

/-- Point t's staged copy of the slope is the slope. -/
theorem blk5 (c : Dev nD) (t : Fin cfg2.N) :
    iblk2 V c 5 t (ix2 (0 : Fin 1) (0 : Fin 1)) = V c main_v34 (ix2 (0 : Fin 1) (0 : Fin 1)) := by
  obtain ⟨e0, e1, e2, e3, e4, e5, e6, e7, e8, e9, e10, e11, e12, e13⟩ := idx_facts t
  show V c main_v34 (((cfg2.win 5).blk t).view.emb (ix2 (0 : Fin 1) (0 : Fin 1))) = _
  refine congrArg (V c main_v34) ?_
  funext a; apply Fin.ext
  match a with
  | ⟨0, _⟩ =>
    show win2_5.index t (0 : Fin 2) * 1 + 1 * 0 = 0
    omega
  | ⟨1, _⟩ =>
    show win2_5.index t (1 : Fin 2) * 1 + 1 * 0 = 0
    omega

/-- What point t writes back is block t of the normalised array of the whole arrays. -/
theorem flushed_eq (c : Dev nD) (t : Fin cfg2.N) :
    (dat2 (F := Ideal) V c).flushed 6 t
      = ((cfg2.win 6).blk t).view.read (Elt Ideal)
          (Cert.Spec.norm (V c main_v19_0) (V c main_v21) (V c main_v25) (V c main_v28) (V c main_v31)
            (V c main_v34 (ix2 (0 : Fin 1) (0 : Fin 1)))) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz, View.ld_unit_zero (S := S1x1) hz]
  funext j
  show k2_pay1 (F := Ideal) (iblk2 V c 1 t) (iblk2 V c 2 t) (iblk2 V c 3 t) (iblk2 V c 4 t) (iblk2 V c 5 t) (iblk2 V c 0 t) j
    = Cert.Spec.norm (V c main_v19_0) (V c main_v21) (V c main_v25) (V c main_v28) (V c main_v31)
        (V c main_v34 (ix2 (0 : Fin 1) (0 : Fin 1))) (((cfg2.win 6).blk t).view.emb j)
  rw [pay_apply]
  unfold Cert.Spec.norm
  rw [blk0 V c t j, blk1 V c t j, blk2 V c t j, blk3 V c t j, blk4 V c t j, blk5 V c t]

/-- An index of the output array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v35).slice (win2_6.rect t)).set ↔ _
  rw [View.set_slice_whole, Rect.mem_set_unit]
  exact Iff.rfl

/-- Row r of the output lies in the block of point r / 5000, and every point writes its block back. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 5000 < cfg2.N := by show (i 0).val / 5000 < 10; omega
  refine ⟨⟨(i 0).val / 5000, ht⟩, flush2_6 _, ?_⟩
  rw [mem_blk]
  obtain ⟨e0, e1, e2, e3, e4, e5, e6, e7, e8, e9, e10, e11, e12, e13⟩ := idx_facts ⟨(i 0).val / 5000, ht⟩
  have e12' : win2_6.index ⟨(i 0).val / 5000, ht⟩ (0 : Fin 2) = (i 0).val / 5000 := e12
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    omega

/-- The output array after the launch is the normalised, scaled, shifted and rectified array of the whole arrays. -/
theorem h_final (c : Dev nD) :
    (dat2 (F := Ideal) V c).arrAt 6 cfg2.N
      = Cert.Spec.norm (V c main_v19_0) (V c main_v21) (V c main_v25) (V c main_v28) (V c main_v31)
          (V c main_v34 (ix2 (0 : Fin 1) (0 : Fin 1))) :=
  (dat2 (F := Ideal) V c).arrAt_eq_of_cover 6 _ (fun t _ => flushed_eq V c t) cover

end Cert.KernelIdeal.KNorm2

end
-- ==== Proof.KNorm5.lean ====
/-
  The sixth kernel launch (the second layer's): normalise, scale, shift and rectify, block of rows by block of rows.

  The launch has ten grid points.  Point t stages rows 5000 t … 5000 t + 4999 of the rectified pre-activation z and
  the whole mean, variance, gain and shift rows and the slope, computes entry by entry
  act a ((z - mean) · rsqrt (variance + eps) · gain + shift), and writes the block back as the same rows of the
  output.  Every operation is entry by entry and a row is broadcast over the rows of the block, so the output array
  is that function of the whole arrays.
-/
import proofs.«173872_j25031069401694_1_alg».proof.Proof.Gen.KernelIdeal.Frame
import proofs.«173872_j25031069401694_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KNorm5

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The one entry of a 1 × 1 array. -/
theorem extract_one (v : FVec Ideal S1x1 .f32) :
    extractAt ![0, 0] v inpos_S1x1_p0_0 = v (ix2 (0 : Fin 1) (0 : Fin 1)) := by
  unfold extractAt
  refine congrArg v (funext fun a => ?_)
  match a with
  | ⟨0, _⟩ => rfl
  | ⟨1, _⟩ => rfl

/-- The body's stored value at an entry of the block: the normalised, scaled, shifted and rectified entry. -/
theorem pay_apply (v0 v2 v7 v9 : FVec Ideal S1x128 .f32) (v11 : FVec Ideal S1x1 .f32)
    (v13 : FVec Ideal S5000x128 .f32) (j : S5000x128.Idx) :
    k5_pay1 (F := Ideal) v0 v2 v7 v9 v11 v13 j
      = Cert.Spec.act (v11 (ix2 (0 : Fin 1) (0 : Fin 1)))
          ((v13 j - v0 (ix2 (0 : Fin 1) (j 1))) * Ideal.rsqrt (v2 (ix2 (0 : Fin 1) (j 1)) + Cert.Spec.eps)
            * v7 (ix2 (0 : Fin 1) (j 1)) + v9 (ix2 (0 : Fin 1) (j 1))) := by
  obtain ⟨p, q, rfl⟩ : ∃ (p : Fin 5000) (q : Fin 128), j = ix2 p q := ⟨j 0, j 1, eq_ix2 j⟩
  unfold k5_pay1
  simp only [shapeCast_self, extract_one]
  simp only [select, cmpf, mulf, addf, subf, rsqrt, broadcast]
  simp only [broadcastTo_1b_ab_apply]
  rfl

/-- The printed index maps over the ten grid points: the block of z and the output block of point t are block t of
    the rows; the rows and the slope are staged whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Point t's staged block of z is rows 5000 t … of z. -/
theorem blk0 (c : Dev nD) (t : Fin cfg5.N) (j : ((cfg5.win 6).xblock (grid5.coords t)).Idx) :
    iblk5 V c 0 t j = V c main_v55_0 (((cfg5.win 6).blk t).view.emb j) := by
  obtain ⟨e0, e1, e2, e3, e4, e5, e6, e7, e8, e9, e10, e11, e12, e13⟩ := idx_facts t
  show V c main_v55_0 (((cfg5.win 0).blk t).view.emb j) = _
  refine congrArg (V c main_v55_0) ?_
  funext a; apply Fin.ext
  match a with
  | ⟨0, _⟩ =>
    show win5_0.index t (0 : Fin 2) * 5000 + 1 * (j 0).val = win5_6.index t (0 : Fin 2) * 5000 + 1 * (j 0).val
    omega
  | ⟨1, _⟩ =>
    show win5_0.index t (1 : Fin 2) * 128 + 1 * (j 1).val = win5_6.index t (1 : Fin 2) * 128 + 1 * (j 1).val
    omega

/-- Point t's staged copy of row array 1 is the whole row. -/
theorem blk1 (c : Dev nD) (t : Fin cfg5.N) (j : ((cfg5.win 6).xblock (grid5.coords t)).Idx) :
    iblk5 V c 1 t (ix2 (0 : Fin 1) (j 1)) = V c main_v57 (ix2 (0 : Fin 1) ((((cfg5.win 6).blk t).view.emb j) 1)) := by
  obtain ⟨e0, e1, e2, e3, e4, e5, e6, e7, e8, e9, e10, e11, e12, e13⟩ := idx_facts t
  show V c main_v57 (((cfg5.win 1).blk t).view.emb (ix2 (0 : Fin 1) (j 1))) = _
  refine congrArg (V c main_v57) ?_
  funext a; apply Fin.ext
  match a with
  | ⟨0, _⟩ =>
    show win5_1.index t (0 : Fin 2) * 1 + 1 * 0 = 0
    omega
  | ⟨1, _⟩ =>
    show win5_1.index t (1 : Fin 2) * 128 + 1 * (j 1).val = win5_6.index t (1 : Fin 2) * 128 + 1 * (j 1).val
    omega

/-- Point t's staged copy of row array 2 is the whole row. -/
theorem blk2 (c : Dev nD) (t : Fin cfg5.N) (j : ((cfg5.win 6).xblock (grid5.coords t)).Idx) :
    iblk5 V c 2 t (ix2 (0 : Fin 1) (j 1)) = V c main_v61 (ix2 (0 : Fin 1) ((((cfg5.win 6).blk t).view.emb j) 1)) := by
  obtain ⟨e0, e1, e2, e3, e4, e5, e6, e7, e8, e9, e10, e11, e12, e13⟩ := idx_facts t
  show V c main_v61 (((cfg5.win 2).blk t).view.emb (ix2 (0 : Fin 1) (j 1))) = _
  refine congrArg (V c main_v61) ?_
  funext a; apply Fin.ext
  match a with
  | ⟨0, _⟩ =>
    show win5_2.index t (0 : Fin 2) * 1 + 1 * 0 = 0
    omega
  | ⟨1, _⟩ =>
    show win5_2.index t (1 : Fin 2) * 128 + 1 * (j 1).val = win5_6.index t (1 : Fin 2) * 128 + 1 * (j 1).val
    omega

/-- Point t's staged copy of row array 3 is the whole row. -/
theorem blk3 (c : Dev nD) (t : Fin cfg5.N) (j : ((cfg5.win 6).xblock (grid5.coords t)).Idx) :
    iblk5 V c 3 t (ix2 (0 : Fin 1) (j 1)) = V c main_v64 (ix2 (0 : Fin 1) ((((cfg5.win 6).blk t).view.emb j) 1)) := by
  obtain ⟨e0, e1, e2, e3, e4, e5, e6, e7, e8, e9, e10, e11, e12, e13⟩ := idx_facts t
  show V c main_v64 (((cfg5.win 3).blk t).view.emb (ix2 (0 : Fin 1) (j 1))) = _
  refine congrArg (V c main_v64) ?_
  funext a; apply Fin.ext
  match a with
  | ⟨0, _⟩ =>
    show win5_3.index t (0 : Fin 2) * 1 + 1 * 0 = 0
    omega
  | ⟨1, _⟩ =>
    show win5_3.index t (1 : Fin 2) * 128 + 1 * (j 1).val = win5_6.index t (1 : Fin 2) * 128 + 1 * (j 1).val
    omega

/-- Point t's staged copy of row array 4 is the whole row. -/
theorem blk4 (c : Dev nD) (t : Fin cfg5.N) (j : ((cfg5.win 6).xblock (grid5.coords t)).Idx) :
    iblk5 V c 4 t (ix2 (0 : Fin 1) (j 1)) = V c main_v67 (ix2 (0 : Fin 1) ((((cfg5.win 6).blk t).view.emb j) 1)) := by
  obtain ⟨e0, e1, e2, e3, e4, e5, e6, e7, e8, e9, e10, e11, e12, e13⟩ := idx_facts t
  show V c main_v67 (((cfg5.win 4).blk t).view.emb (ix2 (0 : Fin 1) (j 1))) = _
  refine congrArg (V c main_v67) ?_
  funext a; apply Fin.ext
  match a with
  | ⟨0, _⟩ =>
    show win5_4.index t (0 : Fin 2) * 1 + 1 * 0 = 0
    omega
  | ⟨1, _⟩ =>
    show win5_4.index t (1 : Fin 2) * 128 + 1 * (j 1).val = win5_6.index t (1 : Fin 2) * 128 + 1 * (j 1).val
    omega

/-- Point t's staged copy of the slope is the slope. -/
theorem blk5 (c : Dev nD) (t : Fin cfg5.N) :
    iblk5 V c 5 t (ix2 (0 : Fin 1) (0 : Fin 1)) = V c main_v70 (ix2 (0 : Fin 1) (0 : Fin 1)) := by
  obtain ⟨e0, e1, e2, e3, e4, e5, e6, e7, e8, e9, e10, e11, e12, e13⟩ := idx_facts t
  show V c main_v70 (((cfg5.win 5).blk t).view.emb (ix2 (0 : Fin 1) (0 : Fin 1))) = _
  refine congrArg (V c main_v70) ?_
  funext a; apply Fin.ext
  match a with
  | ⟨0, _⟩ =>
    show win5_5.index t (0 : Fin 2) * 1 + 1 * 0 = 0
    omega
  | ⟨1, _⟩ =>
    show win5_5.index t (1 : Fin 2) * 1 + 1 * 0 = 0
    omega

/-- What point t writes back is block t of the normalised array of the whole arrays. -/
theorem flushed_eq (c : Dev nD) (t : Fin cfg5.N) :
    (dat5 (F := Ideal) V c).flushed 6 t
      = ((cfg5.win 6).blk t).view.read (Elt Ideal)
          (Cert.Spec.norm (V c main_v55_0) (V c main_v57) (V c main_v61) (V c main_v64) (V c main_v67)
            (V c main_v70 (ix2 (0 : Fin 1) (0 : Fin 1)))) := by
  show (cfg5.win 6).cut (grid5.coords t) ((dat5 (F := Ideal) V c).after 6 t) = _
  rw [after5_6]
  unfold out5_6
  rw [View.canon_unit_zero hz]
  simp only [View.ld_unit_zero (S := S5000x128) hz, View.ld_unit_zero (S := S1x128) hz, View.ld_unit_zero (S := S1x1) hz]
  funext j
  show k5_pay1 (F := Ideal) (iblk5 V c 1 t) (iblk5 V c 2 t) (iblk5 V c 3 t) (iblk5 V c 4 t) (iblk5 V c 5 t) (iblk5 V c 0 t) j
    = Cert.Spec.norm (V c main_v55_0) (V c main_v57) (V c main_v61) (V c main_v64) (V c main_v67)
        (V c main_v70 (ix2 (0 : Fin 1) (0 : Fin 1))) (((cfg5.win 6).blk t).view.emb j)
  rw [pay_apply]
  unfold Cert.Spec.norm
  rw [blk0 V c t j, blk1 V c t j, blk2 V c t j, blk3 V c t j, blk4 V c t j, blk5 V c t]

/-- An index of the output array is in point t's block iff each coordinate is in the block's range on its axis. -/
theorem mem_blk (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v71).slice (win5_6.rect t)).set ↔ _
  rw [View.set_slice_whole, Rect.mem_set_unit]
  exact Iff.rfl

/-- Row r of the output lies in the block of point r / 5000, and every point writes its block back. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have ht : (i 0).val / 5000 < cfg5.N := by show (i 0).val / 5000 < 10; omega
  refine ⟨⟨(i 0).val / 5000, ht⟩, flush5_6 _, ?_⟩
  rw [mem_blk]
  obtain ⟨e0, e1, e2, e3, e4, e5, e6, e7, e8, e9, e10, e11, e12, e13⟩ := idx_facts ⟨(i 0).val / 5000, ht⟩
  have e12' : win5_6.index ⟨(i 0).val / 5000, ht⟩ (0 : Fin 2) = (i 0).val / 5000 := e12
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    omega

/-- The output array after the launch is the normalised, scaled, shifted and rectified array of the whole arrays. -/
theorem h_final (c : Dev nD) :
    (dat5 (F := Ideal) V c).arrAt 6 cfg5.N
      = Cert.Spec.norm (V c main_v55_0) (V c main_v57) (V c main_v61) (V c main_v64) (V c main_v67)
          (V c main_v70 (ix2 (0 : Fin 1) (0 : Fin 1))) :=
  (dat5 (F := Ideal) V c).arrAt_eq_of_cover 6 _ (fun t _ => flushed_eq V c t) cover

end Cert.KernelIdeal.KNorm5

end
-- ==== Proof.LibAccBlocks.lean ====
/-
  Sums accumulated block by block.

  A quantity that gains, at step `k`, the sum of `f` over the `k`-th block of `B` consecutive naturals has gained,
  after `K` steps, the sum of `f` over the first `B * K` naturals (`acc_blocks`, and from an offset
  `acc_blocks_offset`); a sum over `n + n` naturals is the sum over the first `n` plus the sum over the next `n`
  (`two_halves`); a sum over `Fin n` is a sum over `range n` (`sum_fin_eq_range`).
-/
import Mathlib.Algebra.BigOperators.Fin

open Finset

namespace Cert.LibAccBlocks

variable {M : Type*} [AddCommMonoid M]

/-- Block by block from an offset `o`: if `a (k + 1) = a k + ∑ d < B, f (o + B k + d)` for every `k < K`, then
    `a K = a 0 + ∑ d < B K, f (o + d)`. -/
theorem acc_blocks_offset (B K o : ℕ) (a : ℕ → M) (f : ℕ → M)
    (h : ∀ k, k < K → a (k + 1) = a k + ∑ d ∈ range B, f (o + B * k + d)) :
    a K = a 0 + ∑ d ∈ range (B * K), f (o + d) := by
  induction K with
  | zero => simp
  | succ K ih =>
    have e : ∀ d, f (o + B * K + d) = f (o + (B * K + d)) := fun d => by rw [Nat.add_assoc]
    rw [h K (Nat.lt_succ_self K), ih (fun k hk => h k (Nat.lt_succ_of_lt hk)), Nat.mul_succ,
      sum_range_add (fun d => f (o + d)) (B * K) B]
    simp only [e, add_assoc]

/-- Block by block from zero: if `a (k + 1) = a k + ∑ d < B, f (B k + d)` for every `k < K`, then
    `a K = a 0 + ∑ d < B K, f d`. -/
theorem acc_blocks (B K : ℕ) (a : ℕ → M) (f : ℕ → M)
    (h : ∀ k, k < K → a (k + 1) = a k + ∑ d ∈ range B, f (B * k + d)) :
    a K = a 0 + ∑ d ∈ range (B * K), f d := by
  have h' : ∀ k, k < K → a (k + 1) = a k + ∑ d ∈ range B, f (0 + B * k + d) := fun k hk => by
    rw [h k hk]; simp only [Nat.zero_add]
  have := acc_blocks_offset B K 0 a f h'
  simpa only [Nat.zero_add] using this

/-- The first `n` terms plus the next `n` terms are the first `n + n` terms. -/
theorem two_halves (n : ℕ) (f : ℕ → M) :
    (∑ d ∈ range n, f d) + (∑ d ∈ range n, f (n + d)) = ∑ d ∈ range (n + n), f d :=
  (sum_range_add f n n).symm

/-- A sum over `Fin n` as a sum over `range n`. -/
theorem sum_fin_eq_range (n : ℕ) (g : Fin n → M) :
    ∑ k : Fin n, g k = ∑ d ∈ range n, (if h : d < n then g ⟨d, h⟩ else 0) := by
  rw [sum_range fun d => if h : d < n then g ⟨d, h⟩ else 0]
  exact Fintype.sum_congr _ _ fun k => by rw [dif_pos k.isLt]

end Cert.LibAccBlocks
-- ==== Proof.KStage1.lean ====
/-
  The value of the first normalisation stage of a layer, read off the run of its kernel.

  The kernel walks the 50000 rows in ten blocks of 5000.  At every block it adds the bias row to the aggregated
  features, applies the parametric rectifier with the slope, and writes the block of z back; it also adds the block's
  column sums of z and of z · z to two rows that start from zero at the first block and are written back after the
  last.  So the first output array ends holding the rectified pre-activation entry by entry, and the two rows end
  holding the sums of z and of z · z down every column: on the extended reals addition is associative and
  commutative and zero is neutral, so ten partial sums added in order from zero are the sum over all rows.
-/
import proofs.«173872_j25031069401694_1_alg».proof.Proof.Gen.KernelIdeal.Frame
import proofs.«173872_j25031069401694_1_alg».proof.Proof.Spec
import proofs.«173872_j25031069401694_1_alg».proof.Proof.LibAccBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KStage1

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- The scalar read out of a one-by-one array is its entry. -/
theorem extract_one (x3 : Vec Ideal S1x1 .f32) :
    extractAt ![0, 0] x3 inpos_S1x1_p0_0 = x3 (ix2 (0 : Fin 1) (0 : Fin 1)) :=
  congrArg x3 (funext fun a => by match a with | ⟨0, _⟩ => rfl | ⟨1, _⟩ => rfl)

/-- The rectified pre-activation of one block, entry by entry. -/
theorem pay3_apply (x3 : Vec Ideal S1x1 .f32) (x5 : Vec Ideal S5000x128 .f32) (x7 : Vec Ideal S1x128 .f32)
    (p : Fin 5000) (q : Fin 128) :
    k1_pay3 (F := Ideal) x3 x5 x7 (ix2 p q)
      = Cert.Spec.act (x3 (ix2 (0 : Fin 1) (0 : Fin 1))) (x5 (ix2 p q) + x7 (ix2 (0 : Fin 1) q)) := by
  unfold k1_pay3
  simp only [shapeCast_self, select_apply, cmpf_apply, addf_apply, mulf_apply, broadcast_apply]
  rw [broadcastTo_1b_ab_apply x7 broadcasts_S1x128_S5000x128 p q, extract_one]
  rfl

/-- The index the column reduction inserts: row r of column q. -/
theorem lift_eq (q : Fin 128) (r : Fin 5000) :
    reduces_S5000x128_S128.lift (ix1 q) r = ix2 r q :=
  funext fun a => by match a with | ⟨0, _⟩ => rfl | ⟨1, _⟩ => rfl

/-- A column sum of a block, as a sum over its 5000 rows. -/
theorem colred_apply (src : FVec Ideal S5000x128 .f32) (hφ : FKind.Formats FTy.f32)
    (hacc : (0x00000000#32 : BitVec 32) = 0x00000000#32) (u : Fin 1) (q : Fin 128) :
    shapeCast S1x128 (multiReduction (F := Ideal) .add [0] S128 src 0x00000000#32 reduces_S5000x128_S128 hφ hacc)
        shapeCasts_S128_S1x128 (ix2 u q)
      = ∑ r : Fin 5000, src (ix2 r q) := by
  rw [shapeCast_a_1a_apply _ shapeCasts_S128_S1x128 u q]
  refine (Ideal.multiReduction_add_single src 0x00000000#32 reduces_S5000x128_S128 hφ hacc (ix1 q)).trans ?_
  show ∑ r : Fin 5000, src (reduces_S5000x128_S128.lift (ix1 q) r) = _
  exact Finset.sum_congr rfl fun r _ => congrArg src (lift_eq q r)

/-- The running column sum after one more block. -/
theorem pay4_apply (x3 : Vec Ideal S1x1 .f32) (x5 : Vec Ideal S5000x128 .f32) (x7 : Vec Ideal S1x128 .f32)
    (acc : Vec Ideal S1x128 .f32) (u : Fin 1) (q : Fin 128) :
    k1_pay4 (F := Ideal) x3 x5 x7 acc (ix2 u q)
      = acc (ix2 u q) + ∑ r : Fin 5000, k1_pay3 (F := Ideal) x3 x5 x7 (ix2 r q) := by
  unfold k1_pay4
  simp only [shapeCast_self, addf_apply]
  exact congrArg (acc (ix2 u q) + ·) (colred_apply (k1_pay3 (F := Ideal) x3 x5 x7) _ _ u q)

/-- The running column sum of squares after one more block. -/
theorem pay5_apply (x3 : Vec Ideal S1x1 .f32) (x5 : Vec Ideal S5000x128 .f32) (x7 : Vec Ideal S1x128 .f32)
    (acc : Vec Ideal S1x128 .f32) (u : Fin 1) (q : Fin 128) :
    k1_pay5 (F := Ideal) x3 x5 x7 acc (ix2 u q)
      = acc (ix2 u q) + ∑ r : Fin 5000, k1_pay3 (F := Ideal) x3 x5 x7 (ix2 r q) * k1_pay3 (F := Ideal) x3 x5 x7 (ix2 r q) := by
  unfold k1_pay5
  simp only [shapeCast_self, addf_apply]
  exact congrArg (acc (ix2 u q) + ·) (colred_apply (mulf (k1_pay3 (F := Ideal) x3 x5 x7) (k1_pay3 (F := Ideal) x3 x5 x7)) _ _ u q)

section Pieces
variable {F : FTy → Type} [FloatOps F]

theorem hz : (![0, 0] : Fin 2 → Nat) = fun _ => 0 := funext fun a => by fin_cases a <;> rfl

/-- At the first point the block of z is the payload of the three input blocks. -/
theorem out_A_3 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S1x128 .f32) (x2 : Vec F S1x1 .f32) :
    out1_A_3 c i a1 h1 a2 h2 a3 h3 a4 h4 a5 h5 a6 h6 hc x0 x1 x2 = k1_pay3 x2 x0 x1 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero (S := S5000x128) hz]
  simp only [View.readAt_eq_ld, h1.read_unread, h2.read_unread, h3.read_unread, View.ld_unit_zero (S := S5000x128) hz,
    View.ld_unit_zero (S := S1x128) hz, View.ld_unit_zero (S := S1x1) hz]

/-- At the first point the column sums start from the zero row. -/
theorem out_A_4 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S1x128 .f32) (x2 : Vec F S1x1 .f32) :
    out1_A_4 c i a1 h1 a2 h2 a3 h3 a4 h4 a5 h5 a6 h6 hc x0 x1 x2 = k1_pay4 x2 x0 x1 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S1x128) hz, View.ld_unit_zero (S := S1x1) hz]

/-- At the first point the column sums of squares start from the zero row. -/
theorem out_A_5 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S1x128 .f32) (x2 : Vec F S1x1 .f32) :
    out1_A_5 c i a1 h1 a2 h2 a3 h3 a4 h4 a5 h5 a6 h6 hc x0 x1 x2 = k1_pay5 x2 x0 x1 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S1x128) hz, View.ld_unit_zero (S := S1x1) hz]

/-- At a later point the block of z is again the payload of the three input blocks. -/
theorem out_B_3 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S1x128 .f32) (x2 : Vec F S1x1 .f32) (xo4 xo5 : Vec F S1x128 .f32) :
    out1_B_3 c i a1 h1 a2 h2 a3 h3 a4 h4 a5 h5 a6 h6 hc x0 x1 x2 xo4 xo5 = k1_pay3 x2 x0 x1 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  sl_unfold_words
  rw [View.canon_unit_zero (S := S5000x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]

/-- At a later point the column sums continue from what the point before left. -/
theorem out_B_4 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S1x128 .f32) (x2 : Vec F S1x1 .f32) (xo4 xo5 : Vec F S1x128 .f32) :
    out1_B_4 c i a1 h1 a2 h2 a3 h3 a4 h4 a5 h5 a6 h6 hc x0 x1 x2 xo4 xo5 = k1_pay4 x2 x0 x1 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  sl_unfold_words
  rw [View.canon_unit_zero (S := S1x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]

/-- At a later point the column sums of squares continue from what the point before left. -/
theorem out_B_5 (c : Dev nD) (i : grid1.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S1x128 .f32) (x2 : Vec F S1x1 .f32) (xo4 xo5 : Vec F S1x128 .f32) :
    out1_B_5 c i a1 h1 a2 h2 a3 h3 a4 h4 a5 h5 a6 h6 hc x0 x1 x2 xo4 xo5 = k1_pay5 x2 x0 x1 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  sl_unfold_words
  rw [View.canon_unit_zero (S := S1x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]
end Pieces

section Value
variable (V : (c : Dev nD) → (b : Ref sig .tc) → Buf (Elt Ideal) ((c : Thread nD τ).loc b))

/-- Row p of block k of the 50000 rows. -/
abbrev row (k : Fin 10) (p : Fin 5000) : Fin 50000 := ⟨5000 * k.val + p.val, by omega⟩

/-- A block of z is the rectified pre-activation of the block's rows: stated for any three blocks that read
    block k of the aggregated features, the bias row and the slope. -/
theorem pay3_pre (A : Cert.Spec.SA.Idx → EReal) (b : Cert.Spec.SR.Idx → EReal) (s : EReal)
    (x0 : Vec Ideal S5000x128 .f32) (x1 : Vec Ideal S1x128 .f32) (x2 : Vec Ideal S1x1 .f32) (k : Fin 10)
    (e0 : ∀ (p : Fin 5000) (q : Fin 128), x0 (ix2 p q) = A (ix2 (row k p) q))
    (e1 : ∀ q : Fin 128, x1 (ix2 (0 : Fin 1) q) = b (ix2 (0 : Fin 1) q))
    (e2 : x2 (ix2 (0 : Fin 1) (0 : Fin 1)) = s) (p : Fin 5000) (q : Fin 128) :
    k1_pay3 (F := Ideal) x2 x0 x1 (ix2 p q) = Cert.Spec.pre A b s (ix2 (row k p) q) := by
  rw [pay3_apply, e0, e1, e2]
  rfl

/-- The block index maps, decided over the ten points: the feature windows move down the rows, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem tlt (t : Fin cfg1.N) : t.val < 10 := lt_of_lt_of_eq t.isLt (show cfg1.N = 10 from N_1)

/-- The feature block at point t holds rows 5000 t … 5000 t + 4999 of the aggregated features. -/
theorem iblk0_apply (c : Dev nD) (t : Fin cfg1.N) (p : Fin 5000) (q : Fin 128) :
    (iblk1 V c 0 t : Vec Ideal S5000x128 .f32) (ix2 p q) = V c main_v12 (ix2 (row ⟨t.val, tlt t⟩ p) q) := by
  obtain ⟨e0, e1, -⟩ := idx_facts t
  unfold iblk1
  rw [View.read_apply]
  show V c main_v12 _ = V c main_v12 _
  refine congrArg (V c main_v12) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The bias block is the bias row. -/
theorem iblk1_apply (c : Dev nD) (t : Fin cfg1.N) (q : Fin 128) :
    (iblk1 V c 1 t : Vec Ideal S1x128 .f32) (ix2 (0 : Fin 1) q) = V c main_v15 (ix2 (0 : Fin 1) q) := by
  obtain ⟨-, -, e0, e1, -⟩ := idx_facts t
  unfold iblk1
  rw [View.read_apply]
  show V c main_v15 _ = V c main_v15 _
  refine congrArg (V c main_v15) (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

/-- The slope block is the slope. -/
theorem iblk2_apply (c : Dev nD) (t : Fin cfg1.N) :
    (iblk1 V c 2 t : Vec Ideal S1x1 .f32) (ix2 (0 : Fin 1) (0 : Fin 1)) = V c main_v18 (ix2 (0 : Fin 1) (0 : Fin 1)) := by
  obtain ⟨-, -, -, -, e0, e1, -⟩ := idx_facts t
  unfold iblk1
  rw [View.read_apply]
  show V c main_v18 _ = V c main_v18 _
  refine congrArg (V c main_v18) (funext fun a => Fin.ext ?_)
  match a with
  | ⟨0, _⟩ => show win1_2.index t (0 : Fin 2) * 1 + 1 * 0 = 0; rw [e0]
  | ⟨1, _⟩ => show win1_2.index t (1 : Fin 2) * 1 + 1 * 0 = 0; rw [e1]

/-- The rectified pre-activation of the whole array. -/
abbrev Z (c : Dev nD) : Cert.Spec.SA.Idx → EReal :=
  Cert.Spec.pre (V c main_v12) (V c main_v15) (V c main_v18 (ix2 (0 : Fin 1) (0 : Fin 1)))

/-- After every point the first output's buffer holds the payload of that point's input blocks. -/
theorem outs3 (c : Dev nD) (t : Fin cfg1.N) :
    (outsAt1 V c t.val t.isLt).1 = k1_pay3 (F := Ideal) (iblk1 V c 2 t) (iblk1 V c 0 t) (iblk1 V c 1 t) := by
  by_cases h0 : t.val % 10 = 0
  · rw [outsAt1_A V c t h0]
    dsimp only
    exact out_A_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact out_B_3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) _ _

/-- The payload of point t's input blocks is block t of the rectified pre-activation. -/
theorem blk3_eq (c : Dev nD) (t : Fin cfg1.N) (p : Fin 5000) (q : Fin 128) :
    k1_pay3 (F := Ideal) (iblk1 V c 2 t) (iblk1 V c 0 t) (iblk1 V c 1 t) (ix2 p q) = Z V c (ix2 (row ⟨t.val, tlt t⟩ p) q) :=
  pay3_pre (V c main_v12) (V c main_v15) (V c main_v18 (ix2 (0 : Fin 1) (0 : Fin 1))) (iblk1 V c 0 t) (iblk1 V c 1 t) (iblk1 V c 2 t)
    ⟨t.val, tlt t⟩ (iblk0_apply V c t) (iblk1_apply V c t) (iblk2_apply V c t) p q

/-- What point t writes back of the first output is block t of the rectified pre-activation. -/
theorem flushed3_eq (c : Dev nD) (t : Fin cfg1.N) :
    (dat1 V c).flushed 3 t = ((cfg1.win 3).blk t).view.read (Elt Ideal) (Z V c) := by
  obtain ⟨-, -, -, -, -, -, e0, e1, -⟩ := idx_facts t
  show (cfg1.win 3).cut (grid1.coords t) ((dat1 V c).after 3 t) = _
  rw [after1_3, outs3]
  funext j
  obtain ⟨p, q, rfl⟩ : ∃ (p : Fin 5000) (q : Fin 128), j = ix2 p q := ⟨j 0, j 1, eq_ix2 j⟩
  refine (blk3_eq V c t p q).trans ?_
  rw [View.read_apply]
  refine congrArg (Z V c) (funext fun a => Fin.ext ?_)
  match a with
  | ⟨0, _⟩ => show 5000 * t.val + p.val = win1_3.index t (0 : Fin 2) * 5000 + 1 * p.val; rw [e0]; omega
  | ⟨1, _⟩ => show q.val = win1_3.index t (1 : Fin 2) * 128 + 1 * q.val; rw [e1]; omega

/-- An entry is in point t's block of the first output iff its coordinates are in the block's ranges. -/
theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v19_0).slice (win1_3.rect t)).set ↔ _
  rw [View.set_slice_whole, Rect.mem_set_unit]
  exact Iff.rfl

/-- Row r is written by point r / 5000. -/
theorem cover3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  obtain ⟨-, -, -, -, -, -, e0, e1, -⟩ := idx_facts ⟨(i 0).val / 5000, by rw [hN]; omega⟩
  rw [mem_blk3]
  intro a
  match a with
  | ⟨0, _⟩ => show win1_3.index _ (0 : Fin 2) * 5000 ≤ (i 0).val ∧ (i 0).val < win1_3.index _ (0 : Fin 2) * 5000 + 5000; rw [e0]; dsimp only; omega
  | ⟨1, _⟩ => show win1_3.index _ (1 : Fin 2) * 128 ≤ (i 1).val ∧ (i 1).val < win1_3.index _ (1 : Fin 2) * 128 + 128; rw [e1]; omega

/-- The first output array ends holding the rectified pre-activation. -/
theorem z_final (c : Dev nD) :
    (dat1 (F := Ideal) V c).arrAt 3 cfg1.N
      = Cert.Spec.pre (V c main_v12) (V c main_v15) (V c main_v18 (ix2 (0 : Fin 1) (0 : Fin 1))) :=
  (dat1 V c).arrAt_eq_of_cover 3 (Z V c) (fun t _ => flushed3_eq V c t) cover3
end Value

section Sums
variable (V : (c : Dev nD) → (b : Ref sig .tc) → Buf (Elt Ideal) ((c : Thread nD τ).loc b))

/-- Column q of an array of 50000 rows as a function of the row number, zero past the end. -/
def colf (z : Cert.Spec.SA.Idx → EReal) (q : Fin 128) (d : ℕ) : EReal :=
  if h : d < 50000 then z (ix2 (⟨d, h⟩ : Fin 50000) q) else 0

/-- The column sums of a block that holds rows 5000 k … 5000 k + 4999 of z are 5000 consecutive terms of the column. -/
theorem blocksum (z : Cert.Spec.SA.Idx → EReal) (y : S5000x128.Idx → EReal) (k : Fin 10)
    (e : ∀ (p : Fin 5000) (q : Fin 128), y (ix2 p q) = z (ix2 (row k p) q)) (q : Fin 128) :
    ∑ r : Fin 5000, y (ix2 r q) = ∑ d ∈ Finset.range 5000, colf z q (5000 * k.val + d) := by
  rw [Cert.LibAccBlocks.sum_fin_eq_range]
  refine Finset.sum_congr rfl fun d hd => ?_
  have hd' : d < 5000 := Finset.mem_range.mp hd
  have hk : 5000 * k.val + d < 50000 := by omega
  rw [dif_pos hd', e]
  unfold colf
  rw [dif_pos hk]

/-- The whole column is the sum over the 50000 rows. -/
theorem colf_total (z : Cert.Spec.SA.Idx → EReal) (q : Fin 128) :
    ∑ d ∈ Finset.range 50000, colf z q d = ∑ r : Fin 50000, z (ix2 r q) := by
  rw [Cert.LibAccBlocks.sum_fin_eq_range]
  rfl

/-- At the first point the second output's buffer holds the block's column sums added to the zero row. -/
theorem outs4_zero (c : Dev nD) (t : Fin cfg1.N) (h0 : t.val % 10 = 0) :
    (outsAt1 V c t.val t.isLt).2.1
      = k1_pay4 (F := Ideal) (iblk1 V c 2 t) (iblk1 V c 0 t) (iblk1 V c 1 t) (k1_pay1 (F := Ideal)) := by
  rw [outsAt1_A V c t h0]
  dsimp only
  exact out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)

/-- At a later point it holds the block's column sums added to what the point before left. -/
theorem outs4_succ (c : Dev nD) (t : Fin cfg1.N) (h0 : ¬t.val % 10 = 0) :
    (outsAt1 V c t.val t.isLt).2.1
      = k1_pay4 (F := Ideal) (iblk1 V c 2 t) (iblk1 V c 0 t) (iblk1 V c 1 t)
          (outsAt1 V c (t.val - 1) (Nat.lt_of_le_of_lt (Nat.sub_le _ _) t.isLt)).2.1 := by
  rw [outsAt1_B V c t h0]
  dsimp only
  exact out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) _ _

/-- The same for the third output and the squares. -/
theorem outs5_zero (c : Dev nD) (t : Fin cfg1.N) (h0 : t.val % 10 = 0) :
    (outsAt1 V c t.val t.isLt).2.2
      = k1_pay5 (F := Ideal) (iblk1 V c 2 t) (iblk1 V c 0 t) (iblk1 V c 1 t) (k1_pay2 (F := Ideal)) := by
  rw [outsAt1_A V c t h0]
  dsimp only
  exact out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)

theorem outs5_succ (c : Dev nD) (t : Fin cfg1.N) (h0 : ¬t.val % 10 = 0) :
    (outsAt1 V c t.val t.isLt).2.2
      = k1_pay5 (F := Ideal) (iblk1 V c 2 t) (iblk1 V c 0 t) (iblk1 V c 1 t)
          (outsAt1 V c (t.val - 1) (Nat.lt_of_le_of_lt (Nat.sub_le _ _) t.isLt)).2.2 := by
  rw [outsAt1_B V c t h0]
  dsimp only
  exact out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) _ _

/-- The square of the rectified pre-activation. -/
abbrev ZZ (c : Dev nD) : Cert.Spec.SA.Idx → EReal := fun i => Z V c i * Z V c i

/-- One point adds to a row the 5000 terms of its block of every column of z. -/
theorem step4 (c : Dev nD) (t : Fin cfg1.N) (acc : Vec Ideal S1x128 .f32) (u : Fin 1) (q : Fin 128) :
    k1_pay4 (F := Ideal) (iblk1 V c 2 t) (iblk1 V c 0 t) (iblk1 V c 1 t) acc (ix2 u q)
      = acc (ix2 u q) + ∑ d ∈ Finset.range 5000, colf (Z V c) q (5000 * t.val + d) :=
  (pay4_apply (iblk1 V c 2 t) (iblk1 V c 0 t) (iblk1 V c 1 t) acc u q).trans
    (congrArg (acc (ix2 u q) + ·)
      (blocksum (Z V c) (k1_pay3 (F := Ideal) (iblk1 V c 2 t) (iblk1 V c 0 t) (iblk1 V c 1 t)) ⟨t.val, tlt t⟩
        (blk3_eq V c t) q))

/-- One point adds to a row the 5000 terms of its block of every column of z · z. -/
theorem step5 (c : Dev nD) (t : Fin cfg1.N) (acc : Vec Ideal S1x128 .f32) (u : Fin 1) (q : Fin 128) :
    k1_pay5 (F := Ideal) (iblk1 V c 2 t) (iblk1 V c 0 t) (iblk1 V c 1 t) acc (ix2 u q)
      = acc (ix2 u q) + ∑ d ∈ Finset.range 5000, colf (ZZ V c) q (5000 * t.val + d) :=
  (pay5_apply (iblk1 V c 2 t) (iblk1 V c 0 t) (iblk1 V c 1 t) acc u q).trans
    (congrArg (acc (ix2 u q) + ·)
      (blocksum (ZZ V c)
        (fun j => k1_pay3 (F := Ideal) (iblk1 V c 2 t) (iblk1 V c 0 t) (iblk1 V c 1 t) j
          * k1_pay3 (F := Ideal) (iblk1 V c 2 t) (iblk1 V c 0 t) (iblk1 V c 1 t) j) ⟨t.val, tlt t⟩
        (fun p q => by
          show k1_pay3 (F := Ideal) (iblk1 V c 2 t) (iblk1 V c 0 t) (iblk1 V c 1 t) (ix2 p q)
            * k1_pay3 (F := Ideal) (iblk1 V c 2 t) (iblk1 V c 0 t) (iblk1 V c 1 t) (ix2 p q) = _
          rw [blk3_eq V c t p q]) q))

/-- After point n the second output's buffer holds the sums of the first 5000 (n + 1) rows of every column of z. -/
theorem acc4_eq (c : Dev nD) : ∀ (n : ℕ) (hn : n < cfg1.N) (u : Fin 1) (q : Fin 128),
    (outsAt1 V c n hn).2.1 (ix2 u q) = ∑ d ∈ Finset.range (5000 * (n + 1)), colf (Z V c) q d
  | 0, hn, u, q => by
    refine (congrFun (outs4_zero V c ⟨0, hn⟩ rfl) (ix2 u q)).trans ?_
    refine (step4 V c ⟨0, hn⟩ (k1_pay1 (F := Ideal)) u q).trans ?_
    show Ideal.ofBits .f32 0x00000000#32 + _ = _
    rw [Ideal.ofBits_zero_f32, zero_add]
    exact Finset.sum_congr rfl fun d _ => by rw [Nat.mul_zero, Nat.zero_add]
  | n + 1, hn, u, q => by
    have hN : cfg1.N = 10 := N_1
    have hB : ¬(⟨n + 1, hn⟩ : Fin cfg1.N).val % 10 = 0 := by dsimp only; omega
    refine (congrFun (outs4_succ V c ⟨n + 1, hn⟩ hB) (ix2 u q)).trans ?_
    refine (step4 V c ⟨n + 1, hn⟩ _ u q).trans ?_
    show (outsAt1 V c n _).2.1 (ix2 u q) + _ = _
    rw [acc4_eq c n (Nat.lt_of_succ_lt hn) u q, show 5000 * (n + 1 + 1) = 5000 * (n + 1) + 5000 by omega,
      Finset.sum_range_add]

/-- After point n the third output's buffer holds the same sums of z · z. -/
theorem acc5_eq (c : Dev nD) : ∀ (n : ℕ) (hn : n < cfg1.N) (u : Fin 1) (q : Fin 128),
    (outsAt1 V c n hn).2.2 (ix2 u q) = ∑ d ∈ Finset.range (5000 * (n + 1)), colf (ZZ V c) q d
  | 0, hn, u, q => by
    refine (congrFun (outs5_zero V c ⟨0, hn⟩ rfl) (ix2 u q)).trans ?_
    refine (step5 V c ⟨0, hn⟩ (k1_pay2 (F := Ideal)) u q).trans ?_
    show Ideal.ofBits .f32 0x00000000#32 + _ = _
    rw [Ideal.ofBits_zero_f32, zero_add]
    exact Finset.sum_congr rfl fun d _ => by rw [Nat.mul_zero, Nat.zero_add]
  | n + 1, hn, u, q => by
    have hN : cfg1.N = 10 := N_1
    have hB : ¬(⟨n + 1, hn⟩ : Fin cfg1.N).val % 10 = 0 := by dsimp only; omega
    refine (congrFun (outs5_succ V c ⟨n + 1, hn⟩ hB) (ix2 u q)).trans ?_
    refine (step5 V c ⟨n + 1, hn⟩ _ u q).trans ?_
    show (outsAt1 V c n _).2.2 (ix2 u q) + _ = _
    rw [acc5_eq c n (Nat.lt_of_succ_lt hn) u q, show 5000 * (n + 1 + 1) = 5000 * (n + 1) + 5000 by omega,
      Finset.sum_range_add]
end Sums

section Finals
variable (V : (c : Dev nD) → (b : Ref sig .tc) → Buf (Elt Ideal) ((c : Thread nD τ).loc b))

/-- An entry is in point t's block of output 4 iff its coordinates are in the block's ranges. -/
theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v19_1).slice (win1_4.rect t)).set ↔ _
  rw [View.set_slice_whole, Rect.mem_set_unit]
  exact Iff.rfl

/-- Output 4's block at any point is the whole row. -/
theorem read_row4 (t : Fin cfg1.N) (G : S1x128.Idx → EReal) (u : Fin 1) (q : Fin 128) :
    ((cfg1.win 4).blk t).view.read (Elt Ideal) G (ix2 u q) = G (ix2 (0 : Fin 1) q) := by
  obtain ⟨-, -, -, -, -, -, -, -, e40, e41, e50, e51⟩ := idx_facts t
  rw [View.read_apply]
  show G _ = G _
  refine congrArg G (funext fun a => Fin.ext ?_)
  match a with
  | ⟨0, _⟩ => show win1_4.index t (0 : Fin 2) * 1 + 1 * u.val = 0; rw [e40]; omega
  | ⟨1, _⟩ => show win1_4.index t (1 : Fin 2) * 128 + 1 * q.val = q.val; rw [e41]; omega

/-- The one write-back of output 4, after the last point, writes the sums over all 50000 rows. -/
theorem flushed4_eq (c : Dev nD) (t : Fin cfg1.N) (hf : (cfg1.win 4).flush t = true) :
    (dat1 V c).flushed 4 t = ((cfg1.win 4).blk t).view.read (Elt Ideal) (Cert.Spec.colsum (Z V c)) := by
  have h9 : t.val = 9 := by have := (flush1_4 t).mp hf; have := tlt t; omega
  show (cfg1.win 4).cut (grid1.coords t) ((dat1 V c).after 4 t) = _
  rw [after1_4]
  funext j
  obtain ⟨u, q, rfl⟩ : ∃ (u : Fin 1) (q : Fin 128), j = ix2 u q := ⟨j 0, j 1, eq_ix2 j⟩
  refine (acc4_eq V c t.val t.isLt u q).trans ?_
  refine Eq.trans ?_ (read_row4 t (Cert.Spec.colsum (Z V c)) u q).symm
  rw [h9, show (5000 * (9 + 1) : ℕ) = 50000 by norm_num]
  exact colf_total (Z V c) q

/-- The last point's block is the whole row. -/
theorem cover4 (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  have hN : cfg1.N = 10 := N_1
  refine ⟨⟨9, by rw [hN]; omega⟩, (flush1_4 _).mpr rfl, ?_⟩
  obtain ⟨-, -, -, -, -, -, -, -, e40, e41, e50, e51⟩ := idx_facts ⟨9, by rw [hN]; omega⟩
  rw [mem_blk4]
  intro a
  match a with
  | ⟨0, _⟩ => show win1_4.index _ (0 : Fin 2) * 1 ≤ (i 0).val ∧ (i 0).val < win1_4.index _ (0 : Fin 2) * 1 + 1; rw [e40]; omega
  | ⟨1, _⟩ => show win1_4.index _ (1 : Fin 2) * 128 ≤ (i 1).val ∧ (i 1).val < win1_4.index _ (1 : Fin 2) * 128 + 128; rw [e41]; omega

/-- The second output array ends holding the column sums of the rectified pre-activation. -/
theorem sum_final (c : Dev nD) :
    (dat1 (F := Ideal) V c).arrAt 4 cfg1.N
      = Cert.Spec.colsum (Cert.Spec.pre (V c main_v12) (V c main_v15) (V c main_v18 (ix2 (0 : Fin 1) (0 : Fin 1)))) :=
  (dat1 V c).arrAt_eq_of_cover 4 (Cert.Spec.colsum (Z V c)) (flushed4_eq V c) cover4

/-- An entry is in point t's block of output 5 iff its coordinates are in the block's ranges. -/
theorem mem_blk5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v19_2).slice (win1_5.rect t)).set ↔ _
  rw [View.set_slice_whole, Rect.mem_set_unit]
  exact Iff.rfl

/-- Output 5's block at any point is the whole row. -/
theorem read_row5 (t : Fin cfg1.N) (G : S1x128.Idx → EReal) (u : Fin 1) (q : Fin 128) :
    ((cfg1.win 5).blk t).view.read (Elt Ideal) G (ix2 u q) = G (ix2 (0 : Fin 1) q) := by
  obtain ⟨-, -, -, -, -, -, -, -, e40, e41, e50, e51⟩ := idx_facts t
  rw [View.read_apply]
  show G _ = G _
  refine congrArg G (funext fun a => Fin.ext ?_)
  match a with
  | ⟨0, _⟩ => show win1_5.index t (0 : Fin 2) * 1 + 1 * u.val = 0; rw [e50]; omega
  | ⟨1, _⟩ => show win1_5.index t (1 : Fin 2) * 128 + 1 * q.val = q.val; rw [e51]; omega

/-- The one write-back of output 5, after the last point, writes the sums over all 50000 rows. -/
theorem flushed5_eq (c : Dev nD) (t : Fin cfg1.N) (hf : (cfg1.win 5).flush t = true) :
    (dat1 V c).flushed 5 t = ((cfg1.win 5).blk t).view.read (Elt Ideal) (Cert.Spec.colsum (ZZ V c)) := by
  have h9 : t.val = 9 := by have := (flush1_5 t).mp hf; have := tlt t; omega
  show (cfg1.win 5).cut (grid1.coords t) ((dat1 V c).after 5 t) = _
  rw [after1_5]
  funext j
  obtain ⟨u, q, rfl⟩ : ∃ (u : Fin 1) (q : Fin 128), j = ix2 u q := ⟨j 0, j 1, eq_ix2 j⟩
  refine (acc5_eq V c t.val t.isLt u q).trans ?_
  refine Eq.trans ?_ (read_row5 t (Cert.Spec.colsum (ZZ V c)) u q).symm
  rw [h9, show (5000 * (9 + 1) : ℕ) = 50000 by norm_num]
  exact colf_total (ZZ V c) q

/-- The last point's block is the whole row. -/
theorem cover5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  have hN : cfg1.N = 10 := N_1
  refine ⟨⟨9, by rw [hN]; omega⟩, (flush1_5 _).mpr rfl, ?_⟩
  obtain ⟨-, -, -, -, -, -, -, -, e40, e41, e50, e51⟩ := idx_facts ⟨9, by rw [hN]; omega⟩
  rw [mem_blk5]
  intro a
  match a with
  | ⟨0, _⟩ => show win1_5.index _ (0 : Fin 2) * 1 ≤ (i 0).val ∧ (i 0).val < win1_5.index _ (0 : Fin 2) * 1 + 1; rw [e50]; omega
  | ⟨1, _⟩ => show win1_5.index _ (1 : Fin 2) * 128 ≤ (i 1).val ∧ (i 1).val < win1_5.index _ (1 : Fin 2) * 128 + 128; rw [e51]; omega

/-- The third output array ends holding the column sums of its square. -/
theorem sumsq_final (c : Dev nD) :
    (dat1 (F := Ideal) V c).arrAt 5 cfg1.N
      = Cert.Spec.colsum (fun i => Cert.Spec.pre (V c main_v12) (V c main_v15) (V c main_v18 (ix2 (0 : Fin 1) (0 : Fin 1))) i
          * Cert.Spec.pre (V c main_v12) (V c main_v15) (V c main_v18 (ix2 (0 : Fin 1) (0 : Fin 1))) i) :=
  (dat1 V c).arrAt_eq_of_cover 5 (Cert.Spec.colsum (ZZ V c)) (flushed5_eq V c) cover5
end Finals

end Cert.KernelIdeal.KStage1
end
-- ==== Proof.KStage4.lean ====
/-
  The value of the first normalisation stage at its second launch, read off the run of its kernel (the program
  launches the three kernels of a layer twice, in the same order; this is the fifth launch).

  The kernel walks the 50000 rows in ten blocks of 5000.  At every block it adds the bias row to the aggregated
  features, applies the parametric rectifier with the slope, and writes the block of z back; it also adds the block's
  column sums of z and of z · z to two rows that start from zero at the first block and are written back after the
  last.  So the first output array ends holding the rectified pre-activation entry by entry, and the two rows end
  holding the sums of z and of z · z down every column: on the extended reals addition is associative and
  commutative and zero is neutral, so ten partial sums added in order from zero are the sum over all rows.
-/
import proofs.«173872_j25031069401694_1_alg».proof.Proof.Gen.KernelIdeal.Frame
import proofs.«173872_j25031069401694_1_alg».proof.Proof.Spec
import proofs.«173872_j25031069401694_1_alg».proof.Proof.LibAccBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KStage4

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- The scalar read out of a one-by-one array is its entry. -/
theorem extract_one (x3 : Vec Ideal S1x1 .f32) :
    extractAt ![0, 0] x3 inpos_S1x1_p0_0 = x3 (ix2 (0 : Fin 1) (0 : Fin 1)) :=
  congrArg x3 (funext fun a => by match a with | ⟨0, _⟩ => rfl | ⟨1, _⟩ => rfl)

/-- The rectified pre-activation of one block, entry by entry. -/
theorem pay3_apply (x3 : Vec Ideal S1x1 .f32) (x5 : Vec Ideal S5000x128 .f32) (x7 : Vec Ideal S1x128 .f32)
    (p : Fin 5000) (q : Fin 128) :
    k4_pay3 (F := Ideal) x3 x5 x7 (ix2 p q)
      = Cert.Spec.act (x3 (ix2 (0 : Fin 1) (0 : Fin 1))) (x5 (ix2 p q) + x7 (ix2 (0 : Fin 1) q)) := by
  unfold k4_pay3
  simp only [shapeCast_self, select_apply, cmpf_apply, addf_apply, mulf_apply, broadcast_apply]
  rw [broadcastTo_1b_ab_apply x7 broadcasts_S1x128_S5000x128 p q, extract_one]
  rfl

/-- The index the column reduction inserts: row r of column q. -/
theorem lift_eq (q : Fin 128) (r : Fin 5000) :
    reduces_S5000x128_S128.lift (ix1 q) r = ix2 r q :=
  funext fun a => by match a with | ⟨0, _⟩ => rfl | ⟨1, _⟩ => rfl

/-- A column sum of a block, as a sum over its 5000 rows. -/
theorem colred_apply (src : FVec Ideal S5000x128 .f32) (hφ : FKind.Formats FTy.f32)
    (hacc : (0x00000000#32 : BitVec 32) = 0x00000000#32) (u : Fin 1) (q : Fin 128) :
    shapeCast S1x128 (multiReduction (F := Ideal) .add [0] S128 src 0x00000000#32 reduces_S5000x128_S128 hφ hacc)
        shapeCasts_S128_S1x128 (ix2 u q)
      = ∑ r : Fin 5000, src (ix2 r q) := by
  rw [shapeCast_a_1a_apply _ shapeCasts_S128_S1x128 u q]
  refine (Ideal.multiReduction_add_single src 0x00000000#32 reduces_S5000x128_S128 hφ hacc (ix1 q)).trans ?_
  show ∑ r : Fin 5000, src (reduces_S5000x128_S128.lift (ix1 q) r) = _
  exact Finset.sum_congr rfl fun r _ => congrArg src (lift_eq q r)

/-- The running column sum after one more block. -/
theorem pay4_apply (x3 : Vec Ideal S1x1 .f32) (x5 : Vec Ideal S5000x128 .f32) (x7 : Vec Ideal S1x128 .f32)
    (acc : Vec Ideal S1x128 .f32) (u : Fin 1) (q : Fin 128) :
    k4_pay4 (F := Ideal) x3 x5 x7 acc (ix2 u q)
      = acc (ix2 u q) + ∑ r : Fin 5000, k4_pay3 (F := Ideal) x3 x5 x7 (ix2 r q) := by
  unfold k4_pay4
  simp only [shapeCast_self, addf_apply]
  exact congrArg (acc (ix2 u q) + ·) (colred_apply (k4_pay3 (F := Ideal) x3 x5 x7) _ _ u q)

/-- The running column sum of squares after one more block. -/
theorem pay5_apply (x3 : Vec Ideal S1x1 .f32) (x5 : Vec Ideal S5000x128 .f32) (x7 : Vec Ideal S1x128 .f32)
    (acc : Vec Ideal S1x128 .f32) (u : Fin 1) (q : Fin 128) :
    k4_pay5 (F := Ideal) x3 x5 x7 acc (ix2 u q)
      = acc (ix2 u q) + ∑ r : Fin 5000, k4_pay3 (F := Ideal) x3 x5 x7 (ix2 r q) * k4_pay3 (F := Ideal) x3 x5 x7 (ix2 r q) := by
  unfold k4_pay5
  simp only [shapeCast_self, addf_apply]
  exact congrArg (acc (ix2 u q) + ·) (colred_apply (mulf (k4_pay3 (F := Ideal) x3 x5 x7) (k4_pay3 (F := Ideal) x3 x5 x7)) _ _ u q)

section Pieces
variable {F : FTy → Type} [FloatOps F]

theorem hz : (![0, 0] : Fin 2 → Nat) = fun _ => 0 := funext fun a => by fin_cases a <;> rfl

/-- At the first point the block of z is the payload of the three input blocks. -/
theorem out_A_3 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S1x128 .f32) (x2 : Vec F S1x1 .f32) :
    out4_A_3 c i a1 h1 a2 h2 a3 h3 a4 h4 a5 h5 a6 h6 hc x0 x1 x2 = k4_pay3 x2 x0 x1 := by
  unfold out4_A_3
  rw [View.read_writes_eq_canon _ _ _ (cover4_A_3 c i a1 h1 a2 h2 a3 h3 a4 h4 a5 h5 a6 h6 hc x0 x1 x2)]
  unfold kernelRun4_A
  dsimp only
  sl_unfold_words
  rw [View.canon_unit_zero (S := S5000x128) hz]
  simp only [View.readAt_eq_ld, h1.read_unread, h2.read_unread, h3.read_unread, View.ld_unit_zero (S := S5000x128) hz,
    View.ld_unit_zero (S := S1x128) hz, View.ld_unit_zero (S := S1x1) hz]

/-- At the first point the column sums start from the zero row. -/
theorem out_A_4 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S1x128 .f32) (x2 : Vec F S1x1 .f32) :
    out4_A_4 c i a1 h1 a2 h2 a3 h3 a4 h4 a5 h5 a6 h6 hc x0 x1 x2 = k4_pay4 x2 x0 x1 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S1x128) hz, View.ld_unit_zero (S := S1x1) hz]

/-- At the first point the column sums of squares start from the zero row. -/
theorem out_A_5 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond4_0 i)
    (x0 : Vec F S5000x128 .f32) (x1 : Vec F S1x128 .f32) (x2 : Vec F S1x1 .f32) :
    out4_A_5 c i a1 h1 a2 h2 a3 h3 a4 h4 a5 h5 a6 h6 hc x0 x1 x2 = k4_pay5 x2 x0 x1 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S1x128) hz, View.ld_unit_zero (S := S1x1) hz]

/-- At a later point the block of z is again the payload of the three input blocks. -/
theorem out_B_3 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S1x128 .f32) (x2 : Vec F S1x1 .f32) (xo4 xo5 : Vec F S1x128 .f32) :
    out4_B_3 c i a1 h1 a2 h2 a3 h3 a4 h4 a5 h5 a6 h6 hc x0 x1 x2 xo4 xo5 = k4_pay3 x2 x0 x1 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  sl_unfold_words
  rw [View.canon_unit_zero (S := S5000x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]

/-- At a later point the column sums continue from what the point before left. -/
theorem out_B_4 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S1x128 .f32) (x2 : Vec F S1x1 .f32) (xo4 xo5 : Vec F S1x128 .f32) :
    out4_B_4 c i a1 h1 a2 h2 a3 h3 a4 h4 a5 h5 a6 h6 hc x0 x1 x2 xo4 xo5 = k4_pay4 x2 x0 x1 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  sl_unfold_words
  rw [View.canon_unit_zero (S := S1x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]

/-- At a later point the column sums of squares continue from what the point before left. -/
theorem out_B_5 (c : Dev nD) (i : grid4.Coords) (a1 : Memref sig .tc .vmem S5000x128 .f32) (h1 : a1.IsWhole) (a2 : Memref sig .tc .vmem S1x128 .f32) (h2 : a2.IsWhole) (a3 : Memref sig .tc .vmem S1x1 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond4_0 i)
    (x0 : Vec F S5000x128 .f32) (x1 : Vec F S1x128 .f32) (x2 : Vec F S1x1 .f32) (xo4 xo5 : Vec F S1x128 .f32) :
    out4_B_5 c i a1 h1 a2 h2 a3 h3 a4 h4 a5 h5 a6 h6 hc x0 x1 x2 xo4 xo5 = k4_pay5 x2 x0 x1 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  sl_unfold_words
  rw [View.canon_unit_zero (S := S1x128) hz]
  simp only [View.readAt_eq_ld, h1.read_unread, h2.read_unread, h3.read_unread, h5.read_unread, h6.read_unread,
    View.ld_unit_zero (S := S5000x128) hz, View.ld_unit_zero (S := S1x128) hz, View.ld_unit_zero (S := S1x1) hz]
end Pieces

section Value
variable (V : (c : Dev nD) → (b : Ref sig .tc) → Buf (Elt Ideal) ((c : Thread nD τ).loc b))

/-- Row p of block k of the 50000 rows. -/
abbrev row (k : Fin 10) (p : Fin 5000) : Fin 50000 := ⟨5000 * k.val + p.val, by omega⟩

/-- A block of z is the rectified pre-activation of the block's rows: stated for any three blocks that read
    block k of the aggregated features, the bias row and the slope. -/
theorem pay3_pre (A : Cert.Spec.SA.Idx → EReal) (b : Cert.Spec.SR.Idx → EReal) (s : EReal)
    (x0 : Vec Ideal S5000x128 .f32) (x1 : Vec Ideal S1x128 .f32) (x2 : Vec Ideal S1x1 .f32) (k : Fin 10)
    (e0 : ∀ (p : Fin 5000) (q : Fin 128), x0 (ix2 p q) = A (ix2 (row k p) q))
    (e1 : ∀ q : Fin 128, x1 (ix2 (0 : Fin 1) q) = b (ix2 (0 : Fin 1) q))
    (e2 : x2 (ix2 (0 : Fin 1) (0 : Fin 1)) = s) (p : Fin 5000) (q : Fin 128) :
    k4_pay3 (F := Ideal) x2 x0 x1 (ix2 p q) = Cert.Spec.pre A b s (ix2 (row k p) q) := by
  rw [pay3_apply, e0, e1, e2]
  rfl

/-- The block index maps, decided over the ten points: the feature windows move down the rows, the others stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem tlt (t : Fin cfg4.N) : t.val < 10 := lt_of_lt_of_eq t.isLt (show cfg4.N = 10 from N_4)

/-- The feature block at point t holds rows 5000 t … 5000 t + 4999 of the aggregated features. -/
theorem iblk0_apply (c : Dev nD) (t : Fin cfg4.N) (p : Fin 5000) (q : Fin 128) :
    (iblk4 V c 0 t : Vec Ideal S5000x128 .f32) (ix2 p q) = V c main_v48 (ix2 (row ⟨t.val, tlt t⟩ p) q) := by
  obtain ⟨e0, e1, -⟩ := idx_facts t
  unfold iblk4
  rw [View.read_apply]
  show V c main_v48 _ = V c main_v48 _
  refine congrArg (V c main_v48) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * q.val = q.val; rw [e1]; omega

/-- The bias block is the bias row. -/
theorem iblk4_apply (c : Dev nD) (t : Fin cfg4.N) (q : Fin 128) :
    (iblk4 V c 1 t : Vec Ideal S1x128 .f32) (ix2 (0 : Fin 1) q) = V c main_v51 (ix2 (0 : Fin 1) q) := by
  obtain ⟨-, -, e0, e1, -⟩ := idx_facts t
  unfold iblk4
  rw [View.read_apply]
  show V c main_v51 _ = V c main_v51 _
  refine congrArg (V c main_v51) (funext fun a => Fin.ext ?_)
  match a with
  | ⟨0, _⟩ => show win4_1.index t (0 : Fin 2) * 1 + 1 * 0 = 0; rw [e0]
  | ⟨1, _⟩ => show win4_1.index t (1 : Fin 2) * 128 + 1 * q.val = q.val; rw [e1]; omega

/-- The slope block is the slope. -/
theorem iblk2_apply (c : Dev nD) (t : Fin cfg4.N) :
    (iblk4 V c 2 t : Vec Ideal S1x1 .f32) (ix2 (0 : Fin 1) (0 : Fin 1)) = V c main_v54 (ix2 (0 : Fin 1) (0 : Fin 1)) := by
  obtain ⟨-, -, -, -, e0, e1, -⟩ := idx_facts t
  unfold iblk4
  rw [View.read_apply]
  show V c main_v54 _ = V c main_v54 _
  refine congrArg (V c main_v54) (funext fun a => Fin.ext ?_)
  match a with
  | ⟨0, _⟩ => show win4_2.index t (0 : Fin 2) * 1 + 1 * 0 = 0; rw [e0]
  | ⟨1, _⟩ => show win4_2.index t (1 : Fin 2) * 1 + 1 * 0 = 0; rw [e1]

/-- The rectified pre-activation of the whole array. -/
abbrev Z (c : Dev nD) : Cert.Spec.SA.Idx → EReal :=
  Cert.Spec.pre (V c main_v48) (V c main_v51) (V c main_v54 (ix2 (0 : Fin 1) (0 : Fin 1)))

/-- After every point the first output's buffer holds the payload of that point's input blocks. -/
theorem outs3 (c : Dev nD) (t : Fin cfg4.N) :
    (outsAt4 V c t.val t.isLt).1 = k4_pay3 (F := Ideal) (iblk4 V c 2 t) (iblk4 V c 0 t) (iblk4 V c 1 t) := by
  by_cases h0 : t.val % 10 = 0
  · rw [outsAt4_A V c t h0]
    dsimp only
    exact out_A_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)
  · rw [outsAt4_B V c t h0]
    dsimp only
    exact out_B_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) _ _

/-- The payload of point t's input blocks is block t of the rectified pre-activation. -/
theorem blk3_eq (c : Dev nD) (t : Fin cfg4.N) (p : Fin 5000) (q : Fin 128) :
    k4_pay3 (F := Ideal) (iblk4 V c 2 t) (iblk4 V c 0 t) (iblk4 V c 1 t) (ix2 p q) = Z V c (ix2 (row ⟨t.val, tlt t⟩ p) q) :=
  pay3_pre (V c main_v48) (V c main_v51) (V c main_v54 (ix2 (0 : Fin 1) (0 : Fin 1))) (iblk4 V c 0 t) (iblk4 V c 1 t) (iblk4 V c 2 t)
    ⟨t.val, tlt t⟩ (iblk0_apply V c t) (iblk4_apply V c t) (iblk2_apply V c t) p q

/-- What point t writes back of the first output is block t of the rectified pre-activation. -/
theorem flushed3_eq (c : Dev nD) (t : Fin cfg4.N) :
    (dat4 V c).flushed 3 t = ((cfg4.win 3).blk t).view.read (Elt Ideal) (Z V c) := by
  obtain ⟨-, -, -, -, -, -, e0, e1, -⟩ := idx_facts t
  show (cfg4.win 3).cut (grid4.coords t) ((dat4 V c).after 3 t) = _
  rw [after4_3, outs3]
  funext j
  obtain ⟨p, q, rfl⟩ : ∃ (p : Fin 5000) (q : Fin 128), j = ix2 p q := ⟨j 0, j 1, eq_ix2 j⟩
  refine (blk3_eq V c t p q).trans ?_
  rw [View.read_apply]
  refine congrArg (Z V c) (funext fun a => Fin.ext ?_)
  match a with
  | ⟨0, _⟩ => show 5000 * t.val + p.val = win4_3.index t (0 : Fin 2) * 5000 + 1 * p.val; rw [e0]; omega
  | ⟨1, _⟩ => show q.val = win4_3.index t (1 : Fin 2) * 128 + 1 * q.val; rw [e1]; omega

/-- An entry is in point t's block of the first output iff its coordinates are in the block's ranges. -/
theorem mem_blk3 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v55_0).slice (win4_3.rect t)).set ↔ _
  rw [View.set_slice_whole, Rect.mem_set_unit]
  exact Iff.rfl

/-- Row r is written by point r / 5000. -/
theorem cover3 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  refine ⟨⟨(i 0).val / 5000, by rw [hN]; omega⟩, flush4_3 _, ?_⟩
  obtain ⟨-, -, -, -, -, -, e0, e1, -⟩ := idx_facts ⟨(i 0).val / 5000, by rw [hN]; omega⟩
  rw [mem_blk3]
  intro a
  match a with
  | ⟨0, _⟩ => show win4_3.index _ (0 : Fin 2) * 5000 ≤ (i 0).val ∧ (i 0).val < win4_3.index _ (0 : Fin 2) * 5000 + 5000; rw [e0]; dsimp only; omega
  | ⟨1, _⟩ => show win4_3.index _ (1 : Fin 2) * 128 ≤ (i 1).val ∧ (i 1).val < win4_3.index _ (1 : Fin 2) * 128 + 128; rw [e1]; omega

/-- The first output array ends holding the rectified pre-activation. -/
theorem z_final (c : Dev nD) :
    (dat4 (F := Ideal) V c).arrAt 3 cfg4.N
      = Cert.Spec.pre (V c main_v48) (V c main_v51) (V c main_v54 (ix2 (0 : Fin 1) (0 : Fin 1))) :=
  (dat4 V c).arrAt_eq_of_cover 3 (Z V c) (fun t _ => flushed3_eq V c t) cover3
end Value

section Sums
variable (V : (c : Dev nD) → (b : Ref sig .tc) → Buf (Elt Ideal) ((c : Thread nD τ).loc b))

/-- Column q of an array of 50000 rows as a function of the row number, zero past the end. -/
def colf (z : Cert.Spec.SA.Idx → EReal) (q : Fin 128) (d : ℕ) : EReal :=
  if h : d < 50000 then z (ix2 (⟨d, h⟩ : Fin 50000) q) else 0

/-- The column sums of a block that holds rows 5000 k … 5000 k + 4999 of z are 5000 consecutive terms of the column. -/
theorem blocksum (z : Cert.Spec.SA.Idx → EReal) (y : S5000x128.Idx → EReal) (k : Fin 10)
    (e : ∀ (p : Fin 5000) (q : Fin 128), y (ix2 p q) = z (ix2 (row k p) q)) (q : Fin 128) :
    ∑ r : Fin 5000, y (ix2 r q) = ∑ d ∈ Finset.range 5000, colf z q (5000 * k.val + d) := by
  rw [Cert.LibAccBlocks.sum_fin_eq_range]
  refine Finset.sum_congr rfl fun d hd => ?_
  have hd' : d < 5000 := Finset.mem_range.mp hd
  have hk : 5000 * k.val + d < 50000 := by omega
  rw [dif_pos hd', e]
  unfold colf
  rw [dif_pos hk]

/-- The whole column is the sum over the 50000 rows. -/
theorem colf_total (z : Cert.Spec.SA.Idx → EReal) (q : Fin 128) :
    ∑ d ∈ Finset.range 50000, colf z q d = ∑ r : Fin 50000, z (ix2 r q) := by
  rw [Cert.LibAccBlocks.sum_fin_eq_range]
  rfl

/-- At the first point the second output's buffer holds the block's column sums added to the zero row. -/
theorem outs4_zero (c : Dev nD) (t : Fin cfg4.N) (h0 : t.val % 10 = 0) :
    (outsAt4 V c t.val t.isLt).2.1
      = k4_pay4 (F := Ideal) (iblk4 V c 2 t) (iblk4 V c 0 t) (iblk4 V c 1 t) (k4_pay1 (F := Ideal)) := by
  rw [outsAt4_A V c t h0]
  dsimp only
  exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)

/-- At a later point it holds the block's column sums added to what the point before left. -/
theorem outs4_succ (c : Dev nD) (t : Fin cfg4.N) (h0 : ¬t.val % 10 = 0) :
    (outsAt4 V c t.val t.isLt).2.1
      = k4_pay4 (F := Ideal) (iblk4 V c 2 t) (iblk4 V c 0 t) (iblk4 V c 1 t)
          (outsAt4 V c (t.val - 1) (Nat.lt_of_le_of_lt (Nat.sub_le _ _) t.isLt)).2.1 := by
  rw [outsAt4_B V c t h0]
  dsimp only
  exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) _ _

/-- The same for the third output and the squares. -/
theorem outs5_zero (c : Dev nD) (t : Fin cfg4.N) (h0 : t.val % 10 = 0) :
    (outsAt4 V c t.val t.isLt).2.2
      = k4_pay5 (F := Ideal) (iblk4 V c 2 t) (iblk4 V c 0 t) (iblk4 V c 1 t) (k4_pay2 (F := Ideal)) := by
  rw [outsAt4_A V c t h0]
  dsimp only
  exact out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)

theorem outs5_succ (c : Dev nD) (t : Fin cfg4.N) (h0 : ¬t.val % 10 = 0) :
    (outsAt4 V c t.val t.isLt).2.2
      = k4_pay5 (F := Ideal) (iblk4 V c 2 t) (iblk4 V c 0 t) (iblk4 V c 1 t)
          (outsAt4 V c (t.val - 1) (Nat.lt_of_le_of_lt (Nat.sub_le _ _) t.isLt)).2.2 := by
  rw [outsAt4_B V c t h0]
  dsimp only
  exact out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) _ _

/-- The square of the rectified pre-activation. -/
abbrev ZZ (c : Dev nD) : Cert.Spec.SA.Idx → EReal := fun i => Z V c i * Z V c i

/-- One point adds to a row the 5000 terms of its block of every column of z. -/
theorem step4 (c : Dev nD) (t : Fin cfg4.N) (acc : Vec Ideal S1x128 .f32) (u : Fin 1) (q : Fin 128) :
    k4_pay4 (F := Ideal) (iblk4 V c 2 t) (iblk4 V c 0 t) (iblk4 V c 1 t) acc (ix2 u q)
      = acc (ix2 u q) + ∑ d ∈ Finset.range 5000, colf (Z V c) q (5000 * t.val + d) :=
  (pay4_apply (iblk4 V c 2 t) (iblk4 V c 0 t) (iblk4 V c 1 t) acc u q).trans
    (congrArg (acc (ix2 u q) + ·)
      (blocksum (Z V c) (k4_pay3 (F := Ideal) (iblk4 V c 2 t) (iblk4 V c 0 t) (iblk4 V c 1 t)) ⟨t.val, tlt t⟩
        (blk3_eq V c t) q))

/-- One point adds to a row the 5000 terms of its block of every column of z · z. -/
theorem step5 (c : Dev nD) (t : Fin cfg4.N) (acc : Vec Ideal S1x128 .f32) (u : Fin 1) (q : Fin 128) :
    k4_pay5 (F := Ideal) (iblk4 V c 2 t) (iblk4 V c 0 t) (iblk4 V c 1 t) acc (ix2 u q)
      = acc (ix2 u q) + ∑ d ∈ Finset.range 5000, colf (ZZ V c) q (5000 * t.val + d) :=
  (pay5_apply (iblk4 V c 2 t) (iblk4 V c 0 t) (iblk4 V c 1 t) acc u q).trans
    (congrArg (acc (ix2 u q) + ·)
      (blocksum (ZZ V c)
        (fun j => k4_pay3 (F := Ideal) (iblk4 V c 2 t) (iblk4 V c 0 t) (iblk4 V c 1 t) j
          * k4_pay3 (F := Ideal) (iblk4 V c 2 t) (iblk4 V c 0 t) (iblk4 V c 1 t) j) ⟨t.val, tlt t⟩
        (fun p q => by
          show k4_pay3 (F := Ideal) (iblk4 V c 2 t) (iblk4 V c 0 t) (iblk4 V c 1 t) (ix2 p q)
            * k4_pay3 (F := Ideal) (iblk4 V c 2 t) (iblk4 V c 0 t) (iblk4 V c 1 t) (ix2 p q) = _
          rw [blk3_eq V c t p q]) q))

/-- After point n the second output's buffer holds the sums of the first 5000 (n + 1) rows of every column of z. -/
theorem acc4_eq (c : Dev nD) : ∀ (n : ℕ) (hn : n < cfg4.N) (u : Fin 1) (q : Fin 128),
    (outsAt4 V c n hn).2.1 (ix2 u q) = ∑ d ∈ Finset.range (5000 * (n + 1)), colf (Z V c) q d
  | 0, hn, u, q => by
    refine (congrFun (outs4_zero V c ⟨0, hn⟩ rfl) (ix2 u q)).trans ?_
    refine (step4 V c ⟨0, hn⟩ (k4_pay1 (F := Ideal)) u q).trans ?_
    show Ideal.ofBits .f32 0x00000000#32 + _ = _
    rw [Ideal.ofBits_zero_f32, zero_add]
    exact Finset.sum_congr rfl fun d _ => by rw [Nat.mul_zero, Nat.zero_add]
  | n + 1, hn, u, q => by
    have hN : cfg4.N = 10 := N_4
    have hB : ¬(⟨n + 1, hn⟩ : Fin cfg4.N).val % 10 = 0 := by dsimp only; omega
    refine (congrFun (outs4_succ V c ⟨n + 1, hn⟩ hB) (ix2 u q)).trans ?_
    refine (step4 V c ⟨n + 1, hn⟩ _ u q).trans ?_
    show (outsAt4 V c n _).2.1 (ix2 u q) + _ = _
    rw [acc4_eq c n (Nat.lt_of_succ_lt hn) u q, show 5000 * (n + 1 + 1) = 5000 * (n + 1) + 5000 by omega,
      Finset.sum_range_add]

/-- After point n the third output's buffer holds the same sums of z · z. -/
theorem acc5_eq (c : Dev nD) : ∀ (n : ℕ) (hn : n < cfg4.N) (u : Fin 1) (q : Fin 128),
    (outsAt4 V c n hn).2.2 (ix2 u q) = ∑ d ∈ Finset.range (5000 * (n + 1)), colf (ZZ V c) q d
  | 0, hn, u, q => by
    refine (congrFun (outs5_zero V c ⟨0, hn⟩ rfl) (ix2 u q)).trans ?_
    refine (step5 V c ⟨0, hn⟩ (k4_pay2 (F := Ideal)) u q).trans ?_
    show Ideal.ofBits .f32 0x00000000#32 + _ = _
    rw [Ideal.ofBits_zero_f32, zero_add]
    exact Finset.sum_congr rfl fun d _ => by rw [Nat.mul_zero, Nat.zero_add]
  | n + 1, hn, u, q => by
    have hN : cfg4.N = 10 := N_4
    have hB : ¬(⟨n + 1, hn⟩ : Fin cfg4.N).val % 10 = 0 := by dsimp only; omega
    refine (congrFun (outs5_succ V c ⟨n + 1, hn⟩ hB) (ix2 u q)).trans ?_
    refine (step5 V c ⟨n + 1, hn⟩ _ u q).trans ?_
    show (outsAt4 V c n _).2.2 (ix2 u q) + _ = _
    rw [acc5_eq c n (Nat.lt_of_succ_lt hn) u q, show 5000 * (n + 1 + 1) = 5000 * (n + 1) + 5000 by omega,
      Finset.sum_range_add]
end Sums

section Finals
variable (V : (c : Dev nD) → (b : Ref sig .tc) → Buf (Elt Ideal) ((c : Thread nD τ).loc b))

/-- An entry is in point t's block of output 4 iff its coordinates are in the block's ranges. -/
theorem mem_blk4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v55_1).slice (win4_4.rect t)).set ↔ _
  rw [View.set_slice_whole, Rect.mem_set_unit]
  exact Iff.rfl

/-- Output 4's block at any point is the whole row. -/
theorem read_row4 (t : Fin cfg4.N) (G : S1x128.Idx → EReal) (u : Fin 1) (q : Fin 128) :
    ((cfg4.win 4).blk t).view.read (Elt Ideal) G (ix2 u q) = G (ix2 (0 : Fin 1) q) := by
  obtain ⟨-, -, -, -, -, -, -, -, e40, e41, e50, e51⟩ := idx_facts t
  rw [View.read_apply]
  show G _ = G _
  refine congrArg G (funext fun a => Fin.ext ?_)
  match a with
  | ⟨0, _⟩ => show win4_4.index t (0 : Fin 2) * 1 + 1 * u.val = 0; rw [e40]; omega
  | ⟨1, _⟩ => show win4_4.index t (1 : Fin 2) * 128 + 1 * q.val = q.val; rw [e41]; omega

/-- The one write-back of output 4, after the last point, writes the sums over all 50000 rows. -/
theorem flushed4_eq (c : Dev nD) (t : Fin cfg4.N) (hf : (cfg4.win 4).flush t = true) :
    (dat4 V c).flushed 4 t = ((cfg4.win 4).blk t).view.read (Elt Ideal) (Cert.Spec.colsum (Z V c)) := by
  have h9 : t.val = 9 := by have := (flush4_4 t).mp hf; have := tlt t; omega
  show (cfg4.win 4).cut (grid4.coords t) ((dat4 V c).after 4 t) = _
  rw [after4_4]
  funext j
  obtain ⟨u, q, rfl⟩ : ∃ (u : Fin 1) (q : Fin 128), j = ix2 u q := ⟨j 0, j 1, eq_ix2 j⟩
  refine (acc4_eq V c t.val t.isLt u q).trans ?_
  refine Eq.trans ?_ (read_row4 t (Cert.Spec.colsum (Z V c)) u q).symm
  rw [h9, show (5000 * (9 + 1) : ℕ) = 50000 by norm_num]
  exact colf_total (Z V c) q

/-- The last point's block is the whole row. -/
theorem cover4 (i : S1x128.Idx) :
    ∃ t : Fin cfg4.N, (cfg4.win 4).flush t = true ∧ i ∈ ((cfg4.win 4).blk t).view.set := by
  have hi0 : (i 0).val < 1 := (i 0).isLt
  have hi1 : (i 1).val < 128 := (i 1).isLt
  have hN : cfg4.N = 10 := N_4
  refine ⟨⟨9, by rw [hN]; omega⟩, (flush4_4 _).mpr rfl, ?_⟩
  obtain ⟨-, -, -, -, -, -, -, -, e40, e41, e50, e51⟩ := idx_facts ⟨9, by rw [hN]; omega⟩
  rw [mem_blk4]
  intro a
  match a with
  | ⟨0, _⟩ => show win4_4.index _ (0 : Fin 2) * 1 ≤ (i 0).val ∧ (i 0).val < win4_4.index _ (0 : Fin 2) * 1 + 1; rw [e40]; omega
  | ⟨1, _⟩ => show win4_4.index _ (1 : Fin 2) * 128 ≤ (i 1).val ∧ (i 1).val < win4_4.index _ (1 : Fin 2) * 128 + 128; rw [e41]; omega

/-- The second output array ends holding the column sums of the rectified pre-activation. -/
theorem sum_final (c : Dev nD) :
    (dat4 (F := Ideal) V c).arrAt 4 cfg4.N
      = Cert.Spec.colsum (Cert.Spec.pre (V c main_v48) (V c main_v51) (V c main_v54 (ix2 (0 : Fin 1) (0 : Fin 1)))) :=
  (dat4 V c).arrAt_eq_of_cover 4 (Cert.Spec.colsum (Z V c)) (flushed4_eq V c) cover4

/-- An entry is in point t's block of output 5 iff its coordinates are in the block's ranges. -/
theorem mem_blk5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v55_2).slice (win4_5.rect t)).set ↔ _
  rw [View.set_slice_whole, Rect.mem_set_unit]
  exact Iff.rfl

/-- Output 5's block at any point is the whole row. -/
theorem read_row5 (t : Fin cfg4.N) (G : S1x128.Idx → EReal) (u : Fin 1) (q : Fin 128) :
    ((cfg4.win 5).blk t).view.read (Elt Ideal) G (ix2 u q) = G (ix2 (0 : Fin 1) q) := by
  obtain ⟨-, -, -, -, -, -, -, -, e40, e41, e50, e51⟩ := idx_facts t
  rw [View.read_apply]
  show G _ = G _
  refine congrArg G (funext fun a => Fin.ext ?_)
  match a with
  | ⟨0, _⟩ => show win4_5.index t (0 : Fin 2) * 1 + 1 * u.val = 0; rw [e50]; omega
  | ⟨1, _⟩ => show win4_5.index t (1 : Fin 2) * 128 + 1 * q.val = q.val; rw [e51]; omega

/-- The one write-back of output 5, after the last point, writes the sums over all 50000 rows. -/
theorem flushed5_eq (c : Dev nD) (t : Fin cfg4.N) (hf : (cfg4.win 5).flush t = true) :
    (dat4 V c).flushed 5 t = ((cfg4.win 5).blk t).view.read (Elt Ideal) (Cert.Spec.colsum (ZZ V c)) := by
  have h9 : t.val = 9 := by have := (flush4_5 t).mp hf; have := tlt t; omega
  show (cfg4.win 5).cut (grid4.coords t) ((dat4 V c).after 5 t) = _
  rw [after4_5]
  funext j
  obtain ⟨u, q, rfl⟩ : ∃ (u : Fin 1) (q : Fin 128), j = ix2 u q := ⟨j 0, j 1, eq_ix2 j⟩
  refine (acc5_eq V c t.val t.isLt u q).trans ?_
  refine Eq.trans ?_ (read_row5 t (Cert.Spec.colsum (ZZ V c)) u q).symm
  rw [h9, show (5000 * (9 + 1) : ℕ) = 50000 by norm_num]
  exact colf_total (ZZ V c) q

/-- The last point's block is the whole row. -/
theorem cover5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  have hN : cfg4.N = 10 := N_4
  refine ⟨⟨9, by rw [hN]; omega⟩, (flush4_5 _).mpr rfl, ?_⟩
  obtain ⟨-, -, -, -, -, -, -, -, e40, e41, e50, e51⟩ := idx_facts ⟨9, by rw [hN]; omega⟩
  rw [mem_blk5]
  intro a
  match a with
  | ⟨0, _⟩ => show win4_5.index _ (0 : Fin 2) * 1 ≤ (i 0).val ∧ (i 0).val < win4_5.index _ (0 : Fin 2) * 1 + 1; rw [e50]; omega
  | ⟨1, _⟩ => show win4_5.index _ (1 : Fin 2) * 128 ≤ (i 1).val ∧ (i 1).val < win4_5.index _ (1 : Fin 2) * 128 + 128; rw [e51]; omega

/-- The third output array ends holding the column sums of its square. -/
theorem sumsq_final (c : Dev nD) :
    (dat4 (F := Ideal) V c).arrAt 5 cfg4.N
      = Cert.Spec.colsum (fun i => Cert.Spec.pre (V c main_v48) (V c main_v51) (V c main_v54 (ix2 (0 : Fin 1) (0 : Fin 1))) i
          * Cert.Spec.pre (V c main_v48) (V c main_v51) (V c main_v54 (ix2 (0 : Fin 1) (0 : Fin 1))) i) :=
  (dat4 V c).arrAt_eq_of_cover 5 (Cert.Spec.colsum (ZZ V c)) (flushed5_eq V c) cover5
end Finals

end Cert.KernelIdeal.KStage4
end
-- ==== Proof.KHostArgs.lean ====
/-
  The argument arrays at every boundary of the kernel's run.

  No host operation and no region writes an argument array, so at every boundary between the stretches of host
  operations and the regions an argument's buffer still holds what the launch memory holds.  Each lemma walks one
  boundary back: through a stretch of host operations because the buffer is none of the operations' results, through
  a region because the buffer is none of its windows' arrays (or, for the node features in the first region, an input
  window's array, which a region leaves as it found it).
-/
import proofs.«173872_j25031069401694_1_alg».proof.Proof.Gen.KernelIdeal.Frame
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ### Argument 0 -/

theorem arg0_0 : W0 m ρ c (Proc.devRef .tc main_arg0) = m ((c : Thread nD τ).loc main_arg0) := rfl
theorem arg1_0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := arg0_0 m ρ c

/-! ### Argument 3 -/

theorem arg0_3 : W0 m ρ c (Proc.devRef .tc main_arg3) = m ((c : Thread nD τ).loc main_arg3) := rfl
theorem arg1_3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := arg0_3 m ρ c
theorem arg2_3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = m ((c : Thread nD τ).loc main_arg3) := arg1_3 m ρ c
theorem arg3_3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := arg2_3 m ρ c
theorem arg4_3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := arg3_3 m ρ c
theorem arg5_3 : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := arg4_3 m ρ c
theorem arg6_3 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = m ((c : Thread nD τ).loc main_arg3) := arg5_3 m ρ c
theorem arg7_3 : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := arg6_3 m ρ c

/-! ### Argument 1 -/

theorem arg0_1 : W0 m ρ c (Proc.devRef .tc main_arg1) = m ((c : Thread nD τ).loc main_arg1) := rfl
theorem arg1_1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := arg0_1 m ρ c
theorem arg2_1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = m ((c : Thread nD τ).loc main_arg1) := arg1_1 m ρ c
theorem arg3_1 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := arg2_1 m ρ c
theorem arg4_1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = m ((c : Thread nD τ).loc main_arg1) := arg3_1 m ρ c
theorem arg5_1 : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := arg4_1 m ρ c
theorem arg6_1 : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = m ((c : Thread nD τ).loc main_arg1) := arg5_1 m ρ c
theorem arg7_1 : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := arg6_1 m ρ c
theorem arg8_1 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = m ((c : Thread nD τ).loc main_arg1) := arg7_1 m ρ c
theorem arg9_1 : W9 m ρ c (Proc.devRef .tc main_arg1) = m ((c : Thread nD τ).loc main_arg1) :=
  calc W9 m ρ c (Proc.devRef .tc main_arg1)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := arg8_1 m ρ c

/-! ### Argument 2 -/

theorem arg0_2 : W0 m ρ c (Proc.devRef .tc main_arg2) = m ((c : Thread nD τ).loc main_arg2) := rfl
theorem arg1_2 : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := arg0_2 m ρ c
theorem arg2_2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = m ((c : Thread nD τ).loc main_arg2) := arg1_2 m ρ c
theorem arg3_2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := arg2_2 m ρ c
theorem arg4_2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = m ((c : Thread nD τ).loc main_arg2) := arg3_2 m ρ c
theorem arg5_2 : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := arg4_2 m ρ c
theorem arg6_2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := arg5_2 m ρ c
theorem arg7_2 : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := arg6_2 m ρ c
theorem arg8_2 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = m ((c : Thread nD τ).loc main_arg2) := arg7_2 m ρ c
theorem arg9_2 : W9 m ρ c (Proc.devRef .tc main_arg2) = m ((c : Thread nD τ).loc main_arg2) :=
  calc W9 m ρ c (Proc.devRef .tc main_arg2)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := arg8_2 m ρ c

/-! ### Argument 4 -/

theorem arg0_4 : W0 m ρ c (Proc.devRef .tc main_arg4) = m ((c : Thread nD τ).loc main_arg4) := rfl
theorem arg1_4 : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := arg0_4 m ρ c
theorem arg2_4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = m ((c : Thread nD τ).loc main_arg4) := arg1_4 m ρ c
theorem arg3_4 : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := arg2_4 m ρ c
theorem arg4_4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = m ((c : Thread nD τ).loc main_arg4) := arg3_4 m ρ c
theorem arg5_4 : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := arg4_4 m ρ c
theorem arg6_4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = m ((c : Thread nD τ).loc main_arg4) := arg5_4 m ρ c
theorem arg7_4 : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := arg6_4 m ρ c
theorem arg8_4 : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = m ((c : Thread nD τ).loc main_arg4) := arg7_4 m ρ c
theorem arg9_4 : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := arg8_4 m ρ c

/-! ### Argument 5 -/

theorem arg0_5 : W0 m ρ c (Proc.devRef .tc main_arg5) = m ((c : Thread nD τ).loc main_arg5) := rfl
theorem arg1_5 : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := arg0_5 m ρ c
theorem arg2_5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = m ((c : Thread nD τ).loc main_arg5) := arg1_5 m ρ c
theorem arg3_5 : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := arg2_5 m ρ c
theorem arg4_5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = m ((c : Thread nD τ).loc main_arg5) := arg3_5 m ρ c
theorem arg5_5 : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := arg4_5 m ρ c
theorem arg6_5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = m ((c : Thread nD τ).loc main_arg5) := arg5_5 m ρ c
theorem arg7_5 : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := arg6_5 m ρ c
theorem arg8_5 : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = m ((c : Thread nD τ).loc main_arg5) := arg7_5 m ρ c
theorem arg9_5 : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := arg8_5 m ρ c

/-! ### Argument 6 -/

theorem arg0_6 : W0 m ρ c (Proc.devRef .tc main_arg6) = m ((c : Thread nD τ).loc main_arg6) := rfl
theorem arg1_6 : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg0_6 m ρ c
theorem arg2_6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = m ((c : Thread nD τ).loc main_arg6) := arg1_6 m ρ c
theorem arg3_6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg2_6 m ρ c
theorem arg4_6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = m ((c : Thread nD τ).loc main_arg6) := arg3_6 m ρ c
theorem arg5_6 : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg4_6 m ρ c
theorem arg6_6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = m ((c : Thread nD τ).loc main_arg6) := arg5_6 m ρ c
theorem arg7_6 : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg6_6 m ρ c
theorem arg8_6 : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = m ((c : Thread nD τ).loc main_arg6) := arg7_6 m ρ c
theorem arg9_6 : W9 m ρ c (Proc.devRef .tc main_arg6) = m ((c : Thread nD τ).loc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg8_6 m ρ c
theorem arg10_6 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = m ((c : Thread nD τ).loc main_arg6) := arg9_6 m ρ c
theorem arg11_6 : W11 m ρ c (Proc.devRef .tc main_arg6) = m ((c : Thread nD τ).loc main_arg6) :=
  calc W11 m ρ c (Proc.devRef .tc main_arg6)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := arg10_6 m ρ c

/-! ### Argument 7 -/

theorem arg0_7 : W0 m ρ c (Proc.devRef .tc main_arg7) = m ((c : Thread nD τ).loc main_arg7) := rfl
theorem arg1_7 : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg0_7 m ρ c
theorem arg2_7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = m ((c : Thread nD τ).loc main_arg7) := arg1_7 m ρ c
theorem arg3_7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg2_7 m ρ c
theorem arg4_7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = m ((c : Thread nD τ).loc main_arg7) := arg3_7 m ρ c
theorem arg5_7 : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg4_7 m ρ c
theorem arg6_7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = m ((c : Thread nD τ).loc main_arg7) := arg5_7 m ρ c
theorem arg7_7 : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg6_7 m ρ c
theorem arg8_7 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = m ((c : Thread nD τ).loc main_arg7) := arg7_7 m ρ c
theorem arg9_7 : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg8_7 m ρ c
theorem arg10_7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = m ((c : Thread nD τ).loc main_arg7) := arg9_7 m ρ c
theorem arg11_7 : W11 m ρ c (Proc.devRef .tc main_arg7) = m ((c : Thread nD τ).loc main_arg7) :=
  calc W11 m ρ c (Proc.devRef .tc main_arg7)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := arg10_7 m ρ c

/-! ### Argument 8 -/

theorem arg0_8 : W0 m ρ c (Proc.devRef .tc main_arg8) = m ((c : Thread nD τ).loc main_arg8) := rfl
theorem arg1_8 : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg0_8 m ρ c
theorem arg2_8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = m ((c : Thread nD τ).loc main_arg8) := arg1_8 m ρ c
theorem arg3_8 : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg2_8 m ρ c
theorem arg4_8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = m ((c : Thread nD τ).loc main_arg8) := arg3_8 m ρ c
theorem arg5_8 : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg4_8 m ρ c
theorem arg6_8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = m ((c : Thread nD τ).loc main_arg8) := arg5_8 m ρ c
theorem arg7_8 : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg6_8 m ρ c
theorem arg8_8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = m ((c : Thread nD τ).loc main_arg8) := arg7_8 m ρ c
theorem arg9_8 : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg8_8 m ρ c
theorem arg10_8 : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = m ((c : Thread nD τ).loc main_arg8) := arg9_8 m ρ c
theorem arg11_8 : W11 m ρ c (Proc.devRef .tc main_arg8) = m ((c : Thread nD τ).loc main_arg8) :=
  calc W11 m ρ c (Proc.devRef .tc main_arg8)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := arg10_8 m ρ c

end Cert.KernelIdeal.KHost

end
-- ==== Proof.KHost.lean ====
/-
  The host operations between the kernel's regions, read as values.

  Between its regions the kernel's program runs stretches of host operations: a layer's weight matrix, bias row,
  gain row, shift row and rectifier slopes are cut out of the stacked arguments (a slice, then reshapes), the edge
  aggregation is a gather of rows followed by a scatter-add into a zero array, and the mean and the variance of
  every feature are the two column sums a region left, divided by the number of nodes, the variance as the mean of
  the squares minus the square of the mean.  Each lemma reads one result of a stretch as a function of the
  arguments at launch and of what the region before the stretch left.
-/
import proofs.«173872_j25031069401694_1_alg».proof.Proof.Gen.KernelIdeal.Frame
import proofs.«173872_j25031069401694_1_alg».proof.Proof.KHostArgs
import proofs.«173872_j25031069401694_1_alg».proof.Proof.Spec
import proofs.«173872_j25031069401694_1_alg».proof.Proof.LibPlainDot
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ### Layout operations read at an index -/

/-- Layer l of a stack of two matrices, cut out as a [1, 128, 128] slice and reshaped to [128, 128], reads at
    (a, b) the stack at (l, a, b). -/
theorem layer_matrix (l : Fin 2) (X : S2x128x128.Idx → EReal)
    (hs : S2x128x128.Slices ![l.val, 0, 0] S1x128x128) (hc : S1x128x128.ShapeCasts S128x128) :
    shapeCast S128x128 (extractStridedSlice S1x128x128 ![l.val, 0, 0] X hs) hc = Cert.Spec.wOf l X := by
  funext j
  obtain ⟨a, b, rfl⟩ : ∃ (a : Fin 128) (b : Fin 128), j = ix2 a b := ⟨j 0, j 1, eq_ix2 j⟩
  rw [shapeCast_1ab_ab_apply]
  exact extractStridedSlice_apply _ _ _ _ (ix3 l a b) (fun ax => by
    match ax with
    | ⟨0, _⟩ => rfl
    | ⟨1, _⟩ => exact (Nat.zero_add _).symm
    | ⟨2, _⟩ => exact (Nat.zero_add _).symm)

/-- Row l of a stack of two rows, cut out as a [1, 128] slice and reshaped to [128] and back to [1, 128], reads at
    (u, b) the stack at (l, b). -/
theorem layer_row (l : Fin 2) (X : S2x128.Idx → EReal) (hs : S2x128.Slices ![l.val, 0] S1x128)
    (hc1 : S1x128.ShapeCasts S128) (hc2 : S128.ShapeCasts S1x128) :
    shapeCast S1x128 (shapeCast S128 (extractStridedSlice S1x128 ![l.val, 0] X hs) hc1) hc2 = Cert.Spec.rowOf l X := by
  funext j
  obtain ⟨u, b, rfl⟩ : ∃ (u : Fin 1) (b : Fin 128), j = ix2 u b := ⟨j 0, j 1, eq_ix2 j⟩
  rw [shapeCast_a_1a_apply, shapeCast_1a_a_apply]
  exact slice2_axis0_apply l.val X hs (0 : Fin 1) b l rfl

/-- Entry l of a stack of two scalars, cut out as a [1] slice and reshaped to a scalar and then to [1, 1], is the
    stack at l. -/
theorem layer_scalar (l : Fin 2) (X : S2.Idx → EReal) (hs : S2.Slices ![l.val] S1) (hc1 : S1.ShapeCasts S_)
    (hc2 : S_.ShapeCasts S1x1) :
    shapeCast S1x1 (shapeCast S_ (extractStridedSlice S1 ![l.val] X hs) hc1) hc2 (ix2 (0 : Fin 1) (0 : Fin 1))
      = Cert.Spec.scOf l X := by
  unfold shapeCast
  have hk : ∀ k : S1.Idx, k = ix1 (0 : Fin 1) := fun k => by
    have h : (k 0).val < 1 := (k 0).isLt
    rw [eq_ix1 k]
    exact congrArg ix1 (Fin.ext (show (k 0).val = 0 by omega))
  rw [hk (Shape.reshapeEquiv hc1 _)]
  exact extractStridedSlice_apply _ _ _ _ (ix1 l) (fun ax => by
    match ax with
    | ⟨0, _⟩ => rfl)

/-! ### Stretch 0: the first layer's weight matrix -/

/-- The first layer's weight matrix as the first region finds it: layer 0 of the stacked weights. -/
theorem w0_eq : V1 m ρ c main_v1 = Cert.Spec.wOf 0 (m ((c : Thread nD τ).loc main_arg3)) := by
  have e : V1 m ρ c main_v1 = shapeCast S128x128 (extractStridedSlice S1x128x128 ![0, 0, 0]
      (W0 m ρ c (Proc.devRef .tc main_arg3)) slices_S2x128x128_S1x128x128_0_0_0) shapeCasts_S1x128x128_S128x128 := by
    show StableHlo.after hostOps0 (W0 m ρ c) (Proc.devRef .tc main_v1) = _
    after_results
    rfl
  rw [e, arg0_3]
  exact layer_matrix 0 _ _ _

/-- The node features as the first region finds them: the argument at launch. -/
theorem h0_eq : V1 m ρ c main_arg0 = m ((c : Thread nD τ).loc main_arg0) := arg1_0 m ρ c

/-! ### The edge aggregation's operands -/

/-- The array of zeros the aggregation adds into. -/
def zeroArr : FVec Ideal S50000x128 .f32 :=
  broadcastInDim S50000x128 ![] bcast_S_S50000x128 (constant S_ .f32 0x00000000#32)

/-- The source indices as a column: an index below zero is moved up by the number of nodes. -/
def srcIdx (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

/-- The destination indices as a column. -/
def dstIdx (a2 : IVec S800000 32) : IVec S800000x1 32 :=
  broadcastInDim S800000x1 ![0] bcast_S800000_S800000x1_0 a2

/-! ### Stretch 1: the first layer's aggregation, bias and first slope -/

/-- The layer's aggregation over the edges of what the region before left. -/
theorem agg1_eq : V3 m ρ c main_v12
    = Cert.Spec.aggOf gather_S50000x128_S800000x1_S800000x128_1_0_n_n_0_1_1128 scatter_S50000x128_S800000x1_S800000x128_1_0_0_1 zeroArr
        (srcIdx (m ((c : Thread nD τ).loc main_arg1))) (dstIdx (m ((c : Thread nD τ).loc main_arg2)))
        (W2 m ρ c (Proc.devRef .tc main_v2)) := by
  have e : V3 m ρ c main_v12
      = Cert.Spec.aggOf gather_S50000x128_S800000x1_S800000x128_1_0_n_n_0_1_1128 scatter_S50000x128_S800000x1_S800000x128_1_0_0_1 zeroArr
          (srcIdx (W2 m ρ c (Proc.devRef .tc main_arg1))) (dstIdx (W2 m ρ c (Proc.devRef .tc main_arg2)))
          (W2 m ρ c (Proc.devRef .tc main_v2)) := by
    show StableHlo.after hostOps1 (W2 m ρ c) (Proc.devRef .tc main_v12) = _
    after_results
    rfl
  rw [e, arg2_1, arg2_2]

/-- The layer's bias row. -/
theorem bias1_eq : V3 m ρ c main_v15 = Cert.Spec.rowOf 0 (m ((c : Thread nD τ).loc main_arg4)) := by
  have e : V3 m ρ c main_v15 = shapeCast S1x128 (shapeCast S128 (extractStridedSlice S1x128 ![0, 0]
      (W2 m ρ c (Proc.devRef .tc main_arg4)) slices_S2x128_S1x128_0_0) shapeCasts_S1x128_S128) shapeCasts_S128_S1x128 := by
    show StableHlo.after hostOps1 (W2 m ρ c) (Proc.devRef .tc main_v15) = _
    after_results
    rfl
  rw [e, arg2_4]
  exact layer_row 0 _ _ _ _

/-- The layer's first rectifier slope. -/
theorem a1_eq : V3 m ρ c main_v18 (ix2 (0 : Fin 1) (0 : Fin 1)) = Cert.Spec.scOf 0 (m ((c : Thread nD τ).loc main_arg5)) := by
  have e : V3 m ρ c main_v18 = shapeCast S1x1 (shapeCast S_ (extractStridedSlice S1 ![0]
      (W2 m ρ c (Proc.devRef .tc main_arg5)) slices_S2_S1_0) shapeCasts_S1_S_) shapeCasts_S_S1x1 := by
    show StableHlo.after hostOps1 (W2 m ρ c) (Proc.devRef .tc main_v18) = _
    after_results
    rfl
  rw [e, arg2_5]
  exact layer_scalar 0 _ _ _ _

/-! ### Stretch 2: the first layer's mean, variance, gain, shift and second slope -/

/-- The first layer's mean: the column sums the second region left, divided by the number of nodes. -/
theorem mean2_eq : V5 m ρ c main_v21
    = fun j => Ideal.div (W4 m ρ c (Proc.devRef .tc main_v19_1) j) Cert.Spec.nodes := by
  show StableHlo.after hostOps2 (W4 m ρ c) (Proc.devRef .tc main_v21) = _
  after_results
  rfl

/-- The first layer's variance: the mean of the squares minus the square of the mean. -/
theorem var2_eq : V5 m ρ c main_v25
    = fun j => Ideal.div (W4 m ρ c (Proc.devRef .tc main_v19_2) j) Cert.Spec.nodes
        - Ideal.div (W4 m ρ c (Proc.devRef .tc main_v19_1) j) Cert.Spec.nodes
          * Ideal.div (W4 m ρ c (Proc.devRef .tc main_v19_1) j) Cert.Spec.nodes := by
  show StableHlo.after hostOps2 (W4 m ρ c) (Proc.devRef .tc main_v25) = _
  after_results
  rfl

/-- The first layer's gain row. -/
theorem g2_eq : V5 m ρ c main_v28 = Cert.Spec.rowOf 0 (m ((c : Thread nD τ).loc main_arg6)) := by
  have e : V5 m ρ c main_v28 = shapeCast S1x128 (shapeCast S128 (extractStridedSlice S1x128 ![0, 0]
      (W4 m ρ c (Proc.devRef .tc main_arg6)) slices_S2x128_S1x128_0_0) shapeCasts_S1x128_S128) shapeCasts_S128_S1x128 := by
    show StableHlo.after hostOps2 (W4 m ρ c) (Proc.devRef .tc main_v28) = _
    after_results
    rfl
  rw [e, arg4_6]
  exact layer_row 0 _ _ _ _

/-- The first layer's shift row. -/
theorem bt2_eq : V5 m ρ c main_v31 = Cert.Spec.rowOf 0 (m ((c : Thread nD τ).loc main_arg7)) := by
  have e : V5 m ρ c main_v31 = shapeCast S1x128 (shapeCast S128 (extractStridedSlice S1x128 ![0, 0]
      (W4 m ρ c (Proc.devRef .tc main_arg7)) slices_S2x128_S1x128_0_0) shapeCasts_S1x128_S128) shapeCasts_S128_S1x128 := by
    show StableHlo.after hostOps2 (W4 m ρ c) (Proc.devRef .tc main_v31) = _
    after_results
    rfl
  rw [e, arg4_7]
  exact layer_row 0 _ _ _ _

/-- The first layer's second rectifier slope. -/
theorem a2_eq : V5 m ρ c main_v34 (ix2 (0 : Fin 1) (0 : Fin 1)) = Cert.Spec.scOf 0 (m ((c : Thread nD τ).loc main_arg8)) := by
  have e : V5 m ρ c main_v34 = shapeCast S1x1 (shapeCast S_ (extractStridedSlice S1 ![0]
      (W4 m ρ c (Proc.devRef .tc main_arg8)) slices_S2_S1_0) shapeCasts_S1_S_) shapeCasts_S_S1x1 := by
    show StableHlo.after hostOps2 (W4 m ρ c) (Proc.devRef .tc main_v34) = _
    after_results
    rfl
  rw [e, arg4_8]
  exact layer_scalar 0 _ _ _ _

/-- The rectified pre-activation the second region left is what the third region finds. -/
theorem z2_keep : V5 m ρ c main_v19_0 = W4 m ρ c (Proc.devRef .tc main_v19_0) := by
  show StableHlo.after hostOps2 (W4 m ρ c) (Proc.devRef .tc main_v19_0) = _
  after_results

/-! ### Stretch 3: the second layer's weight matrix -/

/-- The second layer's weight matrix as the fourth region finds it: layer 1 of the stacked weights. -/
theorem w3_eq : V7 m ρ c main_v37 = Cert.Spec.wOf 1 (m ((c : Thread nD τ).loc main_arg3)) := by
  have e : V7 m ρ c main_v37 = shapeCast S128x128 (extractStridedSlice S1x128x128 ![1, 0, 0]
      (W6 m ρ c (Proc.devRef .tc main_arg3)) slices_S2x128x128_S1x128x128_1_0_0) shapeCasts_S1x128x128_S128x128 := by
    show StableHlo.after hostOps3 (W6 m ρ c) (Proc.devRef .tc main_v37) = _
    after_results
    rfl
  rw [e, arg6_3]
  exact layer_matrix 1 _ _ _

/-- The first layer's output the third region left is what the fourth region finds. -/
theorem h3_keep : V7 m ρ c main_v35 = W6 m ρ c (Proc.devRef .tc main_v35) := by
  show StableHlo.after hostOps3 (W6 m ρ c) (Proc.devRef .tc main_v35) = _
  after_results

/-! ### Stretch 4: the second layer's aggregation, bias and first slope -/

set_option maxHeartbeats 1600000 in
/-- The layer's aggregation over the edges of what the region before left. -/
theorem agg4_eq : V9 m ρ c main_v48
    = Cert.Spec.aggOf gather_S50000x128_S800000x1_S800000x128_1_0_n_n_0_1_1128 scatter_S50000x128_S800000x1_S800000x128_1_0_0_1 zeroArr
        (srcIdx (m ((c : Thread nD τ).loc main_arg1))) (dstIdx (m ((c : Thread nD τ).loc main_arg2)))
        (W8 m ρ c (Proc.devRef .tc main_v38)) := by
  have e : V9 m ρ c main_v48
      = Cert.Spec.aggOf gather_S50000x128_S800000x1_S800000x128_1_0_n_n_0_1_1128 scatter_S50000x128_S800000x1_S800000x128_1_0_0_1 zeroArr
          (srcIdx (W8 m ρ c (Proc.devRef .tc main_arg1))) (dstIdx (W8 m ρ c (Proc.devRef .tc main_arg2)))
          (W8 m ρ c (Proc.devRef .tc main_v38)) := by
    show StableHlo.after hostOps4 (W8 m ρ c) (Proc.devRef .tc main_v48) = _
    after_results
    rfl
  rw [e, arg8_1, arg8_2]

/-- The layer's bias row. -/
theorem bias4_eq : V9 m ρ c main_v51 = Cert.Spec.rowOf 1 (m ((c : Thread nD τ).loc main_arg4)) := by
  have e : V9 m ρ c main_v51 = shapeCast S1x128 (shapeCast S128 (extractStridedSlice S1x128 ![1, 0]
      (W8 m ρ c (Proc.devRef .tc main_arg4)) slices_S2x128_S1x128_1_0) shapeCasts_S1x128_S128) shapeCasts_S128_S1x128 := by
    show StableHlo.after hostOps4 (W8 m ρ c) (Proc.devRef .tc main_v51) = _
    after_results
    rfl
  rw [e, arg8_4]
  exact layer_row 1 _ _ _ _

/-- The layer's first rectifier slope. -/
theorem a4_eq : V9 m ρ c main_v54 (ix2 (0 : Fin 1) (0 : Fin 1)) = Cert.Spec.scOf 1 (m ((c : Thread nD τ).loc main_arg5)) := by
  have e : V9 m ρ c main_v54 = shapeCast S1x1 (shapeCast S_ (extractStridedSlice S1 ![1]
      (W8 m ρ c (Proc.devRef .tc main_arg5)) slices_S2_S1_1) shapeCasts_S1_S_) shapeCasts_S_S1x1 := by
    show StableHlo.after hostOps4 (W8 m ρ c) (Proc.devRef .tc main_v54) = _
    after_results
    rfl
  rw [e, arg8_5]
  exact layer_scalar 1 _ _ _ _

/-! ### Stretch 5: the second layer's mean, variance, gain, shift and second slope -/

/-- The layer's mean: the column sums the region before left, divided by the number of nodes. -/
theorem mean5_eq : V11 m ρ c main_v57
    = fun j => Ideal.div (W10 m ρ c (Proc.devRef .tc main_v55_1) j) Cert.Spec.nodes := by
  show StableHlo.after hostOps5 (W10 m ρ c) (Proc.devRef .tc main_v57) = _
  after_results
  rfl

/-- The layer's variance: the mean of the squares minus the square of the mean. -/
theorem var5_eq : V11 m ρ c main_v61
    = fun j => Ideal.div (W10 m ρ c (Proc.devRef .tc main_v55_2) j) Cert.Spec.nodes
        - Ideal.div (W10 m ρ c (Proc.devRef .tc main_v55_1) j) Cert.Spec.nodes
          * Ideal.div (W10 m ρ c (Proc.devRef .tc main_v55_1) j) Cert.Spec.nodes := by
  show StableHlo.after hostOps5 (W10 m ρ c) (Proc.devRef .tc main_v61) = _
  after_results
  rfl

/-- The layer's gain row. -/
theorem g5_eq : V11 m ρ c main_v64 = Cert.Spec.rowOf 1 (m ((c : Thread nD τ).loc main_arg6)) := by
  have e : V11 m ρ c main_v64 = shapeCast S1x128 (shapeCast S128 (extractStridedSlice S1x128 ![1, 0]
      (W10 m ρ c (Proc.devRef .tc main_arg6)) slices_S2x128_S1x128_1_0) shapeCasts_S1x128_S128) shapeCasts_S128_S1x128 := by
    show StableHlo.after hostOps5 (W10 m ρ c) (Proc.devRef .tc main_v64) = _
    after_results
    rfl
  rw [e, arg10_6]
  exact layer_row 1 _ _ _ _

/-- The layer's shift row. -/
theorem bt5_eq : V11 m ρ c main_v67 = Cert.Spec.rowOf 1 (m ((c : Thread nD τ).loc main_arg7)) := by
  have e : V11 m ρ c main_v67 = shapeCast S1x128 (shapeCast S128 (extractStridedSlice S1x128 ![1, 0]
      (W10 m ρ c (Proc.devRef .tc main_arg7)) slices_S2x128_S1x128_1_0) shapeCasts_S1x128_S128) shapeCasts_S128_S1x128 := by
    show StableHlo.after hostOps5 (W10 m ρ c) (Proc.devRef .tc main_v67) = _
    after_results
    rfl
  rw [e, arg10_7]
  exact layer_row 1 _ _ _ _

/-- The layer's second rectifier slope. -/
theorem a5_eq : V11 m ρ c main_v70 (ix2 (0 : Fin 1) (0 : Fin 1)) = Cert.Spec.scOf 1 (m ((c : Thread nD τ).loc main_arg8)) := by
  have e : V11 m ρ c main_v70 = shapeCast S1x1 (shapeCast S_ (extractStridedSlice S1 ![1]
      (W10 m ρ c (Proc.devRef .tc main_arg8)) slices_S2_S1_1) shapeCasts_S1_S_) shapeCasts_S_S1x1 := by
    show StableHlo.after hostOps5 (W10 m ρ c) (Proc.devRef .tc main_v70) = _
    after_results
    rfl
  rw [e, arg10_8]
  exact layer_scalar 1 _ _ _ _

/-- The rectified pre-activation the region before left is what the next region finds. -/
theorem z5_keep : V11 m ρ c main_v55_0 = W10 m ρ c (Proc.devRef .tc main_v55_0) := by
  show StableHlo.after hostOps5 (W10 m ρ c) (Proc.devRef .tc main_v55_0) = _
  after_results

end Cert.KernelIdeal.KHost

end
-- ==== Proof.KValue.lean ====
/-
  The idealized kernel program's result as one function of its arguments.

  The run's fold of buffer contents is read boundary by boundary: a launch leaves in its output array the function
  of its input arrays that the launch's own module states; a host stretch leaves its operations' values.  Composed,
  the result buffer holds the two-layer network of the specification — with the variance of each feature computed as
  the mean of the squares minus the square of the mean — of the nine argument arrays.
-/
import proofs.«173872_j25031069401694_1_alg».proof.Proof.KRun
import proofs.«173872_j25031069401694_1_alg».proof.Proof.KMat0
import proofs.«173872_j25031069401694_1_alg».proof.Proof.KMat3
import proofs.«173872_j25031069401694_1_alg».proof.Proof.KNorm2
import proofs.«173872_j25031069401694_1_alg».proof.Proof.KNorm5
import proofs.«173872_j25031069401694_1_alg».proof.Proof.KStage1
import proofs.«173872_j25031069401694_1_alg».proof.Proof.KStage4
import proofs.«173872_j25031069401694_1_alg».proof.Proof.KHost
import proofs.«173872_j25031069401694_1_alg».proof.Proof.Spec

set_option maxRecDepth 16384

noncomputable section

namespace Cert.KernelIdeal.KValue

open Idealize.ShloMosaic Idealize.ShloMosaic.TcCoe Idealize.SL.Sem Idealize.ShloMosaic.ValueIdx
open Idealize.ShloMosaic.PlainDot
open Cert.KernelIdeal Cert.KernelIdeal.Gen Cert.KernelIdeal.KHost Cert.Spec

/-- The aggregation over the edges, as a function of the array it aggregates: the rows gathered at the source
    indices (a negative index counted from the end) and added into a zero array at the destination indices. -/
def agg (a1 a2 : IVec S800000 32) : (SA.Idx → EReal) → SA.Idx → EReal := fun z =>
  aggOf gather_S50000x128_S800000x1_S800000x128_1_0_n_n_0_1_1128 scatter_S50000x128_S800000x1_S800000x128_1_0_0_1
    zeroArr (srcIdx a1) (dstIdx a2) z

variable (m : (ℓ : Loc nD τ sig) → Buf (Elt Ideal) ℓ) (ρ : Dev nD → PrngReg) (c : Dev nD)

/-! ## The first layer -/

/-- After the first launch: the features times the first weight matrix. -/
theorem z0 : W2 m ρ c (Proc.devRef .tc main_v2) = mm (m ((c : Thread nD τ).loc main_arg0)) (wOf 0 (m ((c : Thread nD τ).loc main_arg3))) := by
  refine ((W2_arr m ρ c 2).trans (KMat0.z_final (V1 m ρ) c)).trans ?_
  rw [h0_eq, w0_eq]

/-- The aggregated products entering the second launch. -/
theorem agg0 : V3 m ρ c main_v12 = (agg (m ((c : Thread nD τ).loc main_arg1)) (m ((c : Thread nD τ).loc main_arg2))) (mm (m ((c : Thread nD τ).loc main_arg0)) (wOf 0 (m ((c : Thread nD τ).loc main_arg3)))) := by
  rw [agg1_eq, z0]; rfl

/-- After the second launch: the rectified pre-activation. -/
theorem pre0 : W4 m ρ c (Proc.devRef .tc main_v19_0) = (pre ((agg (m ((c : Thread nD τ).loc main_arg1)) (m ((c : Thread nD τ).loc main_arg2))) (mm (m ((c : Thread nD τ).loc main_arg0)) (wOf 0 (m ((c : Thread nD τ).loc main_arg3))))) (rowOf 0 (m ((c : Thread nD τ).loc main_arg4))) (scOf 0 (m ((c : Thread nD τ).loc main_arg5)))) := by
  refine ((W4_arr m ρ c 3).trans (KStage1.z_final (V3 m ρ) c)).trans ?_
  rw [agg0, bias1_eq, a1_eq]

/-- After the second launch: its column sums. -/
theorem sum0 : W4 m ρ c (Proc.devRef .tc main_v19_1) = colsum (pre ((agg (m ((c : Thread nD τ).loc main_arg1)) (m ((c : Thread nD τ).loc main_arg2))) (mm (m ((c : Thread nD τ).loc main_arg0)) (wOf 0 (m ((c : Thread nD τ).loc main_arg3))))) (rowOf 0 (m ((c : Thread nD τ).loc main_arg4))) (scOf 0 (m ((c : Thread nD τ).loc main_arg5)))) := by
  refine ((W4_arr m ρ c 4).trans (KStage1.sum_final (V3 m ρ) c)).trans ?_
  rw [agg0, bias1_eq, a1_eq]

/-- After the second launch: the column sums of its squares. -/
theorem sumsq0 : W4 m ρ c (Proc.devRef .tc main_v19_2) = colsum (fun i => (pre ((agg (m ((c : Thread nD τ).loc main_arg1)) (m ((c : Thread nD τ).loc main_arg2))) (mm (m ((c : Thread nD τ).loc main_arg0)) (wOf 0 (m ((c : Thread nD τ).loc main_arg3))))) (rowOf 0 (m ((c : Thread nD τ).loc main_arg4))) (scOf 0 (m ((c : Thread nD τ).loc main_arg5)))) i * (pre ((agg (m ((c : Thread nD τ).loc main_arg1)) (m ((c : Thread nD τ).loc main_arg2))) (mm (m ((c : Thread nD τ).loc main_arg0)) (wOf 0 (m ((c : Thread nD τ).loc main_arg3))))) (rowOf 0 (m ((c : Thread nD τ).loc main_arg4))) (scOf 0 (m ((c : Thread nD τ).loc main_arg5)))) i) := by
  refine ((W4_arr m ρ c 5).trans (KStage1.sumsq_final (V3 m ρ) c)).trans ?_
  rw [agg0, bias1_eq, a1_eq]

/-- After the third launch: the first layer's output. -/
theorem h1 : W6 m ρ c (Proc.devRef .tc main_v35) = (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) := by
  refine ((W6_arr m ρ c 6).trans (KNorm2.h_final (V5 m ρ) c)).trans ?_
  rw [z2_keep, mean2_eq, var2_eq, g2_eq, bt2_eq, a2_eq, pre0, sum0, sumsq0]
  rfl

/-! ## The second layer -/

/-- After the fourth launch: the first layer's output times the second weight matrix. -/
theorem z1 : W8 m ρ c (Proc.devRef .tc main_v38) = mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3))) := by
  refine ((W8_arr m ρ c 2).trans (KMat3.z_final (V7 m ρ) c)).trans ?_
  rw [h3_keep, w3_eq, h1]

/-- The aggregated products entering the fifth launch. -/
theorem agg1 : V9 m ρ c main_v48 = (agg (m ((c : Thread nD τ).loc main_arg1)) (m ((c : Thread nD τ).loc main_arg2))) (mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3)))) := by
  rw [agg4_eq, z1]; rfl

/-- After the fifth launch: the rectified pre-activation. -/
theorem pre1 : W10 m ρ c (Proc.devRef .tc main_v55_0) = (pre ((agg (m ((c : Thread nD τ).loc main_arg1)) (m ((c : Thread nD τ).loc main_arg2))) (mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3))))) (rowOf 1 (m ((c : Thread nD τ).loc main_arg4))) (scOf 1 (m ((c : Thread nD τ).loc main_arg5)))) := by
  refine ((W10_arr m ρ c 3).trans (KStage4.z_final (V9 m ρ) c)).trans ?_
  rw [agg1, bias4_eq, a4_eq]

/-- After the fifth launch: its column sums. -/
theorem sum1 : W10 m ρ c (Proc.devRef .tc main_v55_1) = colsum (pre ((agg (m ((c : Thread nD τ).loc main_arg1)) (m ((c : Thread nD τ).loc main_arg2))) (mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3))))) (rowOf 1 (m ((c : Thread nD τ).loc main_arg4))) (scOf 1 (m ((c : Thread nD τ).loc main_arg5)))) := by
  refine ((W10_arr m ρ c 4).trans (KStage4.sum_final (V9 m ρ) c)).trans ?_
  rw [agg1, bias4_eq, a4_eq]

/-- After the fifth launch: the column sums of its squares. -/
theorem sumsq1 : W10 m ρ c (Proc.devRef .tc main_v55_2) = colsum (fun i => (pre ((agg (m ((c : Thread nD τ).loc main_arg1)) (m ((c : Thread nD τ).loc main_arg2))) (mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3))))) (rowOf 1 (m ((c : Thread nD τ).loc main_arg4))) (scOf 1 (m ((c : Thread nD τ).loc main_arg5)))) i * (pre ((agg (m ((c : Thread nD τ).loc main_arg1)) (m ((c : Thread nD τ).loc main_arg2))) (mm (layerK (agg (m ((c : Thread nD τ).loc main_arg1)) (m ((c : Thread nD τ).loc main_arg2))) (m ((c : Thread nD τ).loc main_arg0)) (wOf 0 (m ((c : Thread nD τ).loc main_arg3))) (rowOf 0 (m ((c : Thread nD τ).loc main_arg4))) (scOf 0 (m ((c : Thread nD τ).loc main_arg5))) (rowOf 0 (m ((c : Thread nD τ).loc main_arg6))) (rowOf 0 (m ((c : Thread nD τ).loc main_arg7))) (scOf 0 (m ((c : Thread nD τ).loc main_arg8)))) (wOf 1 (m ((c : Thread nD τ).loc main_arg3))))) (rowOf 1 (m ((c : Thread nD τ).loc main_arg4))) (scOf 1 (m ((c : Thread nD τ).loc main_arg5)))) i) := by
  refine ((W10_arr m ρ c 5).trans (KStage4.sumsq_final (V9 m ρ) c)).trans ?_
  rw [agg1, bias4_eq, a4_eq]

/-- The result buffer at the end of the run: the two-layer network of the arguments. -/
theorem result_eq : W12 m ρ c (Proc.devRef .tc main_v71)
    = netK (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W12_arr m ρ c 6).trans (KNorm5.h_final (V11 m ρ) c)).trans ?_
  rw [z5_keep, mean5_eq, var5_eq, g5_eq, bt5_eq, a5_eq, pre1, sum1, sumsq1]
  rfl

end Cert.KernelIdeal.KValue

end
-- ==== Proof.RefRun.lean ====
/-
  The idealized reference program's run, with its result as one term of the arguments.

  The reference is a straight line of host operations; the functions it calls (a selection, and the variance of the
  columns of an array, which itself calls a selection) are read with their operations in place at the call.  Every
  weakly fair execution terminates without a fault, the argument arrays end unchanged, and the result buffer holds
  two applications of one layer: the features times a weight matrix, summed over the incoming edges of every node
  (a gather of rows at the source indices, a scatter-add at the destination indices), plus a bias, rectified with a
  slope, normalised by the mean and the variance of every column (the variance as the mean of the squared
  deviations from the mean, divided by the count 50000 - 0 and guarded by the test that the count is positive),
  scaled, shifted and rectified again.
-/
import proofs.«173872_j25031069401694_1_alg».proof.ReferenceIdeal
import proofs.«173872_j25031069401694_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference as pure terms

One layer: a matrix product, a gather of its rows by the first index array (negative entries wrapped by 50000) added
into the rows the second index array names, a bias, a leaky step, a normalization over the 50000 rows by the column
mean and the column variance (the variance as the outlined function computes it), a scale, a shift, a leaky step. -/

/-- A scalar at every index of a 50000 x 128 array. -/
def refFill (s : FVec F S_ .f32) : FVec F S50000x128 .f32 :=
  broadcastInDim S50000x128 ![] bcast_S_S50000x128 s

/-- A 128-vector as every row of a 50000 x 128 array. -/
def refRow (b : FVec F S128 .f32) : FVec F S50000x128 .f32 :=
  broadcastInDim S50000x128 ![0, 1] bcast_S1x128_S50000x128_0_1 (broadcastInDim S1x128 ![1] bcast_S128_S1x128_1 b)

/-- The matrix product `h · w`. -/
def refDot (h : FVec F S50000x128 .f32) (w : FVec F S128x128 .f32) : FVec F S50000x128 .f32 :=
  Host.dotGeneral dot_S50000x128_S128x128_S50000x128_1_0_0_1_n_n none h w

/-- The source row of each edge, as a column: the index, plus 50000 where it is negative. -/
def refSrc (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

/-- Rows of `x` gathered by `a1` and added, from zero, into the rows `a2` names. -/
def refAgg (x : FVec F S50000x128 .f32) (a1 a2 : IVec S800000 32) : FVec F S50000x128 .f32 :=
  Host.scatterAdd scatter_S50000x128_S800000x1_S800000x128_1_0_0_1 (refFill (constant S_ .f32 0x00000000#32))
    (broadcastInDim S800000x1 ![0] bcast_S800000_S800000x1_0 a2)
    (Host.gather gather_S50000x128_S800000x1_S800000x128_1_0_n_n_0_1_1128 x (refSrc a1))

/-- The leaky step against a given array `z` (the program's is all zero): `x` where `x ≥ z`, else `s · x`. -/
def refActAt (x z : FVec F S50000x128 .f32) (s : FVec F S_ .f32) : FVec F S50000x128 .f32 :=
  select (cmpf .oge x z) x (mulf (refFill s) x)

/-- The leaky step: `x` where `x ≥ 0`, else `s · x`. -/
def refAct (x : FVec F S50000x128 .f32) (s : FVec F S_ .f32) : FVec F S50000x128 .f32 :=
  refActAt x (refFill (constant S_ .f32 0x00000000#32)) s

/-- Bias, then the leaky step. -/
def refPre (y : FVec F S50000x128 .f32) (b : FVec F S128 .f32) (ac : FVec F S_ .f32) : FVec F S50000x128 .f32 :=
  refAct (addf y (refRow b)) ac

/-- The column mean: the column sums divided by the 50000 word. -/
def refMean (x : FVec F S50000x128 .f32) : FVec F S128 .f32 :=
  Host.divf (Host.reduceAdd x (constant S_ .f32 0x00000000#32) reducesTo_S50000x128_S128_d0 h_S_)
    (broadcastInDim S128 ![] bcast_S_S128 (constant S_ .f32 0x47435000#32))

/-- `x` minus its column mean, the mean taken as the variance function takes it (the sums as a row, divided by
    the 50000 word as a row). -/
def refCentered (x : FVec F S50000x128 .f32) : FVec F S50000x128 .f32 :=
  subf x (broadcastInDim S50000x128 ![0, 1] bcast_S1x128_S50000x128_0_1
    (Host.divf
      (broadcastInDim S1x128 ![1] bcast_S128_S1x128_1
        (Host.reduceAdd x (constant S_ .f32 0x00000000#32) reducesTo_S50000x128_S128_d0 h_S_))
      (broadcastInDim S1x128 ![] bcast_S_S1x128 (constant S_ .f32 0x47435000#32))))

/-- The variance's divisor: the 50000 word minus the integer 0 converted. -/
def refCount : FVec F S_ .f32 :=
  subf (constant S_ .f32 0x47435000#32) (sitofp .f32 (constantI S_ 32 0#32))

/-- The column variance as the outlined function computes it: the column sums of the squared centered entries
    divided by the divisor where the divisor is positive, else the NaN word. -/
def refVar (x : FVec F S50000x128 .f32) : FVec F S128 .f32 :=
  select (broadcastInDim S128 ![] bcast_S_S128 (cmpf .ogt (refCount (F := F)) (constant S_ .f32 0x00000000#32)))
    (Host.divf
      (Host.reduceAdd (mulf (refCentered x) (refCentered x)) (constant S_ .f32 0x00000000#32) reducesTo_S50000x128_S128_d0 h_S_)
      (broadcastInDim S128 ![] bcast_S_S128 (refCount (F := F))))
    (broadcastInDim S128 ![] bcast_S_S128 (constant S_ .f32 0x7FC00000#32))

/-- The normalization at given mean and variance rows, then scale `g` and shift `bt`. -/
def refNorm (x : FVec F S50000x128 .f32) (mu var g bt : FVec F S128 .f32) : FVec F S50000x128 .f32 :=
  addf (mulf (mulf (subf x (refRow mu))
      (refRow (Host.rsqrt (addf var (broadcastInDim S128 ![] bcast_S_S128 (constant S_ .f32 0x3727C5AC#32))))))
    (refRow g)) (refRow bt)

/-- The normalization of `x` by its own column mean and variance. -/
def refNormed (x : FVec F S50000x128 .f32) (g bt : FVec F S128 .f32) : FVec F S50000x128 .f32 :=
  refNorm x (refMean x) (refVar x) g bt

/-- One layer of the reference. -/
def refLayer (h : FVec F S50000x128 .f32) (a1 a2 : IVec S800000 32) (w : FVec F S128x128 .f32) (b : FVec F S128 .f32)
    (ac : FVec F S_ .f32) (g bt : FVec F S128 .f32) (ao : FVec F S_ .f32) : FVec F S50000x128 .f32 :=
  refAct (refNormed (refPre (refAgg (refDot h w) a1 a2) b ac) g bt) ao

/-- Layer 0's / layer 1's slice of each stacked parameter. -/
def w0 (a : FVec F S2x128x128 .f32) : FVec F S128x128 .f32 :=
  shapeCast S128x128 (extractStridedSlice S1x128x128 ![0, 0, 0] a slices_S2x128x128_S1x128x128_0_0_0) shapeCasts_S1x128x128_S128x128
def w1 (a : FVec F S2x128x128 .f32) : FVec F S128x128 .f32 :=
  shapeCast S128x128 (extractStridedSlice S1x128x128 ![1, 0, 0] a slices_S2x128x128_S1x128x128_1_0_0) shapeCasts_S1x128x128_S128x128
def b0 (a : FVec F S2x128 .f32) : FVec F S128 .f32 :=
  shapeCast S128 (extractStridedSlice S1x128 ![0, 0] a slices_S2x128_S1x128_0_0) shapeCasts_S1x128_S128
def b1 (a : FVec F S2x128 .f32) : FVec F S128 .f32 :=
  shapeCast S128 (extractStridedSlice S1x128 ![1, 0] a slices_S2x128_S1x128_1_0) shapeCasts_S1x128_S128
def s0 (a : FVec F S2 .f32) : FVec F S_ .f32 :=
  shapeCast S_ (extractStridedSlice S1 ![0] a slices_S2_S1_0) shapeCasts_S1_S_
def s1 (a : FVec F S2 .f32) : FVec F S_ .f32 :=
  shapeCast S_ (extractStridedSlice S1 ![1] a slices_S2_S1_1) shapeCasts_S1_S_

/-- The reference's result: two layers over the same two index arrays. -/
def result (a0 : FVec F S50000x128 .f32) (a1 a2 : IVec S800000 32) (a3 : FVec F S2x128x128 .f32) (a4 : FVec F S2x128 .f32)
    (a5 : FVec F S2 .f32) (a6 a7 : FVec F S2x128 .f32) (a8 : FVec F S2 .f32) : FVec F S50000x128 .f32 :=
  refLayer (refLayer a0 a1 a2 (w0 a3) (b0 a4) (s0 a5) (b0 a6) (b0 a7) (s0 a8)) a1 a2 (w1 a3) (b1 a4) (s1 a5) (b1 a6) (b1 a7) (s1 a8)

/-! ## Layer 0's operations, in order, in seven stretches -/

/-- %0 … %2: the weight's slice and the product. -/
abbrev A1 : List (HloOp τ sig (Elt F)) :=
  [ unary main_arg3 main_v0 (extractStridedSlice S1x128x128 ![0, 0, 0] · slices_S2x128x128_S1x128x128_0_0_0),
    reshape main_v0 main_v1 rfl shapeCasts_S1x128x128_S128x128,
    binary main_arg0 main_v1 main_v2 (fun l r => Host.dotGeneral dot_S50000x128_S128x128_S50000x128_1_0_0_1_n_n none l r) ]

/-- %c … %12: the gather by the first index array, the scatter-add by the second. -/
abbrev B1 : List (HloOp τ sig (Elt F)) :=
  [ nullary main_c (constantI S_ 32 0#32),
    unary main_c main_v3 (broadcastInDim S800000 ![] bcast_S_S800000),
    binary main_arg1 main_v3 main_v4 (cmpi .slt),
    nullary main_c_0 (constantI S_ 32 50000#32),
    unary main_c_0 main_v5 (broadcastInDim S800000 ![] bcast_S_S800000),
    binary main_arg1 main_v5 main_v6 addi,
    ternary main_v4 main_v6 main_arg1 main_v7 select,
    unary main_v7 main_v8 (broadcastInDim S800000x1 ![0] bcast_S800000_S800000x1_0),
    binary main_v2 main_v8 main_v9 (fun x i => Host.gather gather_S50000x128_S800000x1_S800000x128_1_0_n_n_0_1_1128 x i),
    nullary main_cst (constant S_ .f32 0x00000000#32),
    unary main_cst main_v10 (broadcastInDim S50000x128 ![] bcast_S_S50000x128),
    unary main_arg2 main_v11 (broadcastInDim S800000x1 ![0] bcast_S800000_S800000x1_0),
    ternary main_v10 main_v11 main_v9 main_v12 (fun x i u => Host.scatterAdd scatter_S50000x128_S800000x1_S800000x128_1_0_0_1 x i u) ]

/-- %13 … %24: the bias and the leaky step (the select is the outlined function's one operation). -/
abbrev C1 : List (HloOp τ sig (Elt F)) :=
  [ unary main_arg4 main_v13 (extractStridedSlice S1x128 ![0, 0] · slices_S2x128_S1x128_0_0),
    reshape main_v13 main_v14 rfl shapeCasts_S1x128_S128,
    unary main_v14 main_v15 (broadcastInDim S1x128 ![1] bcast_S128_S1x128_1),
    unary main_v15 main_v16 (broadcastInDim S50000x128 ![0, 1] bcast_S1x128_S50000x128_0_1),
    binary main_v12 main_v16 main_v17 addf,
    unary main_arg5 main_v18 (extractStridedSlice S1 ![0] · slices_S2_S1_0),
    reshape main_v18 main_v19 rfl shapeCasts_S1_S_,
    nullary main_cst_1 (constant S_ .f32 0x00000000#32),
    unary main_cst_1 main_v20 (broadcastInDim S50000x128 ![] bcast_S_S50000x128),
    binary main_v17 main_v20 main_v21 (cmpf .oge),
    unary main_v19 main_v22 (broadcastInDim S50000x128 ![] bcast_S_S50000x128),
    binary main_v22 main_v17 main_v23 mulf,
    TRef.ternary (.of main_v21) (.of main_v17) (.of main_v23) main_call0.v0 select ]

/-- %cst_2 … %27: the column mean. -/
abbrev D1 : List (HloOp τ sig (Elt F)) :=
  [ nullary main_cst_2 (constant S_ .f32 0x00000000#32),
    binary main_v24 main_cst_2 main_v25 (fun x v => Host.reduceAdd x v reducesTo_S50000x128_S128_d0 h_S_),
    nullary main_cst_3 (constant S_ .f32 0x47435000#32),
    unary main_cst_3 main_v26 (broadcastInDim S128 ![] bcast_S_S128),
    binary main_v25 main_v26 main_v27 Host.divf ]

/-- %c_4, %28: the integer 0 and the variance function's twenty-two operations (its last three the inner select
    function's). -/
abbrev E1 : List (HloOp τ sig (Elt F)) :=
  [ nullary main_c_4 (constantI S_ 32 0#32),
    TRef.nullary main_call1.cst (constant S_ .f32 0x00000000#32),
    TRef.binary (.of main_v24) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v24) main_call1.v4 main_call1.v5 subf,
    TRef.binary main_call1.v5 main_call1.v5 main_call1.v6 mulf,
    TRef.unary (.of main_c_4) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2
      (fun p a b => select (broadcastInDim S128 ![] bcast_S_S128 p) a b) ]

/-- %29 … %50: the normalization, the scale, the shift; the second leaky step's slope and its zero array. -/
abbrev G1 : List (HloOp τ sig (Elt F)) :=
  [ unary main_v27 main_v29 (broadcastInDim S1x128 ![1] bcast_S128_S1x128_1),
    unary main_v29 main_v30 (broadcastInDim S50000x128 ![0, 1] bcast_S1x128_S50000x128_0_1),
    binary main_v24 main_v30 main_v31 subf,
    nullary main_cst_5 (constant S_ .f32 0x3727C5AC#32),
    unary main_cst_5 main_v32 (broadcastInDim S128 ![] bcast_S_S128),
    binary main_v28 main_v32 main_v33 addf,
    unary main_v33 main_v34 Host.rsqrt,
    unary main_v34 main_v35 (broadcastInDim S1x128 ![1] bcast_S128_S1x128_1),
    unary main_v35 main_v36 (broadcastInDim S50000x128 ![0, 1] bcast_S1x128_S50000x128_0_1),
    binary main_v31 main_v36 main_v37 mulf,
    unary main_arg6 main_v38 (extractStridedSlice S1x128 ![0, 0] · slices_S2x128_S1x128_0_0),
    reshape main_v38 main_v39 rfl shapeCasts_S1x128_S128,
    unary main_v39 main_v40 (broadcastInDim S1x128 ![1] bcast_S128_S1x128_1),
    unary main_v40 main_v41 (broadcastInDim S50000x128 ![0, 1] bcast_S1x128_S50000x128_0_1),
    binary main_v37 main_v41 main_v42 mulf,
    unary main_arg7 main_v43 (extractStridedSlice S1x128 ![0, 0] · slices_S2x128_S1x128_0_0),
    reshape main_v43 main_v44 rfl shapeCasts_S1x128_S128,
    unary main_v44 main_v45 (broadcastInDim S1x128 ![1] bcast_S128_S1x128_1),
    unary main_v45 main_v46 (broadcastInDim S50000x128 ![0, 1] bcast_S1x128_S50000x128_0_1),
    binary main_v42 main_v46 main_v47 addf,
    unary main_arg8 main_v48 (extractStridedSlice S1 ![0] · slices_S2_S1_0),
    reshape main_v48 main_v49 rfl shapeCasts_S1_S_,
    nullary main_cst_6 (constant S_ .f32 0x00000000#32),
    unary main_cst_6 main_v50 (broadcastInDim S50000x128 ![] bcast_S_S50000x128) ]

/-- %51 … %54: the second leaky step. -/
abbrev H1 : List (HloOp τ sig (Elt F)) :=
  [ binary main_v47 main_v50 main_v51 (cmpf .oge),
    unary main_v49 main_v52 (broadcastInDim S50000x128 ![] bcast_S_S50000x128),
    binary main_v52 main_v47 main_v53 mulf,
    TRef.ternary (.of main_v51) (.of main_v47) (.of main_v53) main_call2.v0 select ]

/-! ## Layer 1's operations, in order, in seven stretches -/

/-- %55 … %57: the weight's slice and the product, of layer 0's result. -/
abbrev A2 : List (HloOp τ sig (Elt F)) :=
  [ unary main_arg3 main_v55 (extractStridedSlice S1x128x128 ![1, 0, 0] · slices_S2x128x128_S1x128x128_1_0_0),
    reshape main_v55 main_v56 rfl shapeCasts_S1x128x128_S128x128,
    binary main_v54 main_v56 main_v57 (fun l r => Host.dotGeneral dot_S50000x128_S128x128_S50000x128_1_0_0_1_n_n none l r) ]

/-- %c_7 … %67: the gather by the first index array, the scatter-add by the second. -/
abbrev B2 : List (HloOp τ sig (Elt F)) :=
  [ nullary main_c_7 (constantI S_ 32 0#32),
    unary main_c_7 main_v58 (broadcastInDim S800000 ![] bcast_S_S800000),
    binary main_arg1 main_v58 main_v59 (cmpi .slt),
    nullary main_c_8 (constantI S_ 32 50000#32),
    unary main_c_8 main_v60 (broadcastInDim S800000 ![] bcast_S_S800000),
    binary main_arg1 main_v60 main_v61 addi,
    ternary main_v59 main_v61 main_arg1 main_v62 select,
    unary main_v62 main_v63 (broadcastInDim S800000x1 ![0] bcast_S800000_S800000x1_0),
    binary main_v57 main_v63 main_v64 (fun x i => Host.gather gather_S50000x128_S800000x1_S800000x128_1_0_n_n_0_1_1128 x i),
    nullary main_cst_9 (constant S_ .f32 0x00000000#32),
    unary main_cst_9 main_v65 (broadcastInDim S50000x128 ![] bcast_S_S50000x128),
    unary main_arg2 main_v66 (broadcastInDim S800000x1 ![0] bcast_S800000_S800000x1_0),
    ternary main_v65 main_v66 main_v64 main_v67 (fun x i u => Host.scatterAdd scatter_S50000x128_S800000x1_S800000x128_1_0_0_1 x i u) ]

/-- %68 … %79: the bias and the leaky step. -/
abbrev C2 : List (HloOp τ sig (Elt F)) :=
  [ unary main_arg4 main_v68 (extractStridedSlice S1x128 ![1, 0] · slices_S2x128_S1x128_1_0),
    reshape main_v68 main_v69 rfl shapeCasts_S1x128_S128,
    unary main_v69 main_v70 (broadcastInDim S1x128 ![1] bcast_S128_S1x128_1),
    unary main_v70 main_v71 (broadcastInDim S50000x128 ![0, 1] bcast_S1x128_S50000x128_0_1),
    binary main_v67 main_v71 main_v72 addf,
    unary main_arg5 main_v73 (extractStridedSlice S1 ![1] · slices_S2_S1_1),
    reshape main_v73 main_v74 rfl shapeCasts_S1_S_,
    nullary main_cst_10 (constant S_ .f32 0x00000000#32),
    unary main_cst_10 main_v75 (broadcastInDim S50000x128 ![] bcast_S_S50000x128),
    binary main_v72 main_v75 main_v76 (cmpf .oge),
    unary main_v74 main_v77 (broadcastInDim S50000x128 ![] bcast_S_S50000x128),
    binary main_v77 main_v72 main_v78 mulf,
    TRef.ternary (.of main_v76) (.of main_v72) (.of main_v78) main_call3.v0 select ]

/-- %cst_11 … %82: the column mean. -/
abbrev D2 : List (HloOp τ sig (Elt F)) :=
  [ nullary main_cst_11 (constant S_ .f32 0x00000000#32),
    binary main_v79 main_cst_11 main_v80 (fun x v => Host.reduceAdd x v reducesTo_S50000x128_S128_d0 h_S_),
    nullary main_cst_12 (constant S_ .f32 0x47435000#32),
    unary main_cst_12 main_v81 (broadcastInDim S128 ![] bcast_S_S128),
    binary main_v80 main_v81 main_v82 Host.divf ]

/-- %c_13, %83: the integer 0 and the variance function's twenty-two operations. -/
abbrev E2 : List (HloOp τ sig (Elt F)) :=
  [ nullary main_c_13 (constantI S_ 32 0#32),
    TRef.nullary main_call4.cst (constant S_ .f32 0x00000000#32),
    TRef.binary (.of main_v79) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v79) main_call4.v4 main_call4.v5 subf,
    TRef.binary main_call4.v5 main_call4.v5 main_call4.v6 mulf,
    TRef.unary (.of main_c_13) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2
      (fun p a b => select (broadcastInDim S128 ![] bcast_S_S128 p) a b) ]

/-- %84 … %102: the normalization, the scale, the shift. -/
abbrev G2 : List (HloOp τ sig (Elt F)) :=
  [ unary main_v82 main_v84 (broadcastInDim S1x128 ![1] bcast_S128_S1x128_1),
    unary main_v84 main_v85 (broadcastInDim S50000x128 ![0, 1] bcast_S1x128_S50000x128_0_1),
    binary main_v79 main_v85 main_v86 subf,
    nullary main_cst_14 (constant S_ .f32 0x3727C5AC#32),
    unary main_cst_14 main_v87 (broadcastInDim S128 ![] bcast_S_S128),
    binary main_v83 main_v87 main_v88 addf,
    unary main_v88 main_v89 Host.rsqrt,
    unary main_v89 main_v90 (broadcastInDim S1x128 ![1] bcast_S128_S1x128_1),
    unary main_v90 main_v91 (broadcastInDim S50000x128 ![0, 1] bcast_S1x128_S50000x128_0_1),
    binary main_v86 main_v91 main_v92 mulf,
    unary main_arg6 main_v93 (extractStridedSlice S1x128 ![1, 0] · slices_S2x128_S1x128_1_0),
    reshape main_v93 main_v94 rfl shapeCasts_S1x128_S128,
    unary main_v94 main_v95 (broadcastInDim S1x128 ![1] bcast_S128_S1x128_1),
    unary main_v95 main_v96 (broadcastInDim S50000x128 ![0, 1] bcast_S1x128_S50000x128_0_1),
    binary main_v92 main_v96 main_v97 mulf,
    unary main_arg7 main_v98 (extractStridedSlice S1x128 ![1, 0] · slices_S2x128_S1x128_1_0),
    reshape main_v98 main_v99 rfl shapeCasts_S1x128_S128,
    unary main_v99 main_v100 (broadcastInDim S1x128 ![1] bcast_S128_S1x128_1),
    unary main_v100 main_v101 (broadcastInDim S50000x128 ![0, 1] bcast_S1x128_S50000x128_0_1),
    binary main_v97 main_v101 main_v102 addf ]

/-- %103 … %109: the second leaky step, with its slope's slice and its zero array. -/
abbrev H2 : List (HloOp τ sig (Elt F)) :=
  [ unary main_arg8 main_v103 (extractStridedSlice S1 ![1] · slices_S2_S1_1),
    reshape main_v103 main_v104 rfl shapeCasts_S1_S_,
    nullary main_cst_15 (constant S_ .f32 0x00000000#32),
    unary main_cst_15 main_v105 (broadcastInDim S50000x128 ![] bcast_S_S50000x128),
    binary main_v102 main_v105 main_v106 (cmpf .oge),
    unary main_v104 main_v107 (broadcastInDim S50000x128 ![] bcast_S_S50000x128),
    binary main_v107 main_v102 main_v108 mulf,
    TRef.ternary (.of main_v106) (.of main_v102) (.of main_v108) main_call5.v0 select ]

/-! ## What each stretch computes, from any contents -/

variable (W : Valuation τ sig (Elt F))

theorem A1_v2 : after A1 W (no_index (Proc.devRef .tc main_v2))
    = refDot (W (Proc.devRef .tc main_arg0)) (w0 (W (Proc.devRef .tc main_arg3))) := by
  after_results_simp
  rfl
theorem B1_v12 : after B1 W (no_index (Proc.devRef .tc main_v12))
    = refAgg (W (Proc.devRef .tc main_v2)) (W (Proc.devRef .tc main_arg1)) (W (Proc.devRef .tc main_arg2)) := by
  after_results_simp
  rfl
theorem C1_v24 : after C1 W (no_index (Proc.devRef .tc main_v24))
    = refPre (W (Proc.devRef .tc main_v12)) (b0 (W (Proc.devRef .tc main_arg4))) (s0 (W (Proc.devRef .tc main_arg5))) := by
  after_results_simp
  rfl
theorem D1_v27 : after D1 W (no_index (Proc.devRef .tc main_v27)) = refMean (W (Proc.devRef .tc main_v24)) := by
  after_results_simp
  rfl
theorem E1_v28 : after E1 W (no_index (Proc.devRef .tc main_v28)) = refVar (W (Proc.devRef .tc main_v24)) := by
  after_results_simp
  rfl
theorem G1_v47 : after G1 W (no_index (Proc.devRef .tc main_v47))
    = refNorm (W (Proc.devRef .tc main_v24)) (W (Proc.devRef .tc main_v27)) (W (Proc.devRef .tc main_v28))
        (b0 (W (Proc.devRef .tc main_arg6))) (b0 (W (Proc.devRef .tc main_arg7))) := by
  after_results_simp
  rfl
theorem G1_v49 : after G1 W (no_index (Proc.devRef .tc main_v49)) = s0 (W (Proc.devRef .tc main_arg8)) := by
  after_results_simp
  rfl
theorem G1_v50 : after G1 W (no_index (Proc.devRef .tc main_v50)) = refFill (constant S_ .f32 0x00000000#32) := by
  after_results_simp
  rfl
theorem H1_v54 : after H1 W (no_index (Proc.devRef .tc main_v54))
    = refActAt (W (Proc.devRef .tc main_v47)) (W (Proc.devRef .tc main_v50)) (W (Proc.devRef .tc main_v49)) := by
  after_results_simp
  rfl

theorem A2_v57 : after A2 W (no_index (Proc.devRef .tc main_v57))
    = refDot (W (Proc.devRef .tc main_v54)) (w1 (W (Proc.devRef .tc main_arg3))) := by
  after_results_simp
  rfl
theorem B2_v67 : after B2 W (no_index (Proc.devRef .tc main_v67))
    = refAgg (W (Proc.devRef .tc main_v57)) (W (Proc.devRef .tc main_arg1)) (W (Proc.devRef .tc main_arg2)) := by
  after_results_simp
  rfl
theorem C2_v79 : after C2 W (no_index (Proc.devRef .tc main_v79))
    = refPre (W (Proc.devRef .tc main_v67)) (b1 (W (Proc.devRef .tc main_arg4))) (s1 (W (Proc.devRef .tc main_arg5))) := by
  after_results_simp
  rfl
theorem D2_v82 : after D2 W (no_index (Proc.devRef .tc main_v82)) = refMean (W (Proc.devRef .tc main_v79)) := by
  after_results_simp
  rfl
theorem E2_v83 : after E2 W (no_index (Proc.devRef .tc main_v83)) = refVar (W (Proc.devRef .tc main_v79)) := by
  after_results_simp
  rfl
theorem G2_v102 : after G2 W (no_index (Proc.devRef .tc main_v102))
    = refNorm (W (Proc.devRef .tc main_v79)) (W (Proc.devRef .tc main_v82)) (W (Proc.devRef .tc main_v83))
        (b1 (W (Proc.devRef .tc main_arg6))) (b1 (W (Proc.devRef .tc main_arg7))) := by
  after_results_simp
  rfl
theorem H2_v109 : after H2 W (no_index (Proc.devRef .tc main_v109))
    = refAct (W (Proc.devRef .tc main_v102)) (s1 (W (Proc.devRef .tc main_arg8))) := by
  after_results_simp
  rfl

/-! ## What each stretch leaves alone -/

/-- Every operation of a literal list writes a buffer of the given literal list: operation by operation, the one
    buffer a builder writes is found in the list. -/
local macro "writes_in_list" : tactic =>
  `(tactic| (simp only [List.Forall]
             repeat' apply And.intro
             all_goals (simp only [nullary_writes, unary_writes, binary_writes, ternary_writes, reshape_writes,
               Finset.singleton_subset_iff, List.mem_toFinset]; exact List.mem_map_of_mem (by decide))))

abbrev A1_W : List (Ref sig .tc) := [main_v0, main_v1, main_v2]
theorem A1_writes : (A1 : List (HloOp τ sig (Elt F))).Forall fun op => op.writes ⊆ (A1_W.map (Proc.devRef (τ := τ) .tc)).toFinset := by
  writes_in_list
theorem A1_keep {r : Ref sig .tc} (h : r ∉ A1_W) : after A1 W (no_index (Proc.devRef .tc r)) = W (Proc.devRef .tc r) :=
  after_of_writes_sub A1 W A1_writes h

abbrev B1_W : List (Ref sig .tc) :=
  [main_c, main_v3, main_v4, main_c_0, main_v5, main_v6, main_v7, main_v8, main_v9, main_cst, main_v10, main_v11, main_v12]
theorem B1_writes : (B1 : List (HloOp τ sig (Elt F))).Forall fun op => op.writes ⊆ (B1_W.map (Proc.devRef (τ := τ) .tc)).toFinset := by
  writes_in_list
theorem B1_keep {r : Ref sig .tc} (h : r ∉ B1_W) : after B1 W (no_index (Proc.devRef .tc r)) = W (Proc.devRef .tc r) :=
  after_of_writes_sub B1 W B1_writes h

abbrev C1_W : List (Ref sig .tc) :=
  [main_v13, main_v14, main_v15, main_v16, main_v17, main_v18, main_v19, main_cst_1, main_v20, main_v21, main_v22, main_v23, main_v24]
theorem C1_writes : (C1 : List (HloOp τ sig (Elt F))).Forall fun op => op.writes ⊆ (C1_W.map (Proc.devRef (τ := τ) .tc)).toFinset := by
  writes_in_list
theorem C1_keep {r : Ref sig .tc} (h : r ∉ C1_W) : after C1 W (no_index (Proc.devRef .tc r)) = W (Proc.devRef .tc r) :=
  after_of_writes_sub C1 W C1_writes h

abbrev D1_W : List (Ref sig .tc) := [main_cst_2, main_v25, main_cst_3, main_v26, main_v27]
theorem D1_writes : (D1 : List (HloOp τ sig (Elt F))).Forall fun op => op.writes ⊆ (D1_W.map (Proc.devRef (τ := τ) .tc)).toFinset := by
  writes_in_list
theorem D1_keep {r : Ref sig .tc} (h : r ∉ D1_W) : after D1 W (no_index (Proc.devRef .tc r)) = W (Proc.devRef .tc r) :=
  after_of_writes_sub D1 W D1_writes h

abbrev E1_W : List (Ref sig .tc) :=
  [main_c_4, main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_v11, main_call1_cst_3, main_call1_v12, main_call1_cst_4, main_call1_call0_v0,
    main_call1_call0_v1, main_v28]
theorem E1_writes : (E1 : List (HloOp τ sig (Elt F))).Forall fun op => op.writes ⊆ (E1_W.map (Proc.devRef (τ := τ) .tc)).toFinset := by
  writes_in_list
theorem E1_keep {r : Ref sig .tc} (h : r ∉ E1_W) : after E1 W (no_index (Proc.devRef .tc r)) = W (Proc.devRef .tc r) :=
  after_of_writes_sub E1 W E1_writes h

abbrev G1_W : List (Ref sig .tc) :=
  [main_v29, main_v30, main_v31, main_cst_5, main_v32, main_v33, main_v34, main_v35, main_v36, main_v37, main_v38, main_v39,
    main_v40, main_v41, main_v42, main_v43, main_v44, main_v45, main_v46, main_v47, main_v48, main_v49, main_cst_6, main_v50]
theorem G1_writes : (G1 : List (HloOp τ sig (Elt F))).Forall fun op => op.writes ⊆ (G1_W.map (Proc.devRef (τ := τ) .tc)).toFinset := by
  writes_in_list
theorem G1_keep {r : Ref sig .tc} (h : r ∉ G1_W) : after G1 W (no_index (Proc.devRef .tc r)) = W (Proc.devRef .tc r) :=
  after_of_writes_sub G1 W G1_writes h

abbrev H1_W : List (Ref sig .tc) := [main_v51, main_v52, main_v53, main_v54]
theorem H1_writes : (H1 : List (HloOp τ sig (Elt F))).Forall fun op => op.writes ⊆ (H1_W.map (Proc.devRef (τ := τ) .tc)).toFinset := by
  writes_in_list
theorem H1_keep {r : Ref sig .tc} (h : r ∉ H1_W) : after H1 W (no_index (Proc.devRef .tc r)) = W (Proc.devRef .tc r) :=
  after_of_writes_sub H1 W H1_writes h

abbrev A2_W : List (Ref sig .tc) := [main_v55, main_v56, main_v57]
theorem A2_writes : (A2 : List (HloOp τ sig (Elt F))).Forall fun op => op.writes ⊆ (A2_W.map (Proc.devRef (τ := τ) .tc)).toFinset := by
  writes_in_list
theorem A2_keep {r : Ref sig .tc} (h : r ∉ A2_W) : after A2 W (no_index (Proc.devRef .tc r)) = W (Proc.devRef .tc r) :=
  after_of_writes_sub A2 W A2_writes h

abbrev B2_W : List (Ref sig .tc) :=
  [main_c_7, main_v58, main_v59, main_c_8, main_v60, main_v61, main_v62, main_v63, main_v64, main_cst_9, main_v65, main_v66, main_v67]
theorem B2_writes : (B2 : List (HloOp τ sig (Elt F))).Forall fun op => op.writes ⊆ (B2_W.map (Proc.devRef (τ := τ) .tc)).toFinset := by
  writes_in_list
theorem B2_keep {r : Ref sig .tc} (h : r ∉ B2_W) : after B2 W (no_index (Proc.devRef .tc r)) = W (Proc.devRef .tc r) :=
  after_of_writes_sub B2 W B2_writes h

abbrev C2_W : List (Ref sig .tc) :=
  [main_v68, main_v69, main_v70, main_v71, main_v72, main_v73, main_v74, main_cst_10, main_v75, main_v76, main_v77, main_v78, main_v79]
theorem C2_writes : (C2 : List (HloOp τ sig (Elt F))).Forall fun op => op.writes ⊆ (C2_W.map (Proc.devRef (τ := τ) .tc)).toFinset := by
  writes_in_list
theorem C2_keep {r : Ref sig .tc} (h : r ∉ C2_W) : after C2 W (no_index (Proc.devRef .tc r)) = W (Proc.devRef .tc r) :=
  after_of_writes_sub C2 W C2_writes h

abbrev D2_W : List (Ref sig .tc) := [main_cst_11, main_v80, main_cst_12, main_v81, main_v82]
theorem D2_writes : (D2 : List (HloOp τ sig (Elt F))).Forall fun op => op.writes ⊆ (D2_W.map (Proc.devRef (τ := τ) .tc)).toFinset := by
  writes_in_list
theorem D2_keep {r : Ref sig .tc} (h : r ∉ D2_W) : after D2 W (no_index (Proc.devRef .tc r)) = W (Proc.devRef .tc r) :=
  after_of_writes_sub D2 W D2_writes h

abbrev E2_W : List (Ref sig .tc) :=
  [main_c_13, main_call4_cst, main_call4_v0, main_call4_v1, main_call4_cst_0, main_call4_v2, main_call4_v3, main_call4_v4,
    main_call4_v5, main_call4_v6, main_call4_v7, main_call4_cst_1, main_call4_v8, main_call4_cst_2, main_call4_v9,
    main_call4_v10, main_call4_v11, main_call4_cst_3, main_call4_v12, main_call4_cst_4, main_call4_call0_v0,
    main_call4_call0_v1, main_v83]
theorem E2_writes : (E2 : List (HloOp τ sig (Elt F))).Forall fun op => op.writes ⊆ (E2_W.map (Proc.devRef (τ := τ) .tc)).toFinset := by
  writes_in_list
theorem E2_keep {r : Ref sig .tc} (h : r ∉ E2_W) : after E2 W (no_index (Proc.devRef .tc r)) = W (Proc.devRef .tc r) :=
  after_of_writes_sub E2 W E2_writes h

abbrev G2_W : List (Ref sig .tc) :=
  [main_v84, main_v85, main_v86, main_cst_14, main_v87, main_v88, main_v89, main_v90, main_v91, main_v92, main_v93, main_v94,
    main_v95, main_v96, main_v97, main_v98, main_v99, main_v100, main_v101, main_v102]
theorem G2_writes : (G2 : List (HloOp τ sig (Elt F))).Forall fun op => op.writes ⊆ (G2_W.map (Proc.devRef (τ := τ) .tc)).toFinset := by
  writes_in_list
theorem G2_keep {r : Ref sig .tc} (h : r ∉ G2_W) : after G2 W (no_index (Proc.devRef .tc r)) = W (Proc.devRef .tc r) :=
  after_of_writes_sub G2 W G2_writes h

abbrev H2_W : List (Ref sig .tc) :=
  [main_v103, main_v104, main_cst_15, main_v105, main_v106, main_v107, main_v108, main_v109]
theorem H2_writes : (H2 : List (HloOp τ sig (Elt F))).Forall fun op => op.writes ⊆ (H2_W.map (Proc.devRef (τ := τ) .tc)).toFinset := by
  writes_in_list
theorem H2_keep {r : Ref sig .tc} (h : r ∉ H2_W) : after H2 W (no_index (Proc.devRef .tc r)) = W (Proc.devRef .tc r) :=
  after_of_writes_sub H2 W H2_writes h

/-! ## The whole program -/

/-- @main's three windows, as the program is printed. -/
abbrev part0ops : List (HloOp τ sig (Elt F)) := A1 ++ B1 ++ C1 ++ D1 ++ E1 ++ G1
abbrev part1ops : List (HloOp τ sig (Elt F)) := H1 ++ A2 ++ B2 ++ C2 ++ D2 ++ E2 ++ G2
abbrev part2ops : List (HloOp τ sig (Elt F)) := H2

/-- @main's 170 operations, in order: its own 122 and, at the six calls, the outlined functions' 48. -/
def ops : List (HloOp τ sig (Elt F)) := part0ops ++ (part1ops ++ part2ops)

/-- After the whole program the result buffer holds the two layers' term of the arguments' contents: stretch by
    stretch from the last, each stretch's result read off its own lemma and what it only passes on by its `keep`. -/
theorem ops_v109 : after ops W (Proc.devRef .tc main_v109)
    = result (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) (W (Proc.devRef .tc main_arg8)) := by
  simp (disch := decide) only [ops, part0ops, part1ops, part2ops, after_append,
    H2_v109, G2_v102, E2_v83, D2_v82, C2_v79, B2_v67, A2_v57,
    H1_v54, G1_v47, G1_v49, G1_v50, E1_v28, D1_v27, C1_v24, B1_v12, A1_v2,
    A1_keep, B1_keep, C1_keep, D1_keep, E1_keep, G1_keep, H1_keep,
    A2_keep, B2_keep, C2_keep, D2_keep, E2_keep, G2_keep, H2_keep]
  rfl

/-- A buffer none of the fourteen stretches writes is passed on by each in turn. -/
local macro "kept_throughout" : tactic =>
  `(tactic| simp (disch := decide) only [ops, part0ops, part1ops, part2ops, after_append,
      A1_keep, B1_keep, C1_keep, D1_keep, E1_keep, G1_keep, H1_keep,
      A2_keep, B2_keep, C2_keep, D2_keep, E2_keep, G2_keep, H2_keep])

/-! No operation writes an argument. -/
theorem ops_arg0 : after ops W (Proc.devRef .tc main_arg0) = W (Proc.devRef .tc main_arg0) := by kept_throughout
theorem ops_arg1 : after ops W (Proc.devRef .tc main_arg1) = W (Proc.devRef .tc main_arg1) := by kept_throughout
theorem ops_arg2 : after ops W (Proc.devRef .tc main_arg2) = W (Proc.devRef .tc main_arg2) := by kept_throughout
theorem ops_arg3 : after ops W (Proc.devRef .tc main_arg3) = W (Proc.devRef .tc main_arg3) := by kept_throughout
theorem ops_arg4 : after ops W (Proc.devRef .tc main_arg4) = W (Proc.devRef .tc main_arg4) := by kept_throughout
theorem ops_arg5 : after ops W (Proc.devRef .tc main_arg5) = W (Proc.devRef .tc main_arg5) := by kept_throughout
theorem ops_arg6 : after ops W (Proc.devRef .tc main_arg6) = W (Proc.devRef .tc main_arg6) := by kept_throughout
theorem ops_arg7 : after ops W (Proc.devRef .tc main_arg7) = W (Proc.devRef .tc main_arg7) := by kept_throughout
theorem ops_arg8 : after ops W (Proc.devRef .tc main_arg8) = W (Proc.devRef .tc main_arg8) := by kept_throughout

/-! ## @main is that line, and its run -/

set_option maxRecDepth 16384 in
theorem part0_eq (c : Dev nD) : main_part0 (F := F) c = seq part0ops := rfl
set_option maxRecDepth 16384 in
theorem part1_eq (c : Dev nD) : main_part1 (F := F) c = seq part1ops := rfl
set_option maxRecDepth 16384 in
theorem part2_eq (c : Dev nD) : main_part2 (F := F) c = seq part2ops := rfl

/-- @main is the three windows in a row. -/
theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, part0ops, part1ops, part2ops, List.forall_append, List.Forall,
    nullary_bufs_sub, unary_bufs_sub, binary_bufs_sub, ternary_bufs_sub, reshape_bufs_sub, and_self]

/-- Every operation determines its results. -/
theorem ops_fresh : (ops : List (HloOp τ sig (Elt F))).Forall fun op => op.fresh = ∅ := by
  simp only [ops, part0ops, part1ops, part2ops, List.forall_append, List.Forall]
  repeat' constructor

/-- On every device, for any float values, from any memory with zero counters: every weakly fair execution of @main
    terminates with the result buffer at the two layers' term of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v109)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v109).trans (ops_v109 _),
      (h c main_arg0).trans (ops_arg0 _), (h c main_arg1).trans (ops_arg1 _), (h c main_arg2).trans (ops_arg2 _),
      (h c main_arg3).trans (ops_arg3 _), (h c main_arg4).trans (ops_arg4 _), (h c main_arg5).trans (ops_arg5 _),
      (h c main_arg6).trans (ops_arg6 _), (h c main_arg7).trans (ops_arg7 _), (h c main_arg8).trans (ops_arg8 _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.LibGatherScatter.lean ====
/-
  GATHER AND SCATTER READ AT AN INDEX, for the two layouts an embedding lookup and its transpose lower to:
  `stablehlo.gather` of the ROWS of an `[N, D]` table (or of the entries of a flat `[N]` array) at an `[E, 1]`
  array of start indices, and `stablehlo.scatter` with an `add` body of an `[E, D]` array of update rows into an
  `[N, D]` operand at an `[E, 1]` array of scatter indices. Each lemma is generic in the sizes `N E D` and in the
  index width `w`; the dimension numbers are built from the sizes and a proof of their side conditions, so a
  literal record of a program is definitionally one of them.
-/
import Idealize.ShloMosaic.PureOps.Ideal
import Idealize.ShloMosaic.PureOps.Ideal.Laws
import Idealize.ShloMosaic.Lib.ValueIdx

noncomputable section

open scoped BigOperators

namespace Cert.Lib.GatherScatter

open Idealize.ShloMosaic
open Idealize.ShloMosaic.ValueIdx

/-! ## Rows gather: `table[idx]` of an `[N, D]` table at `[E, 1]` start indices -/

section RowsGather
variable {α : Type}

/-- The dimension numbers of a rows gather: operand `[N, D]`, start indices `[E, 1]`, result `[E, D]`; the result's
    axis 1 is the offset axis, operand axis 0 is collapsed and is the one the start index names, the index vector
    lies along start-indices axis 1, and a slice is one whole row (`slice_sizes = [1, D]`). -/
abbrev rowsGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROWS GATHER READ AT `j = (e, k)`: the table at row `idx[e, 0]` — read as a signed integer and clamped into
    `[0, N − 1]` — and column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowsGatherDims N E D wf) x idx j
      = x (ix2 (⟨min (idx (ix2 (j 0 : Fin E) (0 : Fin 1))).toInt.toNat (N - 1), by omega⟩ : Fin N) (j 1 : Fin D)) := by
  unfold Host.gather
  congr 1
  funext a
  refine Fin.ext ?_
  match a with
  | ⟨0, _⟩ =>
    show (rowsGatherDims N E D wf).start j idx 0 + (rowsGatherDims N E D wf).batchCoord j 0
      + (rowsGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E D wf).startIndexMap from List.mem_singleton.mpr rfl)]
    have hsi : (rowsGatherDims N E D wf).siIdx j ⟨List.idxOf (0 : Fin 2) (rowsGatherDims N E D wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (rowsGatherDims N E D wf).start j idx 1 + (rowsGatherDims N E D wf).batchCoord j 1
      + (rowsGatherDims N E D wf).offCoord j 1 = (j 1).val
    rw [GatherDims.batchCoord_eq_zero _ _ _ List.not_mem_nil]
    unfold GatherDims.start
    rw [dif_neg (show (1 : Fin 2) ∉ (rowsGatherDims N E D wf).startIndexMap from
      (show (1 : Fin 2) ∉ [(0 : Fin 2)] by decide))]
    simp only [Nat.add_zero, Nat.zero_add]
    unfold GatherDims.offCoord
    rw [dif_pos (show (1 : Fin 2) ∈ (rowsGatherDims N E D wf).sKept from
      (GatherDims.mem_sKept _ _).mpr ⟨(show (1 : Fin 2) ∉ [(0 : Fin 2)] by decide), List.not_mem_nil⟩)]
    rfl

/-- The rows gather read at explicit coordinates `(e, k)`. -/
theorem gather_rows_apply_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsGatherDims N E D wf) x idx (ix2 e k)
      = x (ix2 (⟨min (idx (ix2 e (0 : Fin 1))).toInt.toNat (N - 1), by omega⟩ : Fin N) k) :=
  gather_rows_apply hN wf x idx (ix2 e k)

/-- The rows gather read at `j`, for ANY record `d` of dimension numbers that is `rowsGatherDims` (the side
    condition `hd` closes by `rfl` on a literal record); the left side mentions `d` itself, so the lemma
    rewrites a goal that names the record. -/
theorem gather_rows_apply_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (j : (⟨2, ![E, D]⟩ : Shape).Idx) :
    Host.gather d x idx j
      = x (ix2 (⟨min (idx (ix2 (j 0 : Fin E) (0 : Fin 1))).toInt.toNat (N - 1), by omega⟩ : Fin N) (j 1 : Fin D)) := by
  subst hd; exact gather_rows_apply hN wf x idx j

/-- The same at explicit coordinates `(e, k)`. -/
theorem gather_rows_apply_ix2_of_eq {N E D w : Nat} (hN : 0 < N)
    (d : GatherDims ⟨2, ![N, D]⟩ ⟨2, ![E, 1]⟩ ⟨2, ![E, D]⟩)
    {wf : GatherDims.WF ⟨2, ![N, D]⟩ ⟨2, ![E, 1]⟩ ⟨2, ![E, D]⟩ [1] [0] [] [0] [] 1 ![1, D]}
    (hd : d = rowsGatherDims N E D wf)
    (x : (⟨2, ![N, D]⟩ : Shape).Idx → α) (idx : IVec ⟨2, ![E, 1]⟩ w) (e : Fin E) (k : Fin D) :
    Host.gather d x idx (ix2 e k)
      = x (ix2 (⟨min (idx (ix2 e (0 : Fin 1))).toInt.toNat (N - 1), by omega⟩ : Fin N) k) := by
  subst hd; exact gather_rows_apply_ix2 hN wf x idx e k

end RowsGather

/-! ## Flat gather: `x[idx]` of a flat `[N]` array at `[E, 1]` start indices -/

section FlatGather
variable {α : Type}

/-- The dimension numbers of a flat gather: operand `[N]`, start indices `[E, 1]`, result `[E]`; no offset axis,
    the operand's one axis collapsed and named by the start index, the index vector along start-indices axis 1, and
    a slice is one element (`slice_sizes = [1]`). -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `j = (e)`: the array at position `idx[e, 0]`, read as a signed integer and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (flatGatherDims N E wf) x idx j
      = x (ix1 (⟨min (idx (ix2 (j 0 : Fin E) (0 : Fin 1))).toInt.toNat (N - 1), by omega⟩ : Fin N)) := by
  unfold Host.gather
  congr 1
  funext a
  obtain rfl : a = 0 := Subsingleton.elim _ _
  refine Fin.ext ?_
  show (flatGatherDims N E wf).start j idx 0 + (flatGatherDims N E wf).batchCoord j 0
    + (flatGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx j ⟨List.idxOf (0 : Fin 1) (flatGatherDims N E wf).startIndexMap,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- The flat gather read at an explicit coordinate `e`. -/
theorem gather_flat_apply_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 (⟨min (idx (ix2 e (0 : Fin 1))).toInt.toNat (N - 1), by omega⟩ : Fin N)) :=
  gather_flat_apply hN wf x idx (ix1 e)

/-- The flat gather read at `e`, for ANY record `d` of dimension numbers that is `flatGatherDims` (`hd` closes by
    `rfl` on a literal record); the left side mentions `d` itself. -/
theorem gather_flat_apply_ix1_of_eq {N E w : Nat} (hN : 0 < N)
    (d : GatherDims ⟨1, ![N]⟩ ⟨2, ![E, 1]⟩ ⟨1, ![E]⟩)
    {wf : GatherDims.WF ⟨1, ![N]⟩ ⟨2, ![E, 1]⟩ ⟨1, ![E]⟩ [] [0] [] [0] [] 1 ![1]}
    (hd : d = flatGatherDims N E wf)
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  subst hd; exact gather_flat_apply_ix1 hN wf x idx e

end FlatGather

/-! ## Rows scatter: update rows `[E, D]` added into an `[N, D]` operand at `[E, 1]` scatter indices -/

section RowsScatter

/-- An axis is among the kept ones exactly when it is not in the list that was dropped. -/
theorem mem_kept {s : Shape} (axes : List (Fin s.rank)) (a : Fin s.rank) : a ∈ s.kept axes ↔ a ∉ axes := by
  simp [Shape.kept, List.mem_filter, List.mem_finRange]

/-- WHERE AN UPDATE LANDS, for any scatter dimension numbers: update index `j` lands at operand index `i` exactly
    when on every operand axis the signed start plus the window coordinate is `i`'s coordinate. (The in-range
    test inside `resultIdx?` is then automatic, `i`'s coordinates being in range.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      exact (Int.toNat_of_nonneg (h a).1).symm
    · intro H
      funext a
      apply Fin.ext
      show (d.start j idx a + (d.window j a : Int)).toNat = (i a).val
      rw [H a, Int.toNat_natCast]
  · rename_i h
    constructor
    · intro hh; cases hh
    · intro H
      exfalso
      apply h
      intro a
      rw [H a]
      exact ⟨Int.natCast_nonneg _, by exact_mod_cast (i a).isLt⟩

/-- The dimension numbers of a rows scatter: operand `[N, D]`, scatter indices `[E, 1]`, updates `[E, D]`; the
    updates' axis 1 is the window axis, operand axis 0 is inserted and is the one the scatter index names, and the
    index vector lies along scatter-indices axis 1. -/
abbrev rowsScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem scatter_rows_start0 (idx : IVec ⟨2, ![E, 1]⟩ w) (j : (⟨2, ![E, D]⟩ : Shape).Idx) :
    (rowsScatterDims N E D wf).start j idx 0 = (idx (ix2 (j 0 : Fin E) (0 : Fin 1))).toInt := by
  unfold ScatterDims.start
  rw [dif_pos (show (0 : Fin 2) ∈ (rowsScatterDims N E D wf).scatterDimsToOperandDims from
    List.mem_singleton.mpr rfl)]
  have hsi : (rowsScatterDims N E D wf).siIdx j
      ⟨List.idxOf (0 : Fin 2) (rowsScatterDims N E D wf).scatterDimsToOperandDims,
        List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- On the column axis the window starts at `0`: the scatter index does not name that axis. -/
theorem scatter_rows_start1 (idx : IVec ⟨2, ![E, 1]⟩ w) (j : (⟨2, ![E, D]⟩ : Shape).Idx) :
    (rowsScatterDims N E D wf).start j idx 1 = 0 := by
  unfold ScatterDims.start
  rw [dif_neg (show (1 : Fin 2) ∉ (rowsScatterDims N E D wf).scatterDimsToOperandDims from
    (show (1 : Fin 2) ∉ [(0 : Fin 2)] by decide))]

/-- The row axis is inserted: the window coordinate on it is `0`. -/
theorem scatter_rows_window0 (j : (⟨2, ![E, D]⟩ : Shape).Idx) :
    (rowsScatterDims N E D wf).window j 0 = 0 := by
  unfold ScatterDims.window
  rw [dif_neg (show (0 : Fin 2) ∉ (rowsScatterDims N E D wf).sKept from
    fun h => (mem_kept _ _).mp h (List.mem_singleton.mpr rfl))]

/-- The window coordinate on the column axis is the update's column. -/
theorem scatter_rows_window1 (j : (⟨2, ![E, D]⟩ : Shape).Idx) :
    (rowsScatterDims N E D wf).window j 1 = (j 1).val := by
  unfold ScatterDims.window
  rw [dif_pos (show (1 : Fin 2) ∈ (rowsScatterDims N E D wf).sKept from
    (mem_kept _ _).mpr (show (1 : Fin 2) ∉ [(0 : Fin 2)] by decide))]
  rfl

/-- WHERE A ROW UPDATE LANDS: update element `(e, k)` lands at operand element `(n, k')` exactly when the scatter
    index `idx[e, 0]`, read as a signed integer, is `n`, and the columns agree. An index outside `[0, N)` lands
    nowhere. -/
theorem scatter_rows_resultIdx?_iff (idx : IVec ⟨2, ![E, 1]⟩ w) (e : Fin E) (k : Fin D) (n : Fin N) (k' : Fin D) :
    (rowsScatterDims N E D wf).resultIdx? (ix2 e k) idx = some (ix2 n k')
      ↔ (idx (ix2 e (0 : Fin 1))).toInt = (n.val : Int) ∧ k = k' := by
  rw [resultIdx?_eq_some_iff]
  have hs0 : (rowsScatterDims N E D wf).start (ix2 e k) idx 0 = (idx (ix2 e (0 : Fin 1))).toInt :=
    scatter_rows_start0 wf idx (ix2 e k)
  have hs1 := scatter_rows_start1 wf idx (ix2 e k)
  have hw0 := scatter_rows_window0 (N := N) wf (ix2 e k)
  have hw1 : (rowsScatterDims N E D wf).window (ix2 e k) 1 = k.val := scatter_rows_window1 (N := N) wf (ix2 e k)
  constructor
  · intro H
    have H0 : (rowsScatterDims N E D wf).start (ix2 e k) idx 0
        + ((rowsScatterDims N E D wf).window (ix2 e k) 0 : Int) = (n.val : Int) := H 0
    have H1 : (rowsScatterDims N E D wf).start (ix2 e k) idx 1
        + ((rowsScatterDims N E D wf).window (ix2 e k) 1 : Int) = (k'.val : Int) := H 1
    rw [hs0, hw0] at H0
    rw [hs1, hw1] at H1
    refine ⟨by simpa using H0, Fin.ext ?_⟩
    have : (k.val : Int) = (k'.val : Int) := by simpa using H1
    exact_mod_cast this
  · rintro ⟨hI, rfl⟩ a
    match a with
    | ⟨0, _⟩ =>
      show (rowsScatterDims N E D wf).start (ix2 e k) idx 0
        + ((rowsScatterDims N E D wf).window (ix2 e k) 0 : Int) = (n.val : Int)
      rw [hs0, hw0, hI]; simp
    | ⟨1, _⟩ =>
      show (rowsScatterDims N E D wf).start (ix2 e k) idx 1
        + ((rowsScatterDims N E D wf).window (ix2 e k) 1 : Int) = (k.val : Int)
      rw [hs1, hw1]; simp

/-- THE IDEAL SCATTER-ADD OF ROWS READ AT `(n, k)`: the operand's element plus the sum, over the update rows `e`
    whose scatter index `idx[e, 0]` (read as a signed integer) is `n`, of the update's element `(e, k)`. The
    update elements that land at `(n, k)` are exactly the `(e, k)` with `idx[e, 0] = n`, one per such row. -/
theorem hostScatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowsScatterDims N E D wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  symm
  apply Finset.sum_bij (fun (e : Fin E) _ => (ix2 e k : (⟨2, ![E, D]⟩ : Shape).Idx))
  · intro e he
    rw [Finset.mem_filter] at he ⊢
    exact ⟨Finset.mem_univ _, (scatter_rows_resultIdx?_iff wf idx e k n k).mpr ⟨he.2, rfl⟩⟩
  · intro e₁ _ e₂ _ h
    exact congrFun h 0
  · intro j hj
    rw [Finset.mem_filter] at hj
    obtain ⟨e, k₀, rfl⟩ : ∃ (e : Fin E) (k₀ : Fin D), j = ix2 e k₀ := ⟨j 0, j 1, eq_ix2 j⟩
    obtain ⟨hI, rfl⟩ := (scatter_rows_resultIdx?_iff wf idx e k₀ n k).mp hj.2
    exact ⟨e, Finset.mem_filter.mpr ⟨Finset.mem_univ _, hI⟩, rfl⟩
  · intro e _
    rfl

/-- Where a row update lands, for ANY record `d` of dimension numbers that is `rowsScatterDims` (the side
    condition `hd` closes by `rfl` on a literal record); the left side mentions `d` itself. -/
theorem scatter_rows_resultIdx?_iff_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (idx : IVec ⟨2, ![E, 1]⟩ w) (e : Fin E) (k : Fin D) (n : Fin N) (k' : Fin D) :
    d.resultIdx? (ix2 e k) idx = some (ix2 n k')
      ↔ (idx (ix2 e (0 : Fin 1))).toInt = (n.val : Int) ∧ k = k' := by
  subst hd; exact scatter_rows_resultIdx?_iff wf idx e k n k'

/-- The ideal scatter-add of rows read at `(n, k)`, for ANY record `d` of dimension numbers that is
    `rowsScatterDims` (`hd` closes by `rfl` on a literal record); the left side mentions `d` itself, so the
    lemma rewrites a goal that names the record. -/
theorem hostScatterAdd_rows_apply_of_eq (d : ScatterDims ⟨2, ![N, D]⟩ ⟨2, ![E, 1]⟩ ⟨2, ![E, D]⟩)
    {wf : ScatterDims.WF ⟨2, ![N, D]⟩ ⟨2, ![E, 1]⟩ ⟨2, ![E, D]⟩ [1] [0] [0] 1}
    (hd : d = rowsScatterDims N E D wf)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : Int)),
          upd (ix2 e k) := by
  subst hd; exact hostScatterAdd_rows_apply wf x idx upd n k

end RowsScatter

end Cert.Lib.GatherScatter

end
-- ==== Proof.Bridge.lean ====
/-
  The two forms of the variance agree on real numbers, and a layer of the network keeps real numbers real.

  The network's layer normalises every feature with a variance taken over the nodes.  One program writes the
  variance as the mean of the squares minus the square of the mean, the other as the mean of the squared
  deviations from the mean.  On the extended reals the two differ at the infinities, but when every entry is the
  coercion of a real number both are the coercion of the same real number: with S = Σ_r z_r, Q = Σ_r z_r² and
  N = 50000,  Q/N - (S/N)² = (Σ_r (z_r - S/N)²)/N,  since Σ_r (z_r - m)² = Q - 2 m S + N m² and m = S/N.
  The common value is a nonnegative real, so adding the positive epsilon gives a positive real, whose reciprocal
  square root is real; every other step of a layer (matrix product, aggregation over edges, bias, rectifier,
  gain and shift) is built from sums and products and keeps real numbers real.  Hence a layer maps real arrays to
  real arrays, the two layers agree, and so do the two-layer networks.
-/
import proofs.«173872_j25031069401694_1_alg».proof.Proof.Spec
import proofs.«173872_j25031069401694_1_alg».proof.Proof.LibERealFinite
import proofs.«173872_j25031069401694_1_alg».proof.Proof.LibGatherScatter
import proofs.«173872_j25031069401694_1_alg».proof.Proof.LibPlainDot

noncomputable section

open scoped BigOperators

namespace Cert.Bridge

open Idealize.ShloMosaic Idealize.ShloMosaic.ValueIdx Idealize.ShloMosaic.PlainDot
open Idealize.ShloMosaic.LibERealLaws Cert.Spec

/-! ### The two constants -/

/-- The single-precision word 0x47435000 is 50000: sign 0, exponent 142, fraction 4411392, that is
    (2²³ + 4411392) · 2^(142 - 127 - 23) = 12800000 / 256. -/
theorem nodes_eq : nodes = ((50000 : ℝ) : EReal) := by
  unfold nodes
  simp [Ideal.ofBits, Ideal.ieee, -EReal.coe_mul]; norm_num

/-- The single-precision word 0x3727C5AC is 10995116 · 2⁻⁴⁰: sign 0, exponent 110, fraction 2606508. -/
theorem eps_eq : eps = (((10995116 : ℝ) * (2 : ℝ) ^ (-40 : Int) : ℝ) : EReal) := by
  unfold eps
  simp [Ideal.ofBits, Ideal.ieee, -EReal.coe_mul]

/-- The epsilon is a positive real. -/
theorem eps_pos : ∃ e : ℝ, 0 < e ∧ eps = (e : EReal) :=
  ⟨(10995116 : ℝ) * (2 : ℝ) ^ (-40 : Int), by positivity, eps_eq⟩

/-! ### Real arrays stay real -/

/-- The parametric rectifier of a real number with a real slope is real: it is x or a · x. -/
theorem act_isReal {a x : EReal} (ha : IsReal a) (hx : IsReal x) : IsReal (act a x) := by
  unfold act Scalar.select
  split
  · exact hx
  · exact ha.mul hx

/-- A product of real matrices is real: every entry is a finite sum of products. -/
theorem mm_isReal (h : SA.Idx → EReal) (w : SW.Idx → EReal) (hh : ∀ i, IsReal (h i)) (hw : ∀ i, IsReal (w i)) :
    ∀ i, IsReal (PlainDot.mm h w i) := by
  intro i
  unfold PlainDot.mm
  exact IsReal.sum_univ fun k => (hh _).mul (hw _)

/-! ### The variance, on real numbers -/

/-- The real identity behind the two forms of the variance, for a family of n reals:
    Q/n - (S/n)² = (Σ_r (f_r - S/n)²)/n,  where S = Σ_r f_r and Q = Σ_r f_r². -/
theorem real_var_identity {ι : Type*} [Fintype ι] (f : ι → ℝ) (n : ℝ) (hn : n ≠ 0)
    (hcard : (Fintype.card ι : ℝ) = n) :
    (∑ r, f r * f r) / n - (∑ r, f r) / n * ((∑ r, f r) / n)
      = (∑ r, (f r - (∑ r, f r) / n) * (f r - (∑ r, f r) / n)) / n := by
  have h : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e]
    rw [Finset.sum_add_distrib, Finset.sum_sub_distrib, ← Finset.mul_sum, Finset.sum_const, Finset.card_univ,
      nsmul_eq_mul, hcard]
  rw [h]
  field_simp
  ring

/-- The sum of a feature over the nodes, of an array of real numbers, is the real sum. -/
theorem colsum_coe (g : SA.Idx → ℝ) (j : SR.Idx) :
    colsum (fun i => (g i : EReal)) j = ((∑ r : Fin 50000, g (ix2 r (j 1)) : ℝ) : EReal) := by
  unfold colsum
  rw [coe_finset_sum]

/-- The mean of a feature over the nodes, of an array of real numbers, is the real mean. -/
theorem mean_coe (g : SA.Idx → ℝ) (j : SR.Idx) :
    mean (fun i => (g i : EReal)) j = (((∑ r : Fin 50000, g (ix2 r (j 1))) / 50000 : ℝ) : EReal) := by
  unfold mean
  rw [colsum_coe, nodes_eq, IsReal.div_coe _ (by norm_num)]

/-- The first form of the variance of an array of real numbers: the real Q/N - (S/N)². -/
theorem varK_coe (g : SA.Idx → ℝ) (j : SR.Idx) :
    varK (fun i => (g i : EReal)) j
      = (((∑ r : Fin 50000, g (ix2 r (j 1)) * g (ix2 r (j 1))) / 50000
          - (∑ r : Fin 50000, g (ix2 r (j 1))) / 50000 * ((∑ r : Fin 50000, g (ix2 r (j 1))) / 50000) : ℝ) : EReal) := by
  unfold varK
  rw [mean_coe]
  have e : (fun i => (g i : EReal) * (g i : EReal)) = fun i => ((g i * g i : ℝ) : EReal) := by
    funext i; rw [EReal.coe_mul]
  rw [e, colsum_coe, nodes_eq, IsReal.div_coe _ (by norm_num), ← EReal.coe_mul, ← EReal.coe_sub]

/-- The second form of the variance of an array of real numbers: the real (Σ_r (g_r - S/N)²)/N. -/
theorem varR_coe (g : SA.Idx → ℝ) (j : SR.Idx) :
    varR (fun i => (g i : EReal)) j
      = (((∑ r : Fin 50000, (g (ix2 r (j 1)) - (∑ r : Fin 50000, g (ix2 r (j 1))) / 50000)
            * (g (ix2 r (j 1)) - (∑ r : Fin 50000, g (ix2 r (j 1))) / 50000)) / 50000 : ℝ) : EReal) := by
  unfold varR
  have e : (fun i : SA.Idx => ((g i : EReal) - mean (fun i => (g i : EReal)) (ix2 (0 : Fin 1) (i 1)))
        * ((g i : EReal) - mean (fun i => (g i : EReal)) (ix2 (0 : Fin 1) (i 1))))
      = fun i : SA.Idx => (((g i - (∑ r : Fin 50000, g (ix2 r (i 1))) / 50000)
        * (g i - (∑ r : Fin 50000, g (ix2 r (i 1))) / 50000) : ℝ) : EReal) := by
    funext i
    rw [mean_coe, ← EReal.coe_sub, ← EReal.coe_mul]
  rw [e, colsum_coe, nodes_eq, IsReal.div_coe _ (by norm_num)]

/-- On an array of real numbers the two forms of the variance agree. -/
theorem varK_eq_varR (z : SA.Idx → EReal) (hz : ∀ i, IsReal (z i)) : varK z = varR z := by
  obtain ⟨g, rfl⟩ := IsReal.exists_fun hz
  funext j
  rw [varK_coe, varR_coe, real_var_identity (fun r : Fin 50000 => g (ix2 r (j 1))) 50000 (by norm_num)
    (by rw [Fintype.card_fin]; norm_num)]

/-- The variance of an array of real numbers is a nonnegative real. -/
theorem varR_isReal_nonneg (z : SA.Idx → EReal) (hz : ∀ i, IsReal (z i)) (j : SR.Idx) :
    IsReal (varR z j) ∧ 0 ≤ varR z j := by
  obtain ⟨g, rfl⟩ := IsReal.exists_fun hz
  rw [varR_coe]
  exact ⟨isReal_coe _, EReal.coe_nonneg.mpr
    (div_nonneg (Finset.sum_nonneg fun r _ => mul_self_nonneg _) (by norm_num))⟩

/-- The mean of an array of real numbers is real. -/
theorem mean_isReal (z : SA.Idx → EReal) (hz : ∀ i, IsReal (z i)) (j : SR.Idx) : IsReal (mean z j) := by
  obtain ⟨g, rfl⟩ := IsReal.exists_fun hz
  rw [mean_coe]
  exact isReal_coe _

/-- The reciprocal square root of a nonnegative real plus the epsilon is real: the argument is a positive real. -/
theorem rsqrt_add_eps_isReal {x : EReal} (hx : IsReal x) (h0 : 0 ≤ x) : IsReal (Ideal.rsqrt (x + eps)) := by
  obtain ⟨v, rfl⟩ := hx
  obtain ⟨e, he, hee⟩ := eps_pos
  have hv : 0 ≤ v := EReal.coe_nonneg.mp h0
  have hpos : 0 < v + e := by linarith
  rw [hee, ← EReal.coe_add, Ideal.rsqrt_coe, if_neg (not_lt.mpr hpos.le), if_neg hpos.ne']
  exact isReal_coe _

/-! ### A layer -/

/-- The rectified pre-activation of real arrays is real. -/
theorem pre_isReal (x : SA.Idx → EReal) (bias : SR.Idx → EReal) {a : EReal} (hx : ∀ i, IsReal (x i))
    (hb : ∀ i, IsReal (bias i)) (ha : IsReal a) : ∀ i, IsReal (pre x bias a i) := by
  intro i
  unfold pre
  exact act_isReal ha ((hx i).add (hb _))

/-- Normalising a real array with real mean, a real nonnegative variance, real gain and shift and a real slope
    gives a real array. -/
theorem norm_isReal (z : SA.Idx → EReal) (mu var g bt : SR.Idx → EReal) {a : EReal} (hz : ∀ i, IsReal (z i))
    (hmu : ∀ i, IsReal (mu i)) (hvar : ∀ i, IsReal (var i) ∧ 0 ≤ var i) (hg : ∀ i, IsReal (g i))
    (hbt : ∀ i, IsReal (bt i)) (ha : IsReal a) : ∀ i, IsReal (Spec.norm z mu var g bt a i) := by
  intro i
  unfold Spec.norm
  exact act_isReal ha (((((hz i).sub (hmu _)).mul (rsqrt_add_eps_isReal (hvar _).1 (hvar _).2)).mul (hg _)).add (hbt _))

section Layer

variable (agg : (SA.Idx → EReal) → SA.Idx → EReal)
  (hagg : ∀ z, (∀ i, IsReal (z i)) → ∀ i, IsReal (agg z i))
  (h : SA.Idx → EReal) (w : SW.Idx → EReal) (bias : SR.Idx → EReal) (a : EReal) (g bt : SR.Idx → EReal) (a2 : EReal)

include hagg in
/-- The rectified pre-activation of a layer on real inputs is real. -/
theorem layer_pre_isReal (hh : ∀ i, IsReal (h i)) (hw : ∀ i, IsReal (w i)) (hb : ∀ i, IsReal (bias i))
    (ha : IsReal a) : ∀ i, IsReal (pre (agg (mm h w)) bias a i) :=
  pre_isReal _ _ (hagg _ (mm_isReal h w hh hw)) hb ha

include hagg in
/-- On real inputs the layer with the first form of the variance is the layer with the second. -/
theorem layerK_eq_layerR (hh : ∀ i, IsReal (h i)) (hw : ∀ i, IsReal (w i)) (hb : ∀ i, IsReal (bias i))
    (ha : IsReal a) (hg : ∀ i, IsReal (g i)) (hbt : ∀ i, IsReal (bt i)) (ha2 : IsReal a2) :
    layerK agg h w bias a g bt a2 = layerR agg h w bias a g bt a2 := by
  unfold layerK layerR
  rw [varK_eq_varR _ (layer_pre_isReal agg hagg h w bias a hh hw hb ha)]

include hagg in
/-- On real inputs the layer with the second form of the variance gives a real array. -/
theorem layerR_isReal (hh : ∀ i, IsReal (h i)) (hw : ∀ i, IsReal (w i)) (hb : ∀ i, IsReal (bias i))
    (ha : IsReal a) (hg : ∀ i, IsReal (g i)) (hbt : ∀ i, IsReal (bt i)) (ha2 : IsReal a2) :
    ∀ i, IsReal (layerR agg h w bias a g bt a2 i) := by
  have hp := layer_pre_isReal agg hagg h w bias a hh hw hb ha
  unfold layerR
  exact norm_isReal _ _ _ _ _ hp (mean_isReal _ hp) (varR_isReal_nonneg _ hp) hg hbt ha2

include hagg in
/-- On real inputs the layer with the first form of the variance gives a real array. -/
theorem layerK_isReal (hh : ∀ i, IsReal (h i)) (hw : ∀ i, IsReal (w i)) (hb : ∀ i, IsReal (bias i))
    (ha : IsReal a) (hg : ∀ i, IsReal (g i)) (hbt : ∀ i, IsReal (bt i)) (ha2 : IsReal a2) :
    ∀ i, IsReal (layerK agg h w bias a g bt a2 i) := by
  rw [layerK_eq_layerR agg hagg h w bias a g bt a2 hh hw hb ha hg hbt ha2]
  exact layerR_isReal agg hagg h w bias a g bt a2 hh hw hb ha hg hbt ha2

end Layer

/-! ### The two layers -/

/-- A layer's weight matrix out of real stacked weights is real. -/
theorem wOf_isReal (l : Fin 2) (W : (⟨3, ![2, 128, 128]⟩ : Shape).Idx → EReal) (hW : ∀ i, IsReal (W i)) :
    ∀ i, IsReal (wOf l W i) := fun _ => hW _

/-- A layer's row out of two real stacked rows is real. -/
theorem rowOf_isReal (l : Fin 2) (b : (⟨2, ![2, 128]⟩ : Shape).Idx → EReal) (hb : ∀ i, IsReal (b i)) :
    ∀ i, IsReal (rowOf l b i) := fun _ => hb _

/-- A layer's scalar out of two real stacked scalars is real. -/
theorem scOf_isReal (l : Fin 2) (a : (⟨1, ![2]⟩ : Shape).Idx → EReal) (ha : ∀ i, IsReal (a i)) :
    IsReal (scOf l a) := ha _

/-- On real inputs the two-layer network with the first form of the variance is the one with the second. -/
theorem netK_eq_netR (agg : (SA.Idx → EReal) → SA.Idx → EReal)
    (hagg : ∀ z, (∀ i, IsReal (z i)) → ∀ i, IsReal (agg z i)) (heat : SA.Idx → EReal)
    (W : (⟨3, ![2, 128, 128]⟩ : Shape).Idx → EReal) (b : (⟨2, ![2, 128]⟩ : Shape).Idx → EReal)
    (ac : (⟨1, ![2]⟩ : Shape).Idx → EReal) (g bt : (⟨2, ![2, 128]⟩ : Shape).Idx → EReal)
    (ao : (⟨1, ![2]⟩ : Shape).Idx → EReal)
    (hheat : ∀ i, IsReal (heat i)) (hW : ∀ i, IsReal (W i)) (hb : ∀ i, IsReal (b i)) (hac : ∀ i, IsReal (ac i))
    (hg : ∀ i, IsReal (g i)) (hbt : ∀ i, IsReal (bt i)) (hao : ∀ i, IsReal (ao i)) :
    netK agg heat W b ac g bt ao = netR agg heat W b ac g bt ao := by
  unfold netK netR
  have h1 := layerK_eq_layerR agg hagg heat (wOf 0 W) (rowOf 0 b) (scOf 0 ac) (rowOf 0 g) (rowOf 0 bt) (scOf 0 ao)
    hheat (wOf_isReal 0 W hW) (rowOf_isReal 0 b hb) (scOf_isReal 0 ac hac) (rowOf_isReal 0 g hg)
    (rowOf_isReal 0 bt hbt) (scOf_isReal 0 ao hao)
  have r1 := layerR_isReal agg hagg heat (wOf 0 W) (rowOf 0 b) (scOf 0 ac) (rowOf 0 g) (rowOf 0 bt) (scOf 0 ao)
    hheat (wOf_isReal 0 W hW) (rowOf_isReal 0 b hb) (scOf_isReal 0 ac hac) (rowOf_isReal 0 g hg)
    (rowOf_isReal 0 bt hbt) (scOf_isReal 0 ao hao)
  rw [h1]
  exact layerK_eq_layerR agg hagg _ (wOf 1 W) (rowOf 1 b) (scOf 1 ac) (rowOf 1 g) (rowOf 1 bt) (scOf 1 ao)
    r1 (wOf_isReal 1 W hW) (rowOf_isReal 1 b hb) (scOf_isReal 1 ac hac) (rowOf_isReal 1 g hg)
    (rowOf_isReal 1 bt hbt) (scOf_isReal 1 ao hao)

/-! ### The aggregation over the edges -/

/-- The aggregation over the edges of a real array into a real array is real: the entry at node n and feature k
    is the starting array's entry plus the sum, over the edges whose destination is n, of the entry of the array
    at the edge's (clamped) source node and feature k. -/
theorem aggOf_isReal (gd : GatherDims SA SI SU) (sd : ScatterDims SA SI SU)
    {wfg : GatherDims.WF ⟨2, ![50000, 128]⟩ ⟨2, ![800000, 1]⟩ ⟨2, ![800000, 128]⟩ [1] [0] [] [0] [] 1 ![1, 128]}
    {wfs : ScatterDims.WF ⟨2, ![50000, 128]⟩ ⟨2, ![800000, 1]⟩ ⟨2, ![800000, 128]⟩ [1] [0] [0] 1}
    (hgd : gd = Cert.Lib.GatherScatter.rowsGatherDims 50000 800000 128 wfg)
    (hsd : sd = Cert.Lib.GatherScatter.rowsScatterDims 50000 800000 128 wfs)
    (zero : FVec Ideal SA .f32) (hzero : ∀ i, IsReal (zero i)) (si di : IVec SI 32)
    (z : FVec Ideal SA .f32) (hz : ∀ i, IsReal (z i)) : ∀ i, IsReal (aggOf gd sd zero si di z i) := by
  intro i
  obtain ⟨n, k, rfl⟩ : ∃ (n : Fin 50000) (k : Fin 128), i = ix2 n k := ⟨i 0, i 1, eq_ix2 i⟩
  unfold aggOf Host.scatterAdd
  rw [Ideal.hostScatterAdd_def, Cert.Lib.GatherScatter.hostScatterAdd_rows_apply_of_eq sd hsd]
  refine (hzero _).add (IsReal.sum fun e _ => ?_)
  rw [Cert.Lib.GatherScatter.gather_rows_apply_ix2_of_eq (by norm_num) gd hgd]
  exact hz _

end Cert.Bridge

end
-- ==== Proof.RefValue.lean ====
/-
  The reference's result is the specification's two-layer network of its arguments.

  Piece by piece, at an index: the host's dot_general is the textbook product; a vector broadcast over the rows reads
  the vector at the column; selecting x where x ≥ 0 and slope · x elsewhere is the parametric rectifier; a sum over
  the rows from the zero word is the column sum; the count 50000 - 0 is 50000, which is positive, so the guarded
  quotient is the plain quotient and the variance is the mean of the squared deviations from the mean; the host's
  reciprocal square root is the ideal one; and the slices of the stacked parameters are the layer's matrix, rows and
  scalars.  The aggregation over the edges is carried as one function of the array it aggregates and never opened.
-/
import proofs.«173872_j25031069401694_1_alg».proof.Proof.RefRun
import proofs.«173872_j25031069401694_1_alg».proof.Proof.Spec
import proofs.«173872_j25031069401694_1_alg».proof.Proof.LibPlainDot
import proofs.«173872_j25031069401694_1_alg».proof.Proof.Bridge
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The reference's pieces at the extended reals, entry by entry

Each named piece of the reference's term, read at an index, is the specification's piece: broadcasts read their
operand, the pointwise operations act on the entries, the column reduction is the sum over the 50000 rows, the product
is the textbook product. The aggregation is carried as it stands. -/

/-- A 128-vector as a one-row array. -/
def row (b : FVec Ideal S128 .f32) : Spec.SR.Idx → EReal := fun j => b (ix1 (j 1))

/-- A scalar broadcast reads the scalar. -/
theorem refFill_apply (s : FVec Ideal S_ .f32) (j : S50000x128.Idx) : refFill (F := Ideal) s j = s ix0 := by
  unfold refFill
  exact broadcastInDim_scalar_apply _ _ _

/-- A vector laid as one row reads the vector at the column. -/
theorem asRow_apply (b : FVec Ideal S128 .f32) (q : Fin 128) :
    broadcastInDim S1x128 ![1] bcast_S128_S1x128_1 b (ix2 (0 : Fin 1) q) = b (ix1 q) :=
  broadcastInDim_apply ![1] bcast_S128_S1x128_1 b (ix2 (0 : Fin 1) q) (ix1 q) (fun a => by
    match a with | ⟨0, _⟩ => rfl)

/-- A vector broadcast down the rows reads the vector at the column. -/
theorem refRow_apply (b : FVec Ideal S128 .f32) (p : Fin 50000) (q : Fin 128) :
    refRow (F := Ideal) b (ix2 p q) = b (ix1 q) := by
  unfold refRow
  rw [broadcastInDim_oneRow_apply, asRow_apply]

/-- The product is the textbook product. -/
theorem refDot_eq (h : FVec Ideal S50000x128 .f32) (w : FVec Ideal S128x128 .f32) :
    refDot (F := Ideal) h w = PlainDot.mm h w :=
  PlainDot.dotGeneral_eq_mm (M := 50000) (K := 128) (N := 128) none .single h w

/-- The leaky step at an entry. -/
theorem refAct_apply (x : FVec Ideal S50000x128 .f32) (s : FVec Ideal S_ .f32) (j : S50000x128.Idx) :
    refAct (F := Ideal) x s j = Spec.act (s ix0) (x j) := by
  unfold refAct refActAt Spec.act
  rw [select_apply, cmpf_apply, mulf_apply, refFill_apply, refFill_apply, constant_apply]
  rfl

/-- Bias and leaky step. -/
theorem refPre_eq (y : FVec Ideal S50000x128 .f32) (b : FVec Ideal S128 .f32) (ac : FVec Ideal S_ .f32) :
    refPre (F := Ideal) y b ac = Spec.pre y (row b) (ac ix0) := by
  funext j
  obtain ⟨p, q, rfl⟩ : ∃ p q, j = ix2 p q := ⟨j 0, j 1, eq_ix2 j⟩
  unfold refPre Spec.pre
  rw [refAct_apply, addf_apply, refRow_apply]
  rfl

/-- The source index over column `c` with row `k` inserted. -/
theorem lift_eq (h : S50000x128.Reduces [0] S128) (c : Fin 128) (k : Fin 50000) :
    h.lift (ix1 c) k = ix2 k c := by
  funext a
  match a with
  | ⟨0, _⟩ => exact Fin.ext rfl
  | ⟨1, _⟩ => exact Fin.ext rfl

/-- The column reduction from the zero word is the sum over the rows. -/
theorem colsum_apply (x : FVec Ideal S50000x128 .f32) (c : Fin 128) :
    Host.reduceAdd x (constant S_ .f32 0x00000000#32) reducesTo_S50000x128_S128_d0 h_S_ (ix1 c)
      = ∑ r : Fin 50000, x (ix2 r c) := by
  have hR : S50000x128.Reduces [0] S128 := by decide
  rw [hostReduceAdd_apply, Ideal.hostReduceAdd_single reducesTo_S50000x128_S128_d0 hR, constant_apply,
    Ideal.ofBits_zero_f32, zero_add]
  exact Finset.sum_congr rfl fun k _ => congrArg x (lift_eq hR c k)

/-- The column mean. -/
theorem refMean_apply (x : FVec Ideal S50000x128 .f32) (c : Fin 128) :
    refMean (F := Ideal) x (ix1 c) = Spec.mean x (ix2 (0 : Fin 1) c) := by
  unfold refMean Spec.mean Spec.colsum Spec.nodes
  rw [hostDivf_apply, colsum_apply, broadcastInDim_scalar_apply, constant_apply]

/-- An entry minus its column's mean. -/
theorem refCentered_apply (x : FVec Ideal S50000x128 .f32) (p : Fin 50000) (q : Fin 128) :
    refCentered (F := Ideal) x (ix2 p q) = x (ix2 p q) - Spec.mean x (ix2 (0 : Fin 1) q) := by
  unfold refCentered Spec.mean Spec.colsum Spec.nodes
  rw [subf_apply, broadcastInDim_oneRow_apply, hostDivf_apply, asRow_apply, colsum_apply, broadcastInDim_scalar_apply,
    constant_apply]

/-- The variance's divisor is the number of nodes: the integer 0 converts to 0. -/
theorem refCount_apply : refCount (F := Ideal) ix0 = Spec.nodes := by
  unfold refCount Spec.nodes
  rw [subf_apply, constant_apply, sitofp_apply]
  show Ideal.ofBits .f32 0x47435000#32 - (((constantI S_ 32 0#32 ix0).toInt : ℝ) : EReal) = _
  have h0 : (((constantI S_ 32 0#32 ix0).toInt : ℝ) : EReal) = 0 := by
    show ((((0#32 : BitVec 32).toInt : ℤ) : ℝ) : EReal) = 0
    simp
  rw [h0, sub_zero]

/-- The number of nodes is positive, so the variance function's guard holds. -/
theorem guard_eq : Ideal.cmp .ogt Spec.nodes (Ideal.ofBits .f32 0x00000000#32) = 1#1 := by
  rw [Ideal.ofBits_zero_f32, Cert.Bridge.nodes_eq]
  unfold Ideal.cmp
  have : (0 : EReal) < ((50000 : ℝ) : EReal) := by exact_mod_cast (by norm_num : (0 : ℝ) < 50000)
  simp [this]

/-- The column variance: the mean of the squared deviations. -/
theorem refVar_apply (x : FVec Ideal S50000x128 .f32) (c : Fin 128) :
    refVar (F := Ideal) x (ix1 c) = Spec.varR x (ix2 (0 : Fin 1) c) := by
  unfold refVar
  rw [select_apply, broadcastInDim_scalar_apply, cmpf_apply, constant_apply, refCount_apply]
  show Scalar.select (Ideal.cmp .ogt Spec.nodes (Ideal.ofBits .f32 0x00000000#32)) _ _ = _
  rw [guard_eq, select_one, hostDivf_apply, colsum_apply, broadcastInDim_scalar_apply, refCount_apply]
  have hs : ∀ r : Fin 50000, mulf (refCentered x) (refCentered x) (ix2 r c)
      = (x (ix2 r c) - Spec.mean x (ix2 (0 : Fin 1) c)) * (x (ix2 r c) - Spec.mean x (ix2 (0 : Fin 1) c)) :=
    fun r => by rw [mulf_apply, refCentered_apply]
  rw [Finset.sum_congr rfl fun r _ => hs r]
  rfl

/-- The normalization by the column's own mean and variance, scaled and shifted. -/
theorem refNormed_apply (x : FVec Ideal S50000x128 .f32) (g bt : FVec Ideal S128 .f32) (p : Fin 50000) (q : Fin 128) :
    refNormed (F := Ideal) x g bt (ix2 p q)
      = (x (ix2 p q) - Spec.mean x (ix2 (0 : Fin 1) q)) * Ideal.rsqrt (Spec.varR x (ix2 (0 : Fin 1) q) + Spec.eps)
          * g (ix1 q) + bt (ix1 q) := by
  unfold refNormed refNorm
  rw [addf_apply, mulf_apply, mulf_apply, subf_apply, refRow_apply, refRow_apply, refRow_apply, refRow_apply, refMean_apply]
  show (_ - _) * FloatOps.hostUnary .rsqrt (addf (refVar x) _ (ix1 q)) * _ + _ = _
  rw [addf_apply, refVar_apply, broadcastInDim_scalar_apply, constant_apply, Ideal.hostUnary_rsqrt_def]
  rfl

/-- One layer of the reference is the specification's layer over the carried aggregation. -/
theorem refLayer_eq (h : FVec Ideal S50000x128 .f32) (a1 a2 : IVec S800000 32) (w : FVec Ideal S128x128 .f32)
    (b : FVec Ideal S128 .f32) (ac : FVec Ideal S_ .f32) (g bt : FVec Ideal S128 .f32) (ao : FVec Ideal S_ .f32) :
    refLayer (F := Ideal) h a1 a2 w b ac g bt ao
      = Spec.layerR (fun z => refAgg (F := Ideal) z a1 a2) h w (row b) (ac ix0) (row g) (row bt) (ao ix0) := by
  funext j
  obtain ⟨p, q, rfl⟩ : ∃ p q, j = ix2 p q := ⟨j 0, j 1, eq_ix2 j⟩
  unfold refLayer Spec.layerR Spec.norm
  rw [refAct_apply, refNormed_apply, refPre_eq, refDot_eq]
  rfl

/-! ## The stacked parameters' slices -/

theorem w0_eq (a : FVec Ideal S2x128x128 .f32) : w0 (F := Ideal) a = Spec.wOf 0 a := by
  funext j
  obtain ⟨p, q, rfl⟩ : ∃ p q, j = ix2 p q := ⟨j 0, j 1, eq_ix2 j⟩
  unfold w0 Spec.wOf
  rw [shapeCast_1ab_ab_apply]
  exact extractStridedSlice_apply _ _ _ _ (ix3 (0 : Fin 2) p q) (fun ax => by
    match ax with | ⟨0, _⟩ => rfl | ⟨1, _⟩ => exact (Nat.zero_add _).symm | ⟨2, _⟩ => exact (Nat.zero_add _).symm)

theorem w1_eq (a : FVec Ideal S2x128x128 .f32) : w1 (F := Ideal) a = Spec.wOf 1 a := by
  funext j
  obtain ⟨p, q, rfl⟩ : ∃ p q, j = ix2 p q := ⟨j 0, j 1, eq_ix2 j⟩
  unfold w1 Spec.wOf
  rw [shapeCast_1ab_ab_apply]
  exact extractStridedSlice_apply _ _ _ _ (ix3 (1 : Fin 2) p q) (fun ax => by
    match ax with | ⟨0, _⟩ => rfl | ⟨1, _⟩ => exact (Nat.zero_add _).symm | ⟨2, _⟩ => exact (Nat.zero_add _).symm)

theorem row_b0 (a : FVec Ideal S2x128 .f32) : row (b0 (F := Ideal) a) = Spec.rowOf 0 a := by
  funext j
  obtain ⟨u, q, rfl⟩ : ∃ u q, j = ix2 u q := ⟨j 0, j 1, eq_ix2 j⟩
  show shapeCast S128 (extractStridedSlice S1x128 ![0, 0] a slices_S2x128_S1x128_0_0) shapeCasts_S1x128_S128 (ix1 q)
    = a (ix2 (0 : Fin 2) q)
  rw [shapeCast_1a_a_apply]
  exact slice2_axis0_apply 0 a _ (0 : Fin 1) q (0 : Fin 2) rfl

theorem row_b1 (a : FVec Ideal S2x128 .f32) : row (b1 (F := Ideal) a) = Spec.rowOf 1 a := by
  funext j
  obtain ⟨u, q, rfl⟩ : ∃ u q, j = ix2 u q := ⟨j 0, j 1, eq_ix2 j⟩
  show shapeCast S128 (extractStridedSlice S1x128 ![1, 0] a slices_S2x128_S1x128_1_0) shapeCasts_S1x128_S128 (ix1 q)
    = a (ix2 (1 : Fin 2) q)
  rw [shapeCast_1a_a_apply]
  exact slice2_axis0_apply 1 a _ (0 : Fin 1) q (1 : Fin 2) rfl

theorem s0_apply (a : FVec Ideal S2 .f32) : s0 (F := Ideal) a ix0 = Spec.scOf 0 a := by
  unfold s0 Spec.scOf
  rw [shapeCast_apply _ _ ix0 (ix1 (0 : Fin 1)) rfl]
  exact extractStridedSlice_apply _ _ _ _ (ix1 (0 : Fin 2)) (fun ax => by match ax with | ⟨0, _⟩ => rfl)

theorem s1_apply (a : FVec Ideal S2 .f32) : s1 (F := Ideal) a ix0 = Spec.scOf 1 a := by
  unfold s1 Spec.scOf
  rw [shapeCast_apply _ _ ix0 (ix1 (0 : Fin 1)) rfl]
  exact extractStridedSlice_apply _ _ _ _ (ix1 (1 : Fin 2)) (fun ax => by match ax with | ⟨0, _⟩ => rfl)

/-! ## The result -/

/-- The aggregation is the specification's, at the program's own dimension records, zero array and index columns. -/
theorem refAgg_eq_aggOf (z : FVec Ideal S50000x128 .f32) (a1 a2 : IVec S800000 32) :
    refAgg (F := Ideal) z a1 a2
      = Spec.aggOf gather_S50000x128_S800000x1_S800000x128_1_0_n_n_0_1_1128 scatter_S50000x128_S800000x1_S800000x128_1_0_0_1
          (refFill (constant S_ .f32 0x00000000#32)) (refSrc a1)
          (broadcastInDim S800000x1 ![0] bcast_S800000_S800000x1_0 a2) z := rfl

/-- The reference's result is the specification's two-layer network over the carried aggregation. -/
theorem result_eq_netR (a0 : FVec Ideal S50000x128 .f32) (a1 a2 : IVec S800000 32) (a3 : FVec Ideal S2x128x128 .f32)
    (a4 : FVec Ideal S2x128 .f32) (a5 : FVec Ideal S2 .f32) (a6 a7 : FVec Ideal S2x128 .f32) (a8 : FVec Ideal S2 .f32) :
    RefRun.result (F := Ideal) a0 a1 a2 a3 a4 a5 a6 a7 a8
      = Cert.Spec.netR (fun z => RefRun.refAgg (F := Ideal) z a1 a2) a0 a3 a4 a5 a6 a7 a8 := by
  unfold RefRun.result Cert.Spec.netR
  rw [refLayer_eq, refLayer_eq, w0_eq, w1_eq, row_b0, row_b0, row_b0, row_b1, row_b1, row_b1, s0_apply, s0_apply, s1_apply,
    s1_apply]

end Cert.ReferenceIdeal.RefValue

end
-- ==== Proof.Finite.lean ====
/-
  From the precondition to real inputs.

  The precondition is the conjunction, over the seven float inputs, of "every entry x has |x| < +∞", each written as
  a reduction by "and", from the word 1, of the array of the comparisons max(x, -x) < +∞.  If the conjunction is the
  word 1, every one of the seven reductions is 1; a reduction by "and" over all axes that is 1 met the word 1 at every
  entry; and an extended real whose absolute value is below +∞ is the coercion of a real number.  Hence every
  entry of every float input is real.
-/
import proofs.«173872_j25031069401694_1_alg».proof.Pre_finite_inputs
import proofs.«173872_j25031069401694_1_alg».proof.Proof.Gen.Pre_finite_inputs
import proofs.«173872_j25031069401694_1_alg».proof.Proof.LibERealFinite
import Idealize.ShloMosaic.Lib.ReduceAll
import Idealize.ShloMosaic.Lib.ValueIdx

noncomputable section

namespace Cert.Finite

open Idealize.ShloMosaic Idealize.ShloMosaic.LibERealLaws Cert.Pre_finite_inputs

/-- The shape with no axes has one index. -/
instance : Subsingleton S_.Idx := ⟨fun a b => funext fun d => d.elim0⟩

/-- One conjunct of the precondition, read back: if the reduction by "and", from the word 1 and over all axes, of the
    comparisons max(x, -x) < +∞ over the entries x of an array is the word 1, every entry of the array is real. -/
theorem isReal_of_all {s : Shape} {axes : List (Fin s.rank)} (a : FVec Ideal s .f32)
    (bc : S_.BroadcastsInDim s (![] : Fin 0 → Fin s.rank)) (red : s.ReducesTo axes S_) (hS : 0 < S_.numel)
    (e : Host.reduce IntOp.andi
        (cmpf .olt (Host.absf a) (broadcastInDim s ![] bc (constant S_ .f32 0x7F800000#32)))
        (constantI S_ 1 1#1) red hS ValueIdx.ix0 = 1#1) :
    ∀ i, IsReal (a i) := by
  intro i
  have h := Host.reduce_andi_all _ _ red hS ValueIdx.ix0 e i
  exact isReal_of_cmp_abs_lt_inf h

/-- Under the precondition every entry of every float input is real. -/
theorem finite_of_pre [Cert.Pre_finite_inputs.Facts] (a0 : FVec Ideal S50000x128 .f32) (a1 : IVec S800000 32)
    (a2 : IVec S800000 32) (a3 : FVec Ideal S2x128x128 .f32) (a4 : FVec Ideal S2x128 .f32) (a5 : FVec Ideal S2 .f32)
    (a6 : FVec Ideal S2x128 .f32) (a7 : FVec Ideal S2x128 .f32) (a8 : FVec Ideal S2 .f32)
    (h : Cert.Pre_finite_inputs.fn (F := Ideal) a0 a1 a2 a3 a4 a5 a6 a7 a8 = (fun _ => 1#1)) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have e := congrFun h ValueIdx.ix0
  dsimp only [Cert.Pre_finite_inputs.fn, Cert.Pre_finite_inputs.fn_part1] at e
  simp only [Idealize.ShloMosaic.andi, IntOp.andi_eq_one] at e
  obtain ⟨⟨⟨⟨⟨⟨e0, e3⟩, e4⟩, e5⟩, e6⟩, e7⟩, e8⟩ := e
  exact ⟨isReal_of_all a0 _ _ _ e0, isReal_of_all a3 _ _ _ e3, isReal_of_all a4 _ _ _ e4, isReal_of_all a5 _ _ _ e5,
    isReal_of_all a6 _ _ _ e6, isReal_of_all a7 _ _ _ e7, isReal_of_all a8 _ _ _ e8⟩

end Cert.Finite

end
-- ==== Proof.lean ====
/-
  The certificate's proof: the idealized kernel program and the idealized reference program compute the same
  two-layer graph network on the extended reals whenever every float input is finite.

  Both programs multiply the node features by a weight matrix, sum the products over the incoming edges of every
  node, add a bias, rectify, normalise every feature over the nodes, scale, shift and rectify, twice.  They differ
  in one place: the kernel takes the variance of a feature as the mean of its squares minus the square of its
  mean, the reference as the mean of the squared deviations from the mean.  On real numbers the two agree, and the
  precondition makes every intermediate value a real number: a finite sum of products of reals is real, the
  aggregation is a finite sum, a variance of reals is a nonnegative real, and the reciprocal square root of a
  positive real is real.  So the first layer's outputs agree and are real, and the second layer's agree.

  The kernel's value is read off its run launch by launch (a block of rows at a time, the column sums accumulated
  over the blocks), the reference's off its host operations; both are the specification's network of the arguments.
  The three frames are the programs' runs with the result dropped; the idealization rewrote nothing.
-/
import proofs.«173872_j25031069401694_1_alg».proof.Defs
import proofs.«173872_j25031069401694_1_alg».proof.Proof.Gen.Kernel
import proofs.«173872_j25031069401694_1_alg».proof.Proof.Gen.Kernel.Frame
import proofs.«173872_j25031069401694_1_alg».proof.Proof.Gen.KernelIdeal
import proofs.«173872_j25031069401694_1_alg».proof.Proof.Gen.KernelIdeal.Frame
import proofs.«173872_j25031069401694_1_alg».proof.Proof.Gen.ReferenceIdeal
import proofs.«173872_j25031069401694_1_alg».proof.Proof.Gen.Pre_finite_inputs
import proofs.«173872_j25031069401694_1_alg».proof.Proof.KRun
import proofs.«173872_j25031069401694_1_alg».proof.Proof.KValue
import proofs.«173872_j25031069401694_1_alg».proof.Proof.RefRun
import proofs.«173872_j25031069401694_1_alg».proof.Proof.RefValue
import proofs.«173872_j25031069401694_1_alg».proof.Proof.Bridge
import proofs.«173872_j25031069401694_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.LibERealLaws

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The zero array the aggregation starts from is real. -/
theorem zeroArr_isReal : ∀ i, IsReal (Cert.KernelIdeal.KHost.zeroArr i) := fun _ => ⟨0, Ideal.ofBits_zero_f32⟩

/-- The two programs aggregate over the edges by the same operations. -/
theorem agg_same (a1 a2 : IVec Cert.KernelIdeal.S800000 32) :
    (fun z => Cert.ReferenceIdeal.RefRun.refAgg (F := Ideal) z a1 a2) = Cert.KernelIdeal.KValue.agg a1 a2 :=
  funext fun _ => rfl

/-- On finite inputs the two idealized programs end with the same result. -/
theorem algebraic : Cert.algebraic_KernelIdeal_ReferenceIdeal := by
  intro m ρ m' ρ' hpre hagree
  refine ⟨fun c => Cert.Spec.netK (Cert.KernelIdeal.KValue.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result_eq m ρ c), (h c).2⟩)
      (Cert.KernelIdeal.KRun.run m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8⟩ := hagree c
    rw [e0, e1, e2, e3, e4, e5, e6, e7, e8, Cert.ReferenceIdeal.RefValue.result_eq_netR, agg_same]
    obtain ⟨h0, h3, h4, h5, h6, h7, h8⟩ := Cert.Finite.finite_of_pre _ _ _ _ _ _ _ _ _ (hpre c)
    exact (Cert.Bridge.netK_eq_netR _
      (fun z hz => Cert.Bridge.aggOf_isReal _ _ rfl rfl _ zeroArr_isReal _ _ z hz)
      _ _ _ _ _ _ _ h0 h3 h4 h5 h6 h7 h8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
